-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x256 : Shape := ⟨3, ![4, 128, 256]⟩
abbrev S4x256x256 : Shape := ⟨3, ![4, 256, 256]⟩
abbrev S256x512 : Shape := ⟨2, ![256, 512]⟩
abbrev S256 : Shape := ⟨1, ![256]⟩
abbrev S64x256 : Shape := ⟨2, ![64, 256]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S4x128x256 : S_.BroadcastsInDim S4x128x256 (![] : Fin 0 → Fin S4x128x256.rank)
  reducesTo_S4x128x256_S_d0_1_2 : S4x128x256.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S1 .f32) (main_arg13 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64 .f32) (main_arg9 : FVec F S64 .f32) (main_arg10 : FVec F S1x64 .f32) (main_arg11 : FVec F S1 .f32) (main_arg12 : FVec F S1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S64x256 .f32) (main_arg7 : FVec F S64 .f32) (main_arg8 : FVec F S64 .f32) (main_arg9 : FVec F S64 .f32) (main_arg10 : FVec F S1x64 .f32) (main_arg11 : FVec F S1 .f32) (main_arg12 : FVec F S1 .f32) (main_arg13 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x128x256 .f32) (main_arg1 : FVec F S4x256x256 .f32) (main_arg2 : FVec F S256x512 .f32) (main_arg3 : FVec F S256 .f32) (main_arg4 : FVec F S256 .f32) (main_arg5 : FVec F S256 .f32) (main_arg6 : FVec F S64x256 .f32) (main_arg7 : FVec F S64 .f32) (main_arg8 : FVec F S64 .f32) (main_arg9 : FVec F S64 .f32) (main_arg10 : FVec F S1x64 .f32) (main_arg11 : FVec F S1 .f32) (main_arg12 : FVec F S1 .f32) (main_arg13 : FVec F S1 .f32) : IVec S_ 1 :=
  let main_v0 : FVec F S4x128x256 .f32 := Host.absf main_arg0
  let main_cst : FVec F S_ .f32 := constant S_ .f32 0x7F800000#32
  let main_v1 : FVec F S4x128x256 .f32 := broadcastInDim S4x128x256 ![] bcast_S_S4x128x256 main_cst
  let main_v2 : IVec S4x128x256 1 := cmpf .olt main_v0 main_v1
  let main_c : IVec S_ 1 := constantI S_ 1 1#1
  let main_v3 : IVec S_ 1 := (fun x v => Host.reduce IntOp.andi x v reducesTo_S4x128x256_S_d0_1_2 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x128x256 : Shape := ⟨3, ![4, 128, 256]⟩
abbrev S4x256x256 : Shape := ⟨3, ![4, 256, 256]⟩
abbrev S256x512 : Shape := ⟨2, ![256, 512]⟩
abbrev S256 : Shape := ⟨1, ![256]⟩
abbrev S64x256 : Shape := ⟨2, ![64, 256]⟩
abbrev S64 : Shape := ⟨1, ![64]⟩
abbrev S1x64 : Shape := ⟨2, ![1, 64]⟩
abbrev S1 : Shape := ⟨1, ![1]⟩
abbrev S256x256 : Shape := ⟨2, ![256, 256]⟩
abbrev S4x256x128x256 : Shape := ⟨4, ![4, 256, 128, 256]⟩
abbrev S1x256 : Shape := ⟨2, ![1, 256]⟩
abbrev S1x32x256 : Shape := ⟨3, ![1, 32, 256]⟩
abbrev S1x128x256 : Shape := ⟨3, ![1, 128, 256]⟩
abbrev S1x32x128x256 : Shape := ⟨4, ![1, 32, 128, 256]⟩
abbrev S32x256 : Shape := ⟨2, ![32, 256]⟩
abbrev S128x256 : Shape := ⟨2, ![128, 256]⟩
abbrev S32x1x256 : Shape := ⟨3, ![32, 1, 256]⟩
abbrev S32x128x256 : Shape := ⟨3, ![32, 128, 256]⟩
abbrev S1x1x256 : Shape := ⟨3, ![1, 1, 256]⟩
abbrev S_ : Shape := ⟨0, ![]⟩
abbrev S4x256x128x64 : Shape := ⟨4, ![4, 256, 128, 64]⟩
abbrev S1x32x128x64 : Shape := ⟨4, ![1, 32, 128, 64]⟩
abbrev S4096x256 : Shape := ⟨2, ![4096, 256]⟩
abbrev S256x64 : Shape := ⟨2, ![256, 64]⟩
abbrev S4096x64 : Shape := ⟨2, ![4096, 64]⟩
abbrev S32x128x64 : Shape := ⟨3, ![32, 128, 64]⟩
abbrev S128x64 : Shape := ⟨2, ![128, 64]⟩
abbrev S4x256x128x1 : Shape := ⟨4, ![4, 256, 128, 1]⟩
abbrev S1x1 : Shape := ⟨2, ![1, 1]⟩
abbrev S1x32x128x1 : Shape := ⟨4, ![1, 32, 128, 1]⟩
abbrev S1x1x64 : Shape := ⟨3, ![1, 1, 64]⟩
abbrev S64x1 : Shape := ⟨2, ![64, 1]⟩
abbrev S4096x1 : Shape := ⟨2, ![4096, 1]⟩
abbrev S32x128x1 : Shape := ⟨3, ![32, 128, 1]⟩
abbrev S128x1 : Shape := ⟨2, ![128, 1]⟩
abbrev S1x1x1 : Shape := ⟨3, ![1, 1, 1]⟩
abbrev S4x1x256x128 : Shape := ⟨4, ![4, 1, 256, 128]⟩

abbrev nBuf : Space → Nat
  | .hbm => 78
  | .vmem => 37
  | .smem => 0
  | _ => 0

abbrev bufTy : (tb : Table) → Fin (tcTables nBuf tb) → BufTy
  | .hbm, ⟨0, _⟩ => ⟨S4x128x256, .f32⟩
  | .hbm, ⟨1, _⟩ => ⟨S4x256x256, .f32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S256x256, .f32⟩
  | .hbm, ⟨15, _⟩ => ⟨S256x256, .f32⟩
  | .hbm, ⟨16, _⟩ => ⟨S4x256x128x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S4x256x128x64, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S4x256x128x1, .f32⟩
  | .hbm, ⟨57, _⟩ => ⟨S1x1, .f32⟩
  | .hbm, ⟨58, _⟩ => ⟨S1x1, .f32⟩
  | .hbm, ⟨59, _⟩ => ⟨S_, .f32⟩
  | .hbm, ⟨60, _⟩ => ⟨S1x1, .f32⟩
  | .hbm, ⟨61, _⟩ => ⟨S1x1, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S1x1, .f32⟩
  | .hbm, ⟨67, _⟩ => ⟨S1x1, .f32⟩
  | .hbm, ⟨68, _⟩ => ⟨S_, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S1x1, .f32⟩
  | .hbm, ⟨74, _⟩ => ⟨S1x1, .f32⟩
  | .hbm, ⟨75, _⟩ => ⟨S1x1, .f32⟩
  | .hbm, ⟨76, _⟩ => ⟨S4x256x128x1, .f32⟩
  | .hbm, ⟨77, _⟩ => ⟨S4x1x256x128, .f32⟩
  | .local _ .vmem, ⟨0, _⟩ => ⟨S1x32x256, .f32⟩
  | .local _ .vmem, ⟨1, _⟩ => ⟨S1x32x256, .f32⟩
  | .local _ .vmem, ⟨2, _⟩ => ⟨S1x128x256, .f32⟩
  | .local _ .vmem, ⟨3, _⟩ => ⟨S1x128x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S1x32x128x256, .f32⟩
  | .local _ .vmem, ⟨8, _⟩ => ⟨S1x32x128x256, .f32⟩
  | .local _ .vmem, ⟨9, _⟩ => ⟨S1x256, .f32⟩
  | .local _ .vmem, ⟨10, _⟩ => ⟨S1x256, .f32⟩
  | .local _ .vmem, ⟨11, _⟩ => ⟨S1x32x128x256, .f32⟩
  | .local _ .vmem, ⟨12, _⟩ => ⟨S1x32x128x256, .f32⟩
  | .local _ .vmem, ⟨13, _⟩ => ⟨S1x256, .f32⟩
  | .local _ .vmem, ⟨14, _⟩ => ⟨S1x256, .f32⟩
  | .local _ .vmem, ⟨15, _⟩ => ⟨S64x256, .f32⟩
  | .local _ .vmem, ⟨16, _⟩ => ⟨S64, .f32⟩
  | .local _ .vmem, ⟨17, _⟩ => ⟨S1x32x128x64, .f32⟩
  | .local _ .vmem, ⟨18, _⟩ => ⟨S1x32x128x64, .f32⟩
  | .local _ .vmem, ⟨19, _⟩ => ⟨S1x64, .f32⟩
  | .local _ .vmem, ⟨20, _⟩ => ⟨S1x64, .f32⟩
  | .local _ .vmem, ⟨21, _⟩ => ⟨S1x32x128x64, .f32⟩
  | .local _ .vmem, ⟨22, _⟩ => ⟨S1x32x128x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1, .f32⟩
  | .local _ .vmem, ⟨27, _⟩ => ⟨S1x32x128x1, .f32⟩
  | .local _ .vmem, ⟨28, _⟩ => ⟨S1x32x128x1, .f32⟩
  | .local _ .vmem, ⟨29, _⟩ => ⟨S1x1, .f32⟩
  | .local _ .vmem, ⟨30, _⟩ => ⟨S1x1, .f32⟩
  | .local _ .vmem, ⟨31, _⟩ => ⟨S1x32x128x1, .f32⟩
  | .local _ .vmem, ⟨32, _⟩ => ⟨S1x32x128x1, .f32⟩
  | .local _ .vmem, ⟨33, _⟩ => ⟨S1x1, .f32⟩
  | .local _ .vmem, ⟨34, _⟩ => ⟨S1x1, .f32⟩
  | .local _ .vmem, ⟨35, _⟩ => ⟨S1x32x128x1, .f32⟩
  | .local _ .vmem, ⟨36, _⟩ => ⟨S1x32x128x1, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v17_2 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg7_0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem7_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem7_0 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x32x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x32x128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x32x128x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x32x128x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  slices_S256x512_S256x256_0_0 : S256x512.Slices ![0, 0] S256x256
  slices_S256x512_S256x256_0_256 : S256x512.Slices ![0, 256] S256x256
  inb_S1x256_S1x256_0_0 : ∀ a, (![0, 0] : Fin 2 → Nat) a + S1x256.size a ≤ S1x256.size a
  h_S1x256 : 0 < S1x256.numel
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S256_S256_0 : ∀ a, (![0] : Fin 1 → Nat) a + S256.size a ≤ S256.size a
  h_S256 : 0 < S256.numel
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S256_S1x1x256 : S256.ShapeCasts S1x1x256
  broadcasts_S1x1x256_S32x128x256 : S1x1x256.Broadcasts S32x128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x128x256_S1x32x128x256 : S32x128x256.ShapeCasts S1x32x128x256
  reduces_S32x128x256_S128x256 : S32x128x256.Reduces [0] S128x256
  reduces_S128x256_S256 : S128x256.Reduces [0] S256
  shapeCasts_S1x256_S1x256 : S1x256.ShapeCasts S1x256
  shapeCasts_S256_S1x256 : S256.ShapeCasts S1x256
  bcast_S_S1x256 : S_.BroadcastsInDim S1x256 (![] : Fin 0 → Fin S1x256.rank)
  bcast_S256_S1x256_1 : S256.BroadcastsInDim S1x256 (![1] : Fin 1 → Fin S1x256.rank)
  inb_S1x64_S1x64_0_0 : ∀ a, (![0, 0] : Fin 2 → Nat) a + S1x64.size a ≤ S1x64.size a
  h_S1x64 : 0 < S1x64.numel
  shapeCasts_S1x256_S256 : S1x256.ShapeCasts S256
  shapeCasts_S32x128x256_S4096x256 : S32x128x256.ShapeCasts S4096x256
  inb_S64x256_S64x256_0_0 : ∀ a, (![0, 0] : Fin 2 → Nat) a + S64x256.size a ≤ S64x256.size a
  h_S64x256 : 0 < S64x256.numel
  inb_S64_S64_0 : ∀ a, (![0] : Fin 1 → Nat) a + S64.size a ≤ S64.size a
  h_S64 : 0 < S64.numel
  transposes_S64x256_p1_0_S256x64 : S64x256.Transposes [1, 0] S256x64
  shapeCasts_S64_S1x64 : S64.ShapeCasts S1x64
  broadcasts_S1x64_S4096x64 : S1x64.Broadcasts S4096x64
  shapeCasts_S4096x64_S32x128x64 : S4096x64.ShapeCasts S32x128x64
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S32x128x64 : S1x32x128x64.ShapeCasts S32x128x64
  shapeCasts_S32x128x64_S1x32x128x64 : S32x128x64.ShapeCasts S1x32x128x64
  reduces_S32x128x64_S128x64 : S32x128x64.Reduces [0] S128x64
  reduces_S128x64_S64 : S128x64.Reduces [0] S64
  shapeCasts_S1x64_S1x64 : S1x64.ShapeCasts S1x64
  bcast_S_S1x64 : S_.BroadcastsInDim S1x64 (![] : Fin 0 → Fin S1x64.rank)
  bcast_S64_S1x64_1 : S64.BroadcastsInDim S1x64 (![1] : Fin 1 → Fin S1x64.rank)
  inb_S1x1_S1x1_0_0 : ∀ a, (![0, 0] : Fin 2 → Nat) a + S1x1.size a ≤ S1x1.size a
  h_S1x1 : 0 < S1x1.numel
  shapeCasts_S1x64_S64 : S1x64.ShapeCasts S64
  shapeCasts_S64_S1x1x64 : S64.ShapeCasts S1x1x64
  broadcasts_S1x1x64_S32x128x64 : S1x1x64.Broadcasts S32x128x64
  shapeCasts_S32x128x64_S4096x64 : S32x128x64.ShapeCasts S4096x64
  inb_S1_S1_0 : ∀ a, (![0] : Fin 1 → Nat) a + S1.size a ≤ S1.size a
  h_S1 : 0 < S1.numel
  transposes_S1x64_p1_0_S64x1 : S1x64.Transposes [1, 0] S64x1
  shapeCasts_S1_S1x1 : S1.ShapeCasts S1x1
  broadcasts_S1x1_S4096x1 : S1x1.Broadcasts S4096x1
  shapeCasts_S4096x1_S32x128x1 : S4096x1.ShapeCasts S32x128x1
  inb_S1x32x128x1_S1x32x128x1_0_0_0_0 : ∀ a, (![0, 0, 0, 0] : Fin 4 → Nat) a + S1x32x128x1.size a ≤ S1x32x128x1.size a
  h_S1x32x128x1 : 0 < S1x32x128x1.numel
  shapeCasts_S1x32x128x1_S32x128x1 : S1x32x128x1.ShapeCasts S32x128x1
  shapeCasts_S32x128x1_S1x32x128x1 : S32x128x1.ShapeCasts S1x32x128x1
  reduces_S32x128x1_S128x1 : S32x128x1.Reduces [0] S128x1
  reduces_S128x1_S1 : S128x1.Reduces [0] S1
  shapeCasts_S1x1_S1x1 : S1x1.ShapeCasts S1x1
  bcast_S_S1x1 : S_.BroadcastsInDim S1x1 (![] : Fin 0 → Fin S1x1.rank)
  bcast_S1_S1x1_1 : S1.BroadcastsInDim S1x1 (![1] : Fin 1 → Fin S1x1.rank)
  shapeCasts_S1x1_S1 : S1x1.ShapeCasts S1
  shapeCasts_S1_S1x1x1 : S1.ShapeCasts S1x1x1
  broadcasts_S1x1x1_S32x128x1 : S1x1x1.Broadcasts S32x128x1
  transposes_S4x256x128x1_S4x1x256x128_0_3_1_2 : S4x256x128x1.Transposes [0, 3, 1, 2] S4x1x256x128
  dot_S32x256_S256x256_S32x256_1_0_0_1_n_n_wf : DotDims.WF S32x256 S256x256 S32x256 [1] [0] [0] [1] [] []
  dot_S128x256_S256x256_S128x256_1_0_0_1_n_n_wf : DotDims.WF S128x256 S256x256 S128x256 [1] [0] [0] [1] [] []
  dot_S4096x256_S256x64_S4096x64_1_0_0_1_n_n_wf : DotDims.WF S4096x256 S256x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S4x256x256.size a
  hwx0_0 : ∀ i : grid0.Coords, EltTy.bits .f32 = 32 ∨ (Rect.block (s := S4x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x256.size a
  hwx0_1 : ∀ i : grid0.Coords, EltTy.bits .f32 = 32 ∨ (Rect.block (s := S4x128x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128x256.size a ≤ S4x256x128x256.size a
  hwx0_5 : ∀ i : grid0.Coords, EltTy.bits .f32 = 32 ∨ (Rect.block (s := S4x256x128x256) S1x32x128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x128x256.size a ≤ S4x256x128x256.size a
  hwx1_0 : ∀ i : grid1.Coords, EltTy.bits .f32 = 32 ∨ (Rect.block (s := S4x256x128x256) S1x32x128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x128x64.size a ≤ S4x256x128x64.size a
  hwx1_5 : ∀ i : grid1.Coords, EltTy.bits .f32 = 32 ∨ (Rect.block (s := S4x256x128x64) S1x32x128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x128x64.size a ≤ S4x256x128x64.size a
  hwx2_0 : ∀ i : grid2.Coords, EltTy.bits .f32 = 32 ∨ (Rect.block (s := S4x256x128x64) S1x32x128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x32x128x1.size a ≤ S4x256x128x1.size a
  hwx2_5 : ∀ i : grid2.Coords, EltTy.bits .f32 = 32 ∨ (Rect.block (s := S4x256x128x1) S1x32x128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x128x1.size a ≤ S4x256x128x1.size a
  hwx3_0 : ∀ i : grid3.Coords, EltTy.bits .f32 = 32 ∨ (Rect.block (s := S4x256x128x1) S1x32x128x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x32x128x1.size a ≤ S4x256x128x1.size a
  hwx3_3 : ∀ i : grid3.Coords, EltTy.bits .f32 = 32 ∨ (Rect.block (s := S4x256x128x1) S1x32x128x1.size (cc3_transform_3 i) (hinb3_3 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg1) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x32x128x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S1x32x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17_0) S1x32x128x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17_1) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17_2) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v17_0) S1x32x128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32_0) S1x32x128x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32_1) S1x1.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32_2) S1x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v32_0) S1x32x128x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x32x128x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x128x256 : Shape := ⟨3, ![4, 128, 256]⟩
abbrev S4x256x256 : Shape := ⟨3, ![4, 256, 256]⟩
abbrev S256x512 : Shape := ⟨2, ![256, 512]⟩
abbrev S256 : Shape := ⟨1, ![256]⟩
abbrev S64x256 : Shape := ⟨2, ![64, 256]⟩
abbrev S64 : Shape := ⟨1, ![64]⟩
abbrev S1x64 : Shape := ⟨2, ![1, 64]⟩
abbrev S1 : Shape := ⟨1, ![1]⟩
abbrev S4x256x1x256 : Shape := ⟨4, ![4, 256, 1, 256]⟩
abbrev S4x256x128x256 : Shape := ⟨4, ![4, 256, 128, 256]⟩
abbrev S4x1x128x256 : Shape := ⟨4, ![4, 1, 128, 256]⟩
abbrev S4x256x128x512 : Shape := ⟨4, ![4, 256, 128, 512]⟩
abbrev S4x32768x512 : Shape := ⟨3, ![4, 32768, 512]⟩
abbrev S4x32768x256 : Shape := ⟨3, ![4, 32768, 256]⟩
abbrev S1x1x256 : Shape := ⟨3, ![1, 1, 256]⟩
abbrev S_ : Shape := ⟨0, ![]⟩
abbrev S4x32768x64 : Shape := ⟨3, ![4, 32768, 64]⟩
abbrev S1x1x64 : Shape := ⟨3, ![1, 1, 64]⟩
abbrev S4x32768x1 : Shape := ⟨3, ![4, 32768, 1]⟩
abbrev S1x1x1 : Shape := ⟨3, ![1, 1, 1]⟩
abbrev S4x1x32768 : Shape := ⟨3, ![4, 1, 32768]⟩
abbrev S4x1x256x128 : Shape := ⟨4, ![4, 1, 256, 128]⟩

abbrev nBuf : Space → Nat
  | .hbm => 127
  | .vmem => 0
  | .smem => 0
  | _ => 0

abbrev bufTy : (tb : Table) → Fin (tcTables nBuf tb) → BufTy
  | .hbm, ⟨0, _⟩ => ⟨S4x128x256, .f32⟩
  | .hbm, ⟨1, _⟩ => ⟨S4x256x256, .f32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S4x256x1x256, .f32⟩
  | .hbm, ⟨15, _⟩ => ⟨S4x256x128x256, .f32⟩
  | .hbm, ⟨16, _⟩ => ⟨S4x1x128x256, .f32⟩
  | .hbm, ⟨17, _⟩ => ⟨S4x256x128x256, .f32⟩
  | .hbm, ⟨18, _⟩ => ⟨S4x256x128x512, .f32⟩
  | .hbm, ⟨19, _⟩ => ⟨S4x32768x512, .f32⟩
  | .hbm, ⟨20, _⟩ => ⟨S4x32768x256, .f32⟩
  | .hbm, ⟨21, _⟩ => ⟨S1x1x256, .f32⟩
  | .hbm, ⟨22, _⟩ => ⟨S4x32768x256, .f32⟩
  | .hbm, ⟨23, _⟩ => ⟨S4x32768x256, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S1x1x256, .f32⟩
  | .hbm, ⟨30, _⟩ => ⟨S4x32768x256, .f32⟩
  | .hbm, ⟨31, _⟩ => ⟨S4x32768x256, .f32⟩
  | .hbm, ⟨32, _⟩ => ⟨S4x32768x256, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S1x1x256, .f32⟩
  | .hbm, ⟨39, _⟩ => ⟨S4x32768x256, .f32⟩
  | .hbm, ⟨40, _⟩ => ⟨S4x32768x256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x1x256, .f32⟩
  | .hbm, ⟨47, _⟩ => ⟨S4x32768x256, .f32⟩
  | .hbm, ⟨48, _⟩ => ⟨S4x32768x256, .f32⟩
  | .hbm, ⟨49, _⟩ => ⟨S1x1x256, .f32⟩
  | .hbm, ⟨50, _⟩ => ⟨S4x32768x256, .f32⟩
  | .hbm, ⟨51, _⟩ => ⟨S4x32768x256, .f32⟩
  | .hbm, ⟨52, _⟩ => ⟨S_, .f32⟩
  | .hbm, ⟨53, _⟩ => ⟨S4x32768x256, .f32⟩
  | .hbm, ⟨54, _⟩ => ⟨S4x32768x256, .f32⟩
  | .hbm, ⟨55, _⟩ => ⟨S4x32768x64, .f32⟩
  | .hbm, ⟨56, _⟩ => ⟨S1x1x64, .f32⟩
  | .hbm, ⟨57, _⟩ => ⟨S4x32768x64, .f32⟩
  | .hbm, ⟨58, _⟩ => ⟨S4x32768x64, .f32⟩
  | .hbm, ⟨59, _⟩ => ⟨S_, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S1x1x64, .f32⟩
  | .hbm, ⟨65, _⟩ => ⟨S4x32768x64, .f32⟩
  | .hbm, ⟨66, _⟩ => ⟨S4x32768x64, .f32⟩
  | .hbm, ⟨67, _⟩ => ⟨S4x32768x64, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x1x64, .f32⟩
  | .hbm, ⟨74, _⟩ => ⟨S4x32768x64, .f32⟩
  | .hbm, ⟨75, _⟩ => ⟨S4x32768x64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S4x32768x64, .f32⟩
  | .hbm, ⟨83, _⟩ => ⟨S4x32768x64, .f32⟩
  | .hbm, ⟨84, _⟩ => ⟨S1x1x64, .f32⟩
  | .hbm, ⟨85, _⟩ => ⟨S4x32768x64, .f32⟩
  | .hbm, ⟨86, _⟩ => ⟨S4x32768x64, .f32⟩
  | .hbm, ⟨87, _⟩ => ⟨S_, .f32⟩
  | .hbm, ⟨88, _⟩ => ⟨S4x32768x64, .f32⟩
  | .hbm, ⟨89, _⟩ => ⟨S4x32768x64, .f32⟩
  | .hbm, ⟨90, _⟩ => ⟨S4x32768x1, .f32⟩
  | .hbm, ⟨91, _⟩ => ⟨S1x1x1, .f32⟩
  | .hbm, ⟨92, _⟩ => ⟨S4x32768x1, .f32⟩
  | .hbm, ⟨93, _⟩ => ⟨S4x32768x1, .f32⟩
  | .hbm, ⟨94, _⟩ => ⟨S_, .f32⟩
  | .hbm, ⟨95, _⟩ => ⟨S1, .f32⟩
  | .hbm, ⟨96, _⟩ => ⟨S_, .f32⟩
  | .hbm, ⟨97, _⟩ => ⟨S1, .f32⟩
  | .hbm, ⟨98, _⟩ => ⟨S1, .f32⟩
  | .hbm, ⟨99, _⟩ => ⟨S1x1x1, .f32⟩
  | .hbm, ⟨100, _⟩ => ⟨S4x32768x1, .f32⟩
  | .hbm, ⟨101, _⟩ => ⟨S4x32768x1, .f32⟩
  | .hbm, ⟨102, _⟩ => ⟨S4x32768x1, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1x1, .f32⟩
  | .hbm, ⟨109, _⟩ => ⟨S4x32768x1, .f32⟩
  | .hbm, ⟨110, _⟩ => ⟨S4x32768x1, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1, .f32⟩
  | .hbm, ⟨115, _⟩ => ⟨S1, .f32⟩
  | .hbm, ⟨116, _⟩ => ⟨S1x1x1, .f32⟩
  | .hbm, ⟨117, _⟩ => ⟨S4x32768x1, .f32⟩
  | .hbm, ⟨118, _⟩ => ⟨S4x32768x1, .f32⟩
  | .hbm, ⟨119, _⟩ => ⟨S1x1x1, .f32⟩
  | .hbm, ⟨120, _⟩ => ⟨S4x32768x1, .f32⟩
  | .hbm, ⟨121, _⟩ => ⟨S4x32768x1, .f32⟩
  | .hbm, ⟨122, _⟩ => ⟨S_, .f32⟩
  | .hbm, ⟨123, _⟩ => ⟨S4x32768x1, .f32⟩
  | .hbm, ⟨124, _⟩ => ⟨S4x32768x1, .f32⟩
  | .hbm, ⟨125, _⟩ => ⟨S4x1x32768, .f32⟩
  | .hbm, ⟨126, _⟩ => ⟨S4x1x256x128, .f32⟩
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call2_cst : Ref sig .tc := ⟨.hbm, 122, rfl⟩
abbrev main_call2_v0 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  bcast_S4x256x256_S4x256x1x256_0_1_3 : S4x256x256.BroadcastsInDim S4x256x1x256 (![0, 1, 3] : Fin 3 → Fin S4x256x1x256.rank)
  bcast_S4x256x1x256_S4x256x128x256_0_1_2_3 : S4x256x1x256.BroadcastsInDim S4x256x128x256 (![0, 1, 2, 3] : Fin 4 → Fin S4x256x128x256.rank)
  bcast_S4x128x256_S4x1x128x256_0_2_3 : S4x128x256.BroadcastsInDim S4x1x128x256 (![0, 2, 3] : Fin 3 → Fin S4x1x128x256.rank)
  bcast_S4x1x128x256_S4x256x128x256_0_1_2_3 : S4x1x128x256.BroadcastsInDim S4x256x128x256 (![0, 1, 2, 3] : Fin 4 → Fin S4x256x128x256.rank)
  concatenates_S4x256x128x256_S4x256x128x256_S4x256x128x512_d3 : Shape.Concatenates [S4x256x128x256, S4x256x128x256] S4x256x128x512 3
  shapeCasts_S4x256x128x512_S4x32768x512 : S4x256x128x512.ShapeCasts S4x32768x512
  bcast_S256_S1x1x256_2 : S256.BroadcastsInDim S1x1x256 (![2] : Fin 1 → Fin S1x1x256.rank)
  bcast_S1x1x256_S4x32768x256_0_1_2 : S1x1x256.BroadcastsInDim S4x32768x256 (![0, 1, 2] : Fin 3 → Fin S4x32768x256.rank)
  reducesTo_S4x32768x256_S256_d0_1 : S4x32768x256.ReducesTo [0, 1] S256
  h_S_ : 0 < S_.numel
  bcast_S_S256 : S_.BroadcastsInDim S256 (![] : Fin 0 → Fin S256.rank)
  bcast_S_S4x32768x256 : S_.BroadcastsInDim S4x32768x256 (![] : Fin 0 → Fin S4x32768x256.rank)
  bcast_S64_S1x1x64_2 : S64.BroadcastsInDim S1x1x64 (![2] : Fin 1 → Fin S1x1x64.rank)
  bcast_S1x1x64_S4x32768x64_0_1_2 : S1x1x64.BroadcastsInDim S4x32768x64 (![0, 1, 2] : Fin 3 → Fin S4x32768x64.rank)
  reducesTo_S4x32768x64_S64_d0_1 : S4x32768x64.ReducesTo [0, 1] S64
  bcast_S_S64 : S_.BroadcastsInDim S64 (![] : Fin 0 → Fin S64.rank)
  bcast_S_S4x32768x64 : S_.BroadcastsInDim S4x32768x64 (![] : Fin 0 → Fin S4x32768x64.rank)
  bcast_S1_S1x1x1_2 : S1.BroadcastsInDim S1x1x1 (![2] : Fin 1 → Fin S1x1x1.rank)
  bcast_S1x1x1_S4x32768x1_0_1_2 : S1x1x1.BroadcastsInDim S4x32768x1 (![0, 1, 2] : Fin 3 → Fin S4x32768x1.rank)
  reducesTo_S4x32768x1_S1_d0_1 : S4x32768x1.ReducesTo [0, 1] S1
  bcast_S_S1 : S_.BroadcastsInDim S1 (![] : Fin 0 → Fin S1.rank)
  bcast_S_S4x32768x1 : S_.BroadcastsInDim S4x32768x1 (![] : Fin 0 → Fin S4x32768x1.rank)
  transposes_S4x32768x1_S4x1x32768_0_2_1 : S4x32768x1.Transposes [0, 2, 1] S4x1x32768
  shapeCasts_S4x1x32768_S4x1x256x128 : S4x1x32768.ShapeCasts S4x1x256x128
  dot_S4x32768x512_S256x512_S4x32768x256_2_1_01_0_n_n_wf : DotDims.WF S4x32768x512 S256x512 S4x32768x256 [2] [1] [0, 1] [0] [] []
  dot_S4x32768x256_S64x256_S4x32768x64_2_1_01_0_n_n_wf : DotDims.WF S4x32768x256 S64x256 S4x32768x64 [2] [1] [0, 1] [0] [] []
  dot_S4x32768x64_S1x64_S4x32768x1_2_1_01_0_n_n_wf : DotDims.WF S4x32768x64 S1x64 S4x32768x1 [2] [1] [0, 1] [0] [] []

variable [Facts₀]

def dot_S4x32768x512_S256x512_S4x32768x256_2_1_01_0_n_n : DotDims S4x32768x512 S256x512 S4x32768x256 where
  lhsContracting := [2]
  rhsContracting := [1]
  lhsNonContracting := [0, 1]
  rhsNonContracting := [0]
  lhsBatch := []
  rhsBatch := []
  wf := dot_S4x32768x512_S256x512_S4x32768x256_2_1_01_0_n_n_wf
def dot_S4x32768x256_S64x256_S4x32768x64_2_1_01_0_n_n : DotDims S4x32768x256 S64x256 S4x32768x64 where
  lhsContracting := [2]
  rhsContracting := [1]
  lhsNonContracting := [0, 1]
  rhsNonContracting := [0]
  lhsBatch := []
  rhsBatch := []
  wf := dot_S4x32768x256_S64x256_S4x32768x64_2_1_01_0_n_n_wf
def dot_S4x32768x64_S1x64_S4x32768x1_2_1_01_0_n_n : DotDims S4x32768x64 S1x64 S4x32768x1 where
  lhsContracting := [2]
  rhsContracting := [1]
  lhsNonContracting := [0, 1]
  rhsNonContracting := [0]
  lhsBatch := []
  rhsBatch := []
  wf := dot_S4x32768x64_S1x64_S4x32768x1_2_1_01_0_n_n_wf

class Facts : Prop extends Facts₀ where

variable [Facts]
-- ==== Proof.KernelRun.lean ====
/-
  The idealized kernel program's run with its RESULT named.

  The program is four kernel launches among stretches of host operations. Its run is the chain of these nine
  segments; the buffer contents at each boundary are a fold from the launch memory, ending at `Gen.W9`. Every
  weakly fair execution terminates, nothing faults, the fourteen argument arrays end as launched, and the
  result buffer ends at what that fold holds for it.
-/
import proofs.«104936_j50861002719650_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments from the launch memory: the last thread state holds every unscoped buffer at the
    fold's final contents, which is read against the final state. -/
theorem run_main : θ_run defs (onTc (τ := τ) (main (F := F))) ⟨m, fun _ => 0, ρ⟩ (fun r => ∀ c : Dev nD,
      r.2.mem ((c.tc : Thread nD τ).loc main_v48) = W9 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v48 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.RunValue

end
-- ==== Proof.Spec.lean ====
/-
  The mathematics both programs compute, written once over the extended reals.

  Positions are triples (b, q, s): batch, query row, support row — 4 · 256 · 128 = 131072 of them. A layer's
  pre-activation is an array over positions and output channels. Batch normalisation takes, per channel, the
  mean and the variance of the pre-activation over ALL positions, and is followed by max(·, 0).

  The two programs differ only in how they arrange this:
  * the first pre-activation is a product with the concatenation [query row ; support row] (512 terms), or the
    sum of two products of 256 terms each;
  * the variance is the mean of squared deviations, or the mean of squares minus the squared mean;
  * the normalised value is (x - mean) · scale + shift, or x · scale + (shift - mean · scale).
  On finite data these agree (Proof/SpecAlgebra.lean).
-/
import Idealize.ShloMosaic.PureOps.Ideal

noncomputable section

namespace Cert.Spec

open Idealize.ShloMosaic

/-- A position: (batch, query row, support row). -/
abbrev Pos : Type := Fin 4 × Fin 256 × Fin 128

/-- The number of positions, 131072 = 2^17, as the programs write it. -/
abbrev nN : EReal := Ideal.ofBits .f32 0x48000000#32
/-- The variance offset, the single-precision number nearest 1e-5, as the programs write it. -/
abbrev eps : EReal := Ideal.ofBits .f32 0x3727C5AC#32

/-- The mean of one channel over all positions. -/
def mean (x : Pos → EReal) : EReal := Ideal.div (∑ p, x p) nN

/-! ## One arrangement: statistics from the sum and the sum of squares, then x · scale + shift -/

/-- mean of squares minus squared mean -/
def varK (x : Pos → EReal) : EReal := Ideal.div (∑ p, x p * x p) nN - mean x * mean x
def scaleK (g : EReal) (x : Pos → EReal) : EReal := g * Ideal.rsqrt (varK x + eps)
def shiftK (g bt : EReal) (x : Pos → EReal) : EReal := bt - mean x * scaleK g x
/-- normalise one channel and clamp at zero -/
def actK (g bt : EReal) (x : Pos → EReal) (p : Pos) : EReal := max (x p * scaleK g x + shiftK g bt x) 0

/-! ## The other arrangement: mean of squared deviations, then (x - mean) · scale + shift -/

def varR (x : Pos → EReal) : EReal := Ideal.div (∑ p, (x p - mean x) * (x p - mean x)) nN
def actR (g bt : EReal) (x : Pos → EReal) (p : Pos) : EReal :=
  max ((x p - mean x) * (g * Ideal.rsqrt (varR x + eps)) + bt) 0

/-! ## A dense layer: one output channel at one position -/

/-- sum over the input channels of activation times weight, plus the bias -/
def dense {K : ℕ} (h : Fin K → EReal) (w : Fin K → EReal) (b : EReal) : EReal := (∑ k, h k * w k) + b

/-- The concatenated row [query row ; support row] of 512 channels. -/
def cat (qrow srow : Fin 256 → EReal) (k : Fin 512) : EReal :=
  if h : k.val < 256 then qrow ⟨k.val, h⟩ else srow ⟨k.val - 256, by omega⟩

/-- The first layer as two products of 256 terms: the weight's left half meets the query row, its right half the
    support row. -/
def dense0K (qrow srow : Fin 256 → EReal) (w : Fin 512 → EReal) (b : EReal) : EReal :=
  ((∑ k : Fin 256, qrow k * w ⟨k.val, by omega⟩) + (∑ k : Fin 256, srow k * w ⟨256 + k.val, by omega⟩)) + b

/-! ## The whole network -/

/-- The fourteen argument arrays, by coordinates. -/
structure Inputs where
  S : Fin 4 → Fin 128 → Fin 256 → EReal
  Q : Fin 4 → Fin 256 → Fin 256 → EReal
  W0 : Fin 256 → Fin 512 → EReal
  b0 : Fin 256 → EReal
  g0 : Fin 256 → EReal
  bt0 : Fin 256 → EReal
  W1 : Fin 64 → Fin 256 → EReal
  b1 : Fin 64 → EReal
  g1 : Fin 64 → EReal
  bt1 : Fin 64 → EReal
  W2 : Fin 1 → Fin 64 → EReal
  b2 : Fin 1 → EReal
  g2 : Fin 1 → EReal
  bt2 : Fin 1 → EReal

/-- Every entry of every argument is a real number. -/
structure Inputs.IsReal (I : Inputs) : Prop where
  S : ∀ b s k, ∃ r : ℝ, I.S b s k = r
  Q : ∀ b q k, ∃ r : ℝ, I.Q b q k = r
  W0 : ∀ o k, ∃ r : ℝ, I.W0 o k = r
  b0 : ∀ o, ∃ r : ℝ, I.b0 o = r
  g0 : ∀ o, ∃ r : ℝ, I.g0 o = r
  bt0 : ∀ o, ∃ r : ℝ, I.bt0 o = r
  W1 : ∀ o k, ∃ r : ℝ, I.W1 o k = r
  b1 : ∀ o, ∃ r : ℝ, I.b1 o = r
  g1 : ∀ o, ∃ r : ℝ, I.g1 o = r
  bt1 : ∀ o, ∃ r : ℝ, I.bt1 o = r
  W2 : ∀ o k, ∃ r : ℝ, I.W2 o k = r
  b2 : ∀ o, ∃ r : ℝ, I.b2 o = r
  g2 : ∀ o, ∃ r : ℝ, I.g2 o = r
  bt2 : ∀ o, ∃ r : ℝ, I.bt2 o = r

variable (I : Inputs)

/-! ### First arrangement (statistics from sums; two half products) -/
def x0K (p : Pos) (o : Fin 256) : EReal := dense0K (I.Q p.1 p.2.1) (I.S p.1 p.2.2) (I.W0 o) (I.b0 o)
def h0K (p : Pos) (o : Fin 256) : EReal := actK (I.g0 o) (I.bt0 o) (fun p' => x0K I p' o) p
def x1K (p : Pos) (o : Fin 64) : EReal := dense (h0K I p) (I.W1 o) (I.b1 o)
def h1K (p : Pos) (o : Fin 64) : EReal := actK (I.g1 o) (I.bt1 o) (fun p' => x1K I p' o) p
def x2K (p : Pos) (o : Fin 1) : EReal := dense (h1K I p) (I.W2 o) (I.b2 o)
def outK (p : Pos) (o : Fin 1) : EReal := actK (I.g2 o) (I.bt2 o) (fun p' => x2K I p' o) p

/-! ### Second arrangement (deviations from the mean; one product with the concatenated row) -/
def x0R (p : Pos) (o : Fin 256) : EReal := dense (cat (I.Q p.1 p.2.1) (I.S p.1 p.2.2)) (I.W0 o) (I.b0 o)
def h0R (p : Pos) (o : Fin 256) : EReal := actR (I.g0 o) (I.bt0 o) (fun p' => x0R I p' o) p
def x1R (p : Pos) (o : Fin 64) : EReal := dense (h0R I p) (I.W1 o) (I.b1 o)
def h1R (p : Pos) (o : Fin 64) : EReal := actR (I.g1 o) (I.bt1 o) (fun p' => x1R I p' o) p
def x2R (p : Pos) (o : Fin 1) : EReal := dense (h1R I p) (I.W2 o) (I.b2 o)
def outR (p : Pos) (o : Fin 1) : EReal := actR (I.g2 o) (I.bt2 o) (fun p' => x2R I p' o) p

end Cert.Spec

end
-- ==== Proof.SpecIO.lean ====
/-
  The argument arrays of the two programs, read by coordinates, and the shape each stage's array takes.

  An array of literal shape [n0, n1, ...] is a function of an index with one coordinate per axis. Here the
  fourteen argument arrays become the coordinate functions the specification is written over, and each stage
  of the pipeline is stated as a function of the arrays that stage receives:
  * the first stage: two half products plus a bias, an array over (b, q, s, o);
  * a middle stage: rescale, clamp at zero, multiply by a weight, add a bias;
  * the statistics of a stage: per channel, the sum and the sum of squares over all positions;
  * the last stage: rescale and clamp.
-/
import proofs.«104936_j50861002719650_1_alg».proof.Proof.Spec
import Idealize.ShloMosaic.Lib.ValueIdx

noncomputable section

namespace Cert.SpecIO

open Idealize.ShloMosaic Idealize.ShloMosaic.ValueIdx Cert.Spec

/-- An array of extended reals of a literal shape. -/
abbrev Arr (s : Shape) : Type := s.Idx → EReal

/-- The position (b, q, s) of an index into an array over [4, 256, 128, C]. -/
def posOf {C : ℕ} (i : (⟨4, ![4, 256, 128, C]⟩ : Shape).Idx) : Pos :=
  (⟨(i 0).val, (i 0).isLt⟩, ⟨(i 1).val, (i 1).isLt⟩, ⟨(i 2).val, (i 2).isLt⟩)

/-- The channel of an index into an array over [4, 256, 128, C]. -/
def chanOf {C : ℕ} (i : (⟨4, ![4, 256, 128, C]⟩ : Shape).Idx) : Fin C := ⟨(i 3).val, (i 3).isLt⟩

/-- The fourteen argument arrays by coordinates, in the order the programs take them. -/
def inputsOf (a0 : Arr ⟨3, ![4, 128, 256]⟩) (a1 : Arr ⟨3, ![4, 256, 256]⟩) (a2 : Arr ⟨2, ![256, 512]⟩)
    (a3 a4 a5 : Arr ⟨1, ![256]⟩) (a6 : Arr ⟨2, ![64, 256]⟩) (a7 a8 a9 : Arr ⟨1, ![64]⟩)
    (a10 : Arr ⟨2, ![1, 64]⟩) (a11 a12 a13 : Arr ⟨1, ![1]⟩) : Inputs where
  S b s k := a0 (ix3 b s k)
  Q b q k := a1 (ix3 b q k)
  W0 o k := a2 (ix2 o k)
  b0 o := a3 (ix1 o)
  g0 o := a4 (ix1 o)
  bt0 o := a5 (ix1 o)
  W1 o k := a6 (ix2 o k)
  b1 o := a7 (ix1 o)
  g1 o := a8 (ix1 o)
  bt1 o := a9 (ix1 o)
  W2 o k := a10 (ix2 o k)
  b2 o := a11 (ix1 o)
  g2 o := a12 (ix1 o)
  bt2 o := a13 (ix1 o)

/-- The result array over [4, 1, 256, 128] from a function of position and channel: entry (b, o, q, s). -/
def resultOf (f : Pos → Fin 1 → EReal) : Arr ⟨4, ![4, 1, 256, 128]⟩ := fun i =>
  f (⟨(i 0).val, (i 0).isLt⟩, ⟨(i 2).val, (i 2).isLt⟩, ⟨(i 3).val, (i 3).isLt⟩) ⟨(i 1).val, (i 1).isLt⟩

/-! ## The stages, each as a function of the arrays it receives -/

/-- First stage at position p and channel o: the query row against one weight, the support row against the
    other, plus the bias. -/
def pre0 (Aq : Arr ⟨3, ![4, 256, 256]⟩) (As : Arr ⟨3, ![4, 128, 256]⟩) (Wq Ws : Arr ⟨2, ![256, 256]⟩)
    (bb : Arr ⟨1, ![256]⟩) (p : Pos) (o : Fin 256) : EReal :=
  ((∑ k : Fin 256, Aq (ix3 p.1 p.2.1 k) * Wq (ix2 o k)) + (∑ k : Fin 256, As (ix3 p.1 p.2.2 k) * Ws (ix2 o k)))
    + bb (ix1 o)

/-- A middle stage at position p and channel o: every input channel rescaled (x · sc + sh) and clamped at zero,
    then the product with the weight's row o, plus the bias. -/
def preMid {Ci Co : ℕ} (X : Arr ⟨4, ![4, 256, 128, Ci]⟩) (sc sh : Arr ⟨2, ![1, Ci]⟩) (W : Arr ⟨2, ![Co, Ci]⟩)
    (bb : Arr ⟨1, ![Co]⟩) (p : Pos) (o : Fin Co) : EReal :=
  dense (fun k => max (X (ix4 p.1 p.2.1 p.2.2 k) * sc (ix2 0 k) + sh (ix2 0 k)) 0) (fun k => W (ix2 o k)) (bb (ix1 o))

/-- A stage's array over [4, 256, 128, C] from its function of position and channel. -/
def stageArr {C : ℕ} (y : Pos → Fin C → EReal) : Arr ⟨4, ![4, 256, 128, C]⟩ := fun i => y (posOf i) (chanOf i)

/-- Per channel, the sum over all positions: an array over [1, C]. -/
def sumArr {C : ℕ} (y : Pos → Fin C → EReal) : Arr ⟨2, ![1, C]⟩ := fun j => ∑ p : Pos, y p ⟨(j 1).val, (j 1).isLt⟩

/-- Per channel, the sum of squares over all positions: an array over [1, C]. -/
def sumsqArr {C : ℕ} (y : Pos → Fin C → EReal) : Arr ⟨2, ![1, C]⟩ :=
  fun j => ∑ p : Pos, y p ⟨(j 1).val, (j 1).isLt⟩ * y p ⟨(j 1).val, (j 1).isLt⟩

/-- The last stage: rescale by the one channel's scale and shift, clamp at zero. -/
def lastArr (X : Arr ⟨4, ![4, 256, 128, 1]⟩) (sc sh : Arr ⟨2, ![1, 1]⟩) : Arr ⟨4, ![4, 256, 128, 1]⟩ :=
  fun i => max (X i * sc (ix2 0 0) + sh (ix2 0 0)) 0

end Cert.SpecIO

end
-- ==== Proof.KernelFold.lean ====
/-
  The host operations between the kernel launches, read back.

  The buffer contents at each boundary of the program are a fold from the launch memory. Here that fold is read
  at the buffers the launches need: an argument array comes through every stretch unchanged; after each of the
  first three launches the host turns the stage's sum and sum of squares into the scale
  gain · rsqrt(mean of squares − squared mean + eps) and the shift offset − mean · scale, channel by channel.
-/
import proofs.«104936_j50861002719650_1_alg».proof.Proof.Gen.KernelIdeal.Frame
import proofs.«104936_j50861002719650_1_alg».proof.Proof.SpecIO
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.SpecIO Cert.Spec

variable (m : (ℓ : Loc nD τ sig) → Buf (Elt Ideal) ℓ) (ρ : Dev nD → PrngReg)

/-- Argument 0 as launched. -/
abbrev a0 (c : Dev nD) : (⟨S4x128x256, .f32⟩ : BufTy).Contents (Elt Ideal) := m ((c : Thread nD τ).loc main_arg0)
/-- Argument 1 as launched. -/
abbrev a1 (c : Dev nD) : (⟨S4x256x256, .f32⟩ : BufTy).Contents (Elt Ideal) := m ((c : Thread nD τ).loc main_arg1)
/-- Argument 2 as launched. -/
abbrev a2 (c : Dev nD) : (⟨S256x512, .f32⟩ : BufTy).Contents (Elt Ideal) := m ((c : Thread nD τ).loc main_arg2)
/-- Argument 3 as launched. -/
abbrev a3 (c : Dev nD) : (⟨S256, .f32⟩ : BufTy).Contents (Elt Ideal) := m ((c : Thread nD τ).loc main_arg3)
/-- Argument 4 as launched. -/
abbrev a4 (c : Dev nD) : (⟨S256, .f32⟩ : BufTy).Contents (Elt Ideal) := m ((c : Thread nD τ).loc main_arg4)
/-- Argument 5 as launched. -/
abbrev a5 (c : Dev nD) : (⟨S256, .f32⟩ : BufTy).Contents (Elt Ideal) := m ((c : Thread nD τ).loc main_arg5)
/-- Argument 6 as launched. -/
abbrev a6 (c : Dev nD) : (⟨S64x256, .f32⟩ : BufTy).Contents (Elt Ideal) := m ((c : Thread nD τ).loc main_arg6)
/-- Argument 7 as launched. -/
abbrev a7 (c : Dev nD) : (⟨S64, .f32⟩ : BufTy).Contents (Elt Ideal) := m ((c : Thread nD τ).loc main_arg7)
/-- Argument 8 as launched. -/
abbrev a8 (c : Dev nD) : (⟨S64, .f32⟩ : BufTy).Contents (Elt Ideal) := m ((c : Thread nD τ).loc main_arg8)
/-- Argument 9 as launched. -/
abbrev a9 (c : Dev nD) : (⟨S64, .f32⟩ : BufTy).Contents (Elt Ideal) := m ((c : Thread nD τ).loc main_arg9)
/-- Argument 10 as launched. -/
abbrev a10 (c : Dev nD) : (⟨S1x64, .f32⟩ : BufTy).Contents (Elt Ideal) := m ((c : Thread nD τ).loc main_arg10)
/-- Argument 11 as launched. -/
abbrev a11 (c : Dev nD) : (⟨S1, .f32⟩ : BufTy).Contents (Elt Ideal) := m ((c : Thread nD τ).loc main_arg11)
/-- Argument 12 as launched. -/
abbrev a12 (c : Dev nD) : (⟨S1, .f32⟩ : BufTy).Contents (Elt Ideal) := m ((c : Thread nD τ).loc main_arg12)
/-- Argument 13 as launched. -/
abbrev a13 (c : Dev nD) : (⟨S1, .f32⟩ : BufTy).Contents (Elt Ideal) := m ((c : Thread nD τ).loc main_arg13)

theorem W1_main_arg0 (c : Dev nD) : W1 m ρ c (Proc.devRef .tc main_arg0) = a0 m c := by
  show StableHlo.after hostOps0 (W0 m ρ c) (Proc.devRef .tc main_arg0) = _
  after_results
  try rfl
theorem W1_main_arg1 (c : Dev nD) : W1 m ρ c (Proc.devRef .tc main_arg1) = a1 m c := by
  show StableHlo.after hostOps0 (W0 m ρ c) (Proc.devRef .tc main_arg1) = _
  after_results
  try rfl
theorem W1_main_arg2 (c : Dev nD) : W1 m ρ c (Proc.devRef .tc main_arg2) = a2 m c := by
  show StableHlo.after hostOps0 (W0 m ρ c) (Proc.devRef .tc main_arg2) = _
  after_results
  try rfl
theorem W1_main_arg3 (c : Dev nD) : W1 m ρ c (Proc.devRef .tc main_arg3) = a3 m c := by
  show StableHlo.after hostOps0 (W0 m ρ c) (Proc.devRef .tc main_arg3) = _
  after_results
  try rfl
theorem W1_main_arg4 (c : Dev nD) : W1 m ρ c (Proc.devRef .tc main_arg4) = a4 m c := by
  show StableHlo.after hostOps0 (W0 m ρ c) (Proc.devRef .tc main_arg4) = _
  after_results
  try rfl
theorem W1_main_arg5 (c : Dev nD) : W1 m ρ c (Proc.devRef .tc main_arg5) = a5 m c := by
  show StableHlo.after hostOps0 (W0 m ρ c) (Proc.devRef .tc main_arg5) = _
  after_results
  try rfl
theorem W1_main_arg6 (c : Dev nD) : W1 m ρ c (Proc.devRef .tc main_arg6) = a6 m c := by
  show StableHlo.after hostOps0 (W0 m ρ c) (Proc.devRef .tc main_arg6) = _
  after_results
  try rfl
theorem W1_main_arg7 (c : Dev nD) : W1 m ρ c (Proc.devRef .tc main_arg7) = a7 m c := by
  show StableHlo.after hostOps0 (W0 m ρ c) (Proc.devRef .tc main_arg7) = _
  after_results
  try rfl
theorem W1_main_arg8 (c : Dev nD) : W1 m ρ c (Proc.devRef .tc main_arg8) = a8 m c := by
  show StableHlo.after hostOps0 (W0 m ρ c) (Proc.devRef .tc main_arg8) = _
  after_results
  try rfl
theorem W1_main_arg9 (c : Dev nD) : W1 m ρ c (Proc.devRef .tc main_arg9) = a9 m c := by
  show StableHlo.after hostOps0 (W0 m ρ c) (Proc.devRef .tc main_arg9) = _
  after_results
  try rfl
theorem W1_main_arg10 (c : Dev nD) : W1 m ρ c (Proc.devRef .tc main_arg10) = a10 m c := by
  show StableHlo.after hostOps0 (W0 m ρ c) (Proc.devRef .tc main_arg10) = _
  after_results
  try rfl
theorem W1_main_arg11 (c : Dev nD) : W1 m ρ c (Proc.devRef .tc main_arg11) = a11 m c := by
  show StableHlo.after hostOps0 (W0 m ρ c) (Proc.devRef .tc main_arg11) = _
  after_results
  try rfl
theorem W1_main_arg12 (c : Dev nD) : W1 m ρ c (Proc.devRef .tc main_arg12) = a12 m c := by
  show StableHlo.after hostOps0 (W0 m ρ c) (Proc.devRef .tc main_arg12) = _
  after_results
  try rfl
theorem W1_main_arg13 (c : Dev nD) : W1 m ρ c (Proc.devRef .tc main_arg13) = a13 m c := by
  show StableHlo.after hostOps0 (W0 m ρ c) (Proc.devRef .tc main_arg13) = _
  after_results
  try rfl
theorem W2_main_arg2 (c : Dev nD) : W2 m ρ c (Proc.devRef .tc main_arg2) = a2 m c :=
  (W2_of_ne m ρ c main_arg2 (by decide)).trans (W1_main_arg2 m ρ c)
theorem W2_main_arg4 (c : Dev nD) : W2 m ρ c (Proc.devRef .tc main_arg4) = a4 m c :=
  (W2_of_ne m ρ c main_arg4 (by decide)).trans (W1_main_arg4 m ρ c)
theorem W2_main_arg5 (c : Dev nD) : W2 m ρ c (Proc.devRef .tc main_arg5) = a5 m c :=
  (W2_of_ne m ρ c main_arg5 (by decide)).trans (W1_main_arg5 m ρ c)
theorem W2_main_arg6 (c : Dev nD) : W2 m ρ c (Proc.devRef .tc main_arg6) = a6 m c :=
  (W2_of_ne m ρ c main_arg6 (by decide)).trans (W1_main_arg6 m ρ c)
theorem W2_main_arg7 (c : Dev nD) : W2 m ρ c (Proc.devRef .tc main_arg7) = a7 m c :=
  (W2_of_ne m ρ c main_arg7 (by decide)).trans (W1_main_arg7 m ρ c)
theorem W2_main_arg8 (c : Dev nD) : W2 m ρ c (Proc.devRef .tc main_arg8) = a8 m c :=
  (W2_of_ne m ρ c main_arg8 (by decide)).trans (W1_main_arg8 m ρ c)
theorem W2_main_arg9 (c : Dev nD) : W2 m ρ c (Proc.devRef .tc main_arg9) = a9 m c :=
  (W2_of_ne m ρ c main_arg9 (by decide)).trans (W1_main_arg9 m ρ c)
theorem W2_main_arg10 (c : Dev nD) : W2 m ρ c (Proc.devRef .tc main_arg10) = a10 m c :=
  (W2_of_ne m ρ c main_arg10 (by decide)).trans (W1_main_arg10 m ρ c)
theorem W2_main_arg11 (c : Dev nD) : W2 m ρ c (Proc.devRef .tc main_arg11) = a11 m c :=
  (W2_of_ne m ρ c main_arg11 (by decide)).trans (W1_main_arg11 m ρ c)
theorem W2_main_arg12 (c : Dev nD) : W2 m ρ c (Proc.devRef .tc main_arg12) = a12 m c :=
  (W2_of_ne m ρ c main_arg12 (by decide)).trans (W1_main_arg12 m ρ c)
theorem W2_main_arg13 (c : Dev nD) : W2 m ρ c (Proc.devRef .tc main_arg13) = a13 m c :=
  (W2_of_ne m ρ c main_arg13 (by decide)).trans (W1_main_arg13 m ρ c)
theorem W3_main_arg6 (c : Dev nD) : W3 m ρ c (Proc.devRef .tc main_arg6) = a6 m c := by
  refine Eq.trans ?_ (W2_main_arg6 m ρ c)
  show StableHlo.after hostOps1 (W2 m ρ c) (Proc.devRef .tc main_arg6) = _
  after_results
theorem W3_main_arg7 (c : Dev nD) : W3 m ρ c (Proc.devRef .tc main_arg7) = a7 m c := by
  refine Eq.trans ?_ (W2_main_arg7 m ρ c)
  show StableHlo.after hostOps1 (W2 m ρ c) (Proc.devRef .tc main_arg7) = _
  after_results
theorem W3_main_arg8 (c : Dev nD) : W3 m ρ c (Proc.devRef .tc main_arg8) = a8 m c := by
  refine Eq.trans ?_ (W2_main_arg8 m ρ c)
  show StableHlo.after hostOps1 (W2 m ρ c) (Proc.devRef .tc main_arg8) = _
  after_results
theorem W3_main_arg9 (c : Dev nD) : W3 m ρ c (Proc.devRef .tc main_arg9) = a9 m c := by
  refine Eq.trans ?_ (W2_main_arg9 m ρ c)
  show StableHlo.after hostOps1 (W2 m ρ c) (Proc.devRef .tc main_arg9) = _
  after_results
theorem W3_main_arg10 (c : Dev nD) : W3 m ρ c (Proc.devRef .tc main_arg10) = a10 m c := by
  refine Eq.trans ?_ (W2_main_arg10 m ρ c)
  show StableHlo.after hostOps1 (W2 m ρ c) (Proc.devRef .tc main_arg10) = _
  after_results
theorem W3_main_arg11 (c : Dev nD) : W3 m ρ c (Proc.devRef .tc main_arg11) = a11 m c := by
  refine Eq.trans ?_ (W2_main_arg11 m ρ c)
  show StableHlo.after hostOps1 (W2 m ρ c) (Proc.devRef .tc main_arg11) = _
  after_results
theorem W3_main_arg12 (c : Dev nD) : W3 m ρ c (Proc.devRef .tc main_arg12) = a12 m c := by
  refine Eq.trans ?_ (W2_main_arg12 m ρ c)
  show StableHlo.after hostOps1 (W2 m ρ c) (Proc.devRef .tc main_arg12) = _
  after_results
theorem W3_main_arg13 (c : Dev nD) : W3 m ρ c (Proc.devRef .tc main_arg13) = a13 m c := by
  refine Eq.trans ?_ (W2_main_arg13 m ρ c)
  show StableHlo.after hostOps1 (W2 m ρ c) (Proc.devRef .tc main_arg13) = _
  after_results
theorem W3_main_v2_0 (c : Dev nD) : W3 m ρ c (Proc.devRef .tc main_v2_0) = W2 m ρ c (Proc.devRef .tc main_v2_0) := by
  show StableHlo.after hostOps1 (W2 m ρ c) (Proc.devRef .tc main_v2_0) = _
  after_results
theorem W4_main_arg8 (c : Dev nD) : W4 m ρ c (Proc.devRef .tc main_arg8) = a8 m c :=
  (W4_of_ne m ρ c main_arg8 (by decide)).trans (W3_main_arg8 m ρ c)
theorem W4_main_arg9 (c : Dev nD) : W4 m ρ c (Proc.devRef .tc main_arg9) = a9 m c :=
  (W4_of_ne m ρ c main_arg9 (by decide)).trans (W3_main_arg9 m ρ c)
theorem W4_main_arg10 (c : Dev nD) : W4 m ρ c (Proc.devRef .tc main_arg10) = a10 m c :=
  (W4_of_ne m ρ c main_arg10 (by decide)).trans (W3_main_arg10 m ρ c)
theorem W4_main_arg11 (c : Dev nD) : W4 m ρ c (Proc.devRef .tc main_arg11) = a11 m c :=
  (W4_of_ne m ρ c main_arg11 (by decide)).trans (W3_main_arg11 m ρ c)
theorem W4_main_arg12 (c : Dev nD) : W4 m ρ c (Proc.devRef .tc main_arg12) = a12 m c :=
  (W4_of_ne m ρ c main_arg12 (by decide)).trans (W3_main_arg12 m ρ c)
theorem W4_main_arg13 (c : Dev nD) : W4 m ρ c (Proc.devRef .tc main_arg13) = a13 m c :=
  (W4_of_ne m ρ c main_arg13 (by decide)).trans (W3_main_arg13 m ρ c)
theorem W5_main_arg10 (c : Dev nD) : W5 m ρ c (Proc.devRef .tc main_arg10) = a10 m c := by
  refine Eq.trans ?_ (W4_main_arg10 m ρ c)
  show StableHlo.after hostOps2 (W4 m ρ c) (Proc.devRef .tc main_arg10) = _
  after_results
theorem W5_main_arg11 (c : Dev nD) : W5 m ρ c (Proc.devRef .tc main_arg11) = a11 m c := by
  refine Eq.trans ?_ (W4_main_arg11 m ρ c)
  show StableHlo.after hostOps2 (W4 m ρ c) (Proc.devRef .tc main_arg11) = _
  after_results
theorem W5_main_arg12 (c : Dev nD) : W5 m ρ c (Proc.devRef .tc main_arg12) = a12 m c := by
  refine Eq.trans ?_ (W4_main_arg12 m ρ c)
  show StableHlo.after hostOps2 (W4 m ρ c) (Proc.devRef .tc main_arg12) = _
  after_results
theorem W5_main_arg13 (c : Dev nD) : W5 m ρ c (Proc.devRef .tc main_arg13) = a13 m c := by
  refine Eq.trans ?_ (W4_main_arg13 m ρ c)
  show StableHlo.after hostOps2 (W4 m ρ c) (Proc.devRef .tc main_arg13) = _
  after_results
theorem W5_main_v17_0 (c : Dev nD) : W5 m ρ c (Proc.devRef .tc main_v17_0) = W4 m ρ c (Proc.devRef .tc main_v17_0) := by
  show StableHlo.after hostOps2 (W4 m ρ c) (Proc.devRef .tc main_v17_0) = _
  after_results
theorem W6_main_arg12 (c : Dev nD) : W6 m ρ c (Proc.devRef .tc main_arg12) = a12 m c :=
  (W6_of_ne m ρ c main_arg12 (by decide)).trans (W5_main_arg12 m ρ c)
theorem W6_main_arg13 (c : Dev nD) : W6 m ρ c (Proc.devRef .tc main_arg13) = a13 m c :=
  (W6_of_ne m ρ c main_arg13 (by decide)).trans (W5_main_arg13 m ρ c)
theorem W7_main_v32_0 (c : Dev nD) : W7 m ρ c (Proc.devRef .tc main_v32_0) = W6 m ρ c (Proc.devRef .tc main_v32_0) := by
  show StableHlo.after hostOps3 (W6 m ρ c) (Proc.devRef .tc main_v32_0) = _
  after_results

/-- The scale array the host computes between the stages, as operations on the stage's sum and sum of squares. -/
def W3_scaleOf (g : (⟨S256, .f32⟩ : BufTy).Contents (Elt Ideal)) (s1 s2 : (⟨S1x256, .f32⟩ : BufTy).Contents (Elt Ideal)) : (⟨S1x256, .f32⟩ : BufTy).Contents (Elt Ideal) :=
  mulf (broadcastInDim S1x256 ![1] bcast_S256_S1x256_1 g)
    (Host.rsqrt (addf (subf (Host.divf s2 (broadcastInDim S1x256 ![] bcast_S_S1x256 (constant (F := Ideal) S_ .f32 0x48000000#32))) (mulf (Host.divf s1 (broadcastInDim S1x256 ![] bcast_S_S1x256 (constant (F := Ideal) S_ .f32 0x48000000#32))) (Host.divf s1 (broadcastInDim S1x256 ![] bcast_S_S1x256 (constant (F := Ideal) S_ .f32 0x48000000#32))))) (broadcastInDim S1x256 ![] bcast_S_S1x256 (constant (F := Ideal) S_ .f32 0x3727C5AC#32))))

/-- The shift array: offset minus mean times scale. -/
def W3_shiftOf (bt : (⟨S256, .f32⟩ : BufTy).Contents (Elt Ideal)) (s1 sc : (⟨S1x256, .f32⟩ : BufTy).Contents (Elt Ideal)) : (⟨S1x256, .f32⟩ : BufTy).Contents (Elt Ideal) :=
  subf (broadcastInDim S1x256 ![1] bcast_S256_S1x256_1 bt) (mulf (Host.divf s1 (broadcastInDim S1x256 ![] bcast_S_S1x256 (constant (F := Ideal) S_ .f32 0x48000000#32))) sc)

theorem W3_scale_eq (c : Dev nD) : W3 m ρ c (Proc.devRef .tc main_v13)
    = W3_scaleOf (a4 m c) (W2 m ρ c (Proc.devRef .tc main_v2_1)) (W2 m ρ c (Proc.devRef .tc main_v2_2)) := by
  show StableHlo.after hostOps1 (W2 m ρ c) (Proc.devRef .tc main_v13) = _
  after_results
  rw [W2_main_arg4 m ρ c]
  rfl

set_option maxHeartbeats 2000000 in
theorem W3_shift_eq (c : Dev nD) : W3 m ρ c (Proc.devRef .tc main_v16)
    = W3_shiftOf (a5 m c) (W2 m ρ c (Proc.devRef .tc main_v2_1))
      (W3_scaleOf (a4 m c) (W2 m ρ c (Proc.devRef .tc main_v2_1)) (W2 m ρ c (Proc.devRef .tc main_v2_2))) := by
  show StableHlo.after hostOps1 (W2 m ρ c) (Proc.devRef .tc main_v16) = _
  after_results_simp
  rw [W2_main_arg4 m ρ c, W2_main_arg5 m ρ c]
  rfl

/-- The scale at channel `o`: gain · rsqrt(mean of squares − squared mean + eps). -/
theorem W3_scaleOf_apply (g : (⟨S256, .f32⟩ : BufTy).Contents (Elt Ideal)) (s1 s2 : (⟨S1x256, .f32⟩ : BufTy).Contents (Elt Ideal)) (u : Fin 1) (o : Fin 256) :
    W3_scaleOf g s1 s2 (ix2 u o)
    = g (ix1 o) * Ideal.rsqrt ((Ideal.div (s2 (ix2 u o)) nN - Ideal.div (s1 (ix2 u o)) nN * Ideal.div (s1 (ix2 u o)) nN) + eps) := by
  unfold W3_scaleOf
  show (broadcastInDim S1x256 ![1] bcast_S256_S1x256_1 g (ix2 u o)) * _ = _
  rw [broadcastInDim_apply ![1] bcast_S256_S1x256_1 g (ix2 u o) (ix1 o) (fun a => match a with
    | ⟨0, _⟩ => by show o.val = if (256 : Nat) = 1 then 0 else o.val; rw [if_neg (by decide)])]
  rfl

/-- The shift at channel `o`: offset − mean · scale. -/
theorem W3_shiftOf_apply (bt : (⟨S256, .f32⟩ : BufTy).Contents (Elt Ideal)) (s1 sc : (⟨S1x256, .f32⟩ : BufTy).Contents (Elt Ideal)) (u : Fin 1) (o : Fin 256) :
    W3_shiftOf bt s1 sc (ix2 u o) = bt (ix1 o) - Ideal.div (s1 (ix2 u o)) nN * sc (ix2 u o) := by
  unfold W3_shiftOf
  show (broadcastInDim S1x256 ![1] bcast_S256_S1x256_1 bt (ix2 u o)) - _ = _
  rw [broadcastInDim_apply ![1] bcast_S256_S1x256_1 bt (ix2 u o) (ix1 o) (fun a => match a with
    | ⟨0, _⟩ => by show o.val = if (256 : Nat) = 1 then 0 else o.val; rw [if_neg (by decide)])]
  rfl

/-- The scale array the host computes between the stages, as operations on the stage's sum and sum of squares. -/
def W5_scaleOf (g : (⟨S64, .f32⟩ : BufTy).Contents (Elt Ideal)) (s1 s2 : (⟨S1x64, .f32⟩ : BufTy).Contents (Elt Ideal)) : (⟨S1x64, .f32⟩ : BufTy).Contents (Elt Ideal) :=
  mulf (broadcastInDim S1x64 ![1] bcast_S64_S1x64_1 g)
    (Host.rsqrt (addf (subf (Host.divf s2 (broadcastInDim S1x64 ![] bcast_S_S1x64 (constant (F := Ideal) S_ .f32 0x48000000#32))) (mulf (Host.divf s1 (broadcastInDim S1x64 ![] bcast_S_S1x64 (constant (F := Ideal) S_ .f32 0x48000000#32))) (Host.divf s1 (broadcastInDim S1x64 ![] bcast_S_S1x64 (constant (F := Ideal) S_ .f32 0x48000000#32))))) (broadcastInDim S1x64 ![] bcast_S_S1x64 (constant (F := Ideal) S_ .f32 0x3727C5AC#32))))

/-- The shift array: offset minus mean times scale. -/
def W5_shiftOf (bt : (⟨S64, .f32⟩ : BufTy).Contents (Elt Ideal)) (s1 sc : (⟨S1x64, .f32⟩ : BufTy).Contents (Elt Ideal)) : (⟨S1x64, .f32⟩ : BufTy).Contents (Elt Ideal) :=
  subf (broadcastInDim S1x64 ![1] bcast_S64_S1x64_1 bt) (mulf (Host.divf s1 (broadcastInDim S1x64 ![] bcast_S_S1x64 (constant (F := Ideal) S_ .f32 0x48000000#32))) sc)

theorem W5_scale_eq (c : Dev nD) : W5 m ρ c (Proc.devRef .tc main_v28)
    = W5_scaleOf (a8 m c) (W4 m ρ c (Proc.devRef .tc main_v17_1)) (W4 m ρ c (Proc.devRef .tc main_v17_2)) := by
  show StableHlo.after hostOps2 (W4 m ρ c) (Proc.devRef .tc main_v28) = _
  after_results
  rw [W4_main_arg8 m ρ c]
  rfl

set_option maxHeartbeats 2000000 in
theorem W5_shift_eq (c : Dev nD) : W5 m ρ c (Proc.devRef .tc main_v31)
    = W5_shiftOf (a9 m c) (W4 m ρ c (Proc.devRef .tc main_v17_1))
      (W5_scaleOf (a8 m c) (W4 m ρ c (Proc.devRef .tc main_v17_1)) (W4 m ρ c (Proc.devRef .tc main_v17_2))) := by
  show StableHlo.after hostOps2 (W4 m ρ c) (Proc.devRef .tc main_v31) = _
  after_results_simp
  rw [W4_main_arg8 m ρ c, W4_main_arg9 m ρ c]
  rfl

/-- The scale at channel `o`: gain · rsqrt(mean of squares − squared mean + eps). -/
theorem W5_scaleOf_apply (g : (⟨S64, .f32⟩ : BufTy).Contents (Elt Ideal)) (s1 s2 : (⟨S1x64, .f32⟩ : BufTy).Contents (Elt Ideal)) (u : Fin 1) (o : Fin 64) :
    W5_scaleOf g s1 s2 (ix2 u o)
    = g (ix1 o) * Ideal.rsqrt ((Ideal.div (s2 (ix2 u o)) nN - Ideal.div (s1 (ix2 u o)) nN * Ideal.div (s1 (ix2 u o)) nN) + eps) := by
  unfold W5_scaleOf
  show (broadcastInDim S1x64 ![1] bcast_S64_S1x64_1 g (ix2 u o)) * _ = _
  rw [broadcastInDim_apply ![1] bcast_S64_S1x64_1 g (ix2 u o) (ix1 o) (fun a => match a with
    | ⟨0, _⟩ => by show o.val = if (64 : Nat) = 1 then 0 else o.val; rw [if_neg (by decide)])]
  rfl

/-- The shift at channel `o`: offset − mean · scale. -/
theorem W5_shiftOf_apply (bt : (⟨S64, .f32⟩ : BufTy).Contents (Elt Ideal)) (s1 sc : (⟨S1x64, .f32⟩ : BufTy).Contents (Elt Ideal)) (u : Fin 1) (o : Fin 64) :
    W5_shiftOf bt s1 sc (ix2 u o) = bt (ix1 o) - Ideal.div (s1 (ix2 u o)) nN * sc (ix2 u o) := by
  unfold W5_shiftOf
  show (broadcastInDim S1x64 ![1] bcast_S64_S1x64_1 bt (ix2 u o)) - _ = _
  rw [broadcastInDim_apply ![1] bcast_S64_S1x64_1 bt (ix2 u o) (ix1 o) (fun a => match a with
    | ⟨0, _⟩ => by show o.val = if (64 : Nat) = 1 then 0 else o.val; rw [if_neg (by decide)])]
  rfl

/-- The scale array the host computes between the stages, as operations on the stage's sum and sum of squares. -/
def W7_scaleOf (g : (⟨S1, .f32⟩ : BufTy).Contents (Elt Ideal)) (s1 s2 : (⟨S1x1, .f32⟩ : BufTy).Contents (Elt Ideal)) : (⟨S1x1, .f32⟩ : BufTy).Contents (Elt Ideal) :=
  mulf (broadcastInDim S1x1 ![1] bcast_S1_S1x1_1 g)
    (Host.rsqrt (addf (subf (Host.divf s2 (broadcastInDim S1x1 ![] bcast_S_S1x1 (constant (F := Ideal) S_ .f32 0x48000000#32))) (mulf (Host.divf s1 (broadcastInDim S1x1 ![] bcast_S_S1x1 (constant (F := Ideal) S_ .f32 0x48000000#32))) (Host.divf s1 (broadcastInDim S1x1 ![] bcast_S_S1x1 (constant (F := Ideal) S_ .f32 0x48000000#32))))) (broadcastInDim S1x1 ![] bcast_S_S1x1 (constant (F := Ideal) S_ .f32 0x3727C5AC#32))))

/-- The shift array: offset minus mean times scale. -/
def W7_shiftOf (bt : (⟨S1, .f32⟩ : BufTy).Contents (Elt Ideal)) (s1 sc : (⟨S1x1, .f32⟩ : BufTy).Contents (Elt Ideal)) : (⟨S1x1, .f32⟩ : BufTy).Contents (Elt Ideal) :=
  subf (broadcastInDim S1x1 ![1] bcast_S1_S1x1_1 bt) (mulf (Host.divf s1 (broadcastInDim S1x1 ![] bcast_S_S1x1 (constant (F := Ideal) S_ .f32 0x48000000#32))) sc)

theorem W7_scale_eq (c : Dev nD) : W7 m ρ c (Proc.devRef .tc main_v43)
    = W7_scaleOf (a12 m c) (W6 m ρ c (Proc.devRef .tc main_v32_1)) (W6 m ρ c (Proc.devRef .tc main_v32_2)) := by
  show StableHlo.after hostOps3 (W6 m ρ c) (Proc.devRef .tc main_v43) = _
  after_results
  rw [W6_main_arg12 m ρ c]
  rfl

set_option maxHeartbeats 2000000 in
theorem W7_shift_eq (c : Dev nD) : W7 m ρ c (Proc.devRef .tc main_v46)
    = W7_shiftOf (a13 m c) (W6 m ρ c (Proc.devRef .tc main_v32_1))
      (W7_scaleOf (a12 m c) (W6 m ρ c (Proc.devRef .tc main_v32_1)) (W6 m ρ c (Proc.devRef .tc main_v32_2))) := by
  show StableHlo.after hostOps3 (W6 m ρ c) (Proc.devRef .tc main_v46) = _
  after_results_simp
  rw [W6_main_arg12 m ρ c, W6_main_arg13 m ρ c]
  rfl

/-- The scale at channel `o`: gain · rsqrt(mean of squares − squared mean + eps). -/
theorem W7_scaleOf_apply (g : (⟨S1, .f32⟩ : BufTy).Contents (Elt Ideal)) (s1 s2 : (⟨S1x1, .f32⟩ : BufTy).Contents (Elt Ideal)) (u : Fin 1) (o : Fin 1) :
    W7_scaleOf g s1 s2 (ix2 u o)
    = g (ix1 o) * Ideal.rsqrt ((Ideal.div (s2 (ix2 u o)) nN - Ideal.div (s1 (ix2 u o)) nN * Ideal.div (s1 (ix2 u o)) nN) + eps) := by
  unfold W7_scaleOf
  show (broadcastInDim S1x1 ![1] bcast_S1_S1x1_1 g (ix2 u o)) * _ = _
  rw [broadcastInDim_apply ![1] bcast_S1_S1x1_1 g (ix2 u o) (ix1 o) (fun a => match a with
    | ⟨0, _⟩ => by show (o : Fin 1).val = if (1 : Nat) = 1 then 0 else _; rw [if_pos rfl]; omega)]
  rfl

/-- The shift at channel `o`: offset − mean · scale. -/
theorem W7_shiftOf_apply (bt : (⟨S1, .f32⟩ : BufTy).Contents (Elt Ideal)) (s1 sc : (⟨S1x1, .f32⟩ : BufTy).Contents (Elt Ideal)) (u : Fin 1) (o : Fin 1) :
    W7_shiftOf bt s1 sc (ix2 u o) = bt (ix1 o) - Ideal.div (s1 (ix2 u o)) nN * sc (ix2 u o) := by
  unfold W7_shiftOf
  show (broadcastInDim S1x1 ![1] bcast_S1_S1x1_1 bt (ix2 u o)) - _ = _
  rw [broadcastInDim_apply ![1] bcast_S1_S1x1_1 bt (ix2 u o) (ix1 o) (fun a => match a with
    | ⟨0, _⟩ => by show (o : Fin 1).val = if (1 : Nat) = 1 then 0 else _; rw [if_pos rfl]; omega)]
  rfl

end Cert.KernelIdeal.Fold

end
-- ==== Proof.SpecLink.lean ====
/-
  How the stages chain: each stage's array, read back at a position and a channel, is the specification's
  function; the scale and shift computed from a stage's sum and sum of squares are the specification's; a middle
  stage applied to the previous stage's array with those is the next dense layer of the normalised, clamped
  activations.
-/
import proofs.«104936_j50861002719650_1_alg».proof.Proof.SpecIO

noncomputable section

namespace Cert.SpecIO

open Idealize.ShloMosaic Idealize.ShloMosaic.ValueIdx Cert.Spec

/-- A stage's array at the index of position p and channel k is the stage's function there. -/
theorem stageArr_ix4 {C : ℕ} (y : Pos → Fin C → EReal) (p : Pos) (k : Fin C) :
    stageArr y (ix4 p.1 p.2.1 p.2.2 k) = y p k := rfl

theorem stageArr_apply {C : ℕ} (y : Pos → Fin C → EReal) (i : (⟨4, ![4, 256, 128, C]⟩ : Shape).Idx) :
    stageArr y i = y (posOf i) (chanOf i) := rfl

theorem sumArr_ix2 {C : ℕ} (y : Pos → Fin C → EReal) (u : Fin 1) (o : Fin C) :
    sumArr y (ix2 u o) = ∑ p : Pos, y p o := rfl

theorem sumsqArr_ix2 {C : ℕ} (y : Pos → Fin C → EReal) (u : Fin 1) (o : Fin C) :
    sumsqArr y (ix2 u o) = ∑ p : Pos, y p o * y p o := rfl

/-- The scale computed from the sum and the sum of squares of channel o is the specification's scale of that
    channel. -/
theorem scale_of_sums {C : ℕ} (y : Pos → Fin C → EReal) (g : EReal) (u : Fin 1) (o : Fin C) :
    g * Ideal.rsqrt ((Ideal.div (sumsqArr y (ix2 u o)) nN
        - Ideal.div (sumArr y (ix2 u o)) nN * Ideal.div (sumArr y (ix2 u o)) nN) + eps)
    = scaleK g (fun p => y p o) := rfl

/-- The shift computed from the sum of channel o and its scale is the specification's shift. -/
theorem shift_of_sums {C : ℕ} (y : Pos → Fin C → EReal) (g bt : EReal) (u : Fin 1) (o : Fin C) :
    bt - Ideal.div (sumArr y (ix2 u o)) nN * scaleK g (fun p => y p o) = shiftK g bt (fun p => y p o) := rfl

/-- A middle stage fed the previous stage's array and that stage's scale and shift is the dense layer of the
    normalised, clamped activations. -/
theorem preMid_stage {Ci Co : ℕ} (y : Pos → Fin Ci → EReal) (g bt : Fin Ci → EReal) (sc sh : Arr ⟨2, ![1, Ci]⟩)
    (W : Arr ⟨2, ![Co, Ci]⟩) (bb : Arr ⟨1, ![Co]⟩)
    (hsc : ∀ k, sc (ix2 0 k) = scaleK (g k) (fun p => y p k))
    (hsh : ∀ k, sh (ix2 0 k) = shiftK (g k) (bt k) (fun p => y p k)) (p : Pos) (o : Fin Co) :
    preMid (stageArr y) sc sh W bb p o
    = dense (fun k => actK (g k) (bt k) (fun p' => y p' k) p) (fun k => W (ix2 o k)) (bb (ix1 o)) := by
  unfold preMid
  congr 1
  funext k
  rw [stageArr_ix4, hsc, hsh]
  rfl

/-- The last stage fed the previous stage's one-channel array and its scale and shift is the normalised, clamped
    activation. -/
theorem lastArr_stage (y : Pos → Fin 1 → EReal) (g bt : Fin 1 → EReal) (sc sh : Arr ⟨2, ![1, 1]⟩)
    (hsc : sc (ix2 0 0) = scaleK (g 0) (fun p => y p 0))
    (hsh : sh (ix2 0 0) = shiftK (g 0) (bt 0) (fun p => y p 0)) (i : (⟨4, ![4, 256, 128, 1]⟩ : Shape).Idx) :
    lastArr (stageArr y) sc sh i = actK (g 0) (bt 0) (fun p' => y p' 0) (posOf i) := by
  unfold lastArr
  rw [hsc, hsh, stageArr_apply, show chanOf i = 0 from Subsingleton.elim _ _]
  rfl

end Cert.SpecIO

end
-- ==== Proof.FoldEnds.lean ====
/-
  The two ends of the kernel program's host side.

  Before the first stage the program cuts the first layer's weight [256, 512] into its left half (columns 0 … 255,
  which meets the query row) and its right half (columns 256 … 511, which meets the support row); the arguments
  themselves reach the stage as launched. So the first stage's array, as a function of what the stage receives, is the
  first pre-activation of the specification's first arrangement.

  After the last stage the program moves the channel axis of the result [4, 256, 128, 1] to the second place,
  [4, 1, 256, 128]: entry (b, o, q, s) of the result is entry (b, q, s, o) of what the last stage left.
-/
import proofs.«104936_j50861002719650_1_alg».proof.Proof.Gen.KernelIdeal.Frame
import proofs.«104936_j50861002719650_1_alg».proof.Proof.SpecIO
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.FoldEnds

open Idealize.ShloMosaic Idealize.ShloMosaic.TcCoe Idealize.ShloMosaic.ValueIdx Idealize.SL.Sem
open Cert.KernelIdeal Cert.KernelIdeal.Gen Cert.Spec Cert.SpecIO

/-! ## The first stage's arrays -/

/-- The first stage on the two halves of one weight is the first pre-activation written with two half products:
    column k of the left half is column k of the weight, column k of the right half is column 256 + k. -/
theorem pre0_halves (a0 : Arr ⟨3, ![4, 128, 256]⟩) (a1 : Arr ⟨3, ![4, 256, 256]⟩) (a2 : Arr ⟨2, ![256, 512]⟩)
    (a3 a4 a5 : Arr ⟨1, ![256]⟩) (a6 : Arr ⟨2, ![64, 256]⟩) (a7 a8 a9 : Arr ⟨1, ![64]⟩)
    (a10 : Arr ⟨2, ![1, 64]⟩) (a11 a12 a13 : Arr ⟨1, ![1]⟩)
    (hl : S256x512.Slices ![0, 0] S256x256) (hr : S256x512.Slices ![0, 256] S256x256) :
    pre0 a1 a0 (extractStridedSlice S256x256 ![0, 0] a2 hl) (extractStridedSlice S256x256 ![0, 256] a2 hr) a3
      = x0K (inputsOf a0 a1 a2 a3 a4 a5 a6 a7 a8 a9 a10 a11 a12 a13) := by
  funext p o
  have el : ∀ k : Fin 256, extractStridedSlice S256x256 ![0, 0] a2 hl (ix2 o k) = a2 (ix2 o ⟨k.val, by omega⟩) := fun k =>
    extractStridedSlice_apply _ a2 hl _ _ fun a => by
      match a with
      | ⟨0, _⟩ => show o.val = 0 + o.val; omega
      | ⟨1, _⟩ => show k.val = 0 + k.val; omega
  have er : ∀ k : Fin 256, extractStridedSlice S256x256 ![0, 256] a2 hr (ix2 o k) = a2 (ix2 o ⟨256 + k.val, by omega⟩) := fun k =>
    extractStridedSlice_apply _ a2 hr _ _ fun a => by
      match a with
      | ⟨0, _⟩ => show o.val = 0 + o.val; omega
      | ⟨1, _⟩ => show 256 + k.val = 256 + k.val; rfl
  unfold pre0
  simp only [el, er]
  rfl

/-- The same with each array given by an equation: what the stage receives, against the arguments. -/
theorem pre0_of (a0 : Arr ⟨3, ![4, 128, 256]⟩) (a1 : Arr ⟨3, ![4, 256, 256]⟩) (a2 : Arr ⟨2, ![256, 512]⟩)
    (a3 a4 a5 : Arr ⟨1, ![256]⟩) (a6 : Arr ⟨2, ![64, 256]⟩) (a7 a8 a9 : Arr ⟨1, ![64]⟩)
    (a10 : Arr ⟨2, ![1, 64]⟩) (a11 a12 a13 : Arr ⟨1, ![1]⟩)
    (hl : S256x512.Slices ![0, 0] S256x256) (hr : S256x512.Slices ![0, 256] S256x256)
    (Aq : Arr ⟨3, ![4, 256, 256]⟩) (As : Arr ⟨3, ![4, 128, 256]⟩) (Wq Ws : Arr ⟨2, ![256, 256]⟩) (bb : Arr ⟨1, ![256]⟩)
    (hq : Aq = a1) (hs : As = a0) (hwq : Wq = extractStridedSlice S256x256 ![0, 0] a2 hl)
    (hws : Ws = extractStridedSlice S256x256 ![0, 256] a2 hr) (hb : bb = a3) :
    pre0 Aq As Wq Ws bb = x0K (inputsOf a0 a1 a2 a3 a4 a5 a6 a7 a8 a9 a10 a11 a12 a13) := by
  rw [hq, hs, hwq, hws, hb]
  exact pre0_halves a0 a1 a2 a3 a4 a5 a6 a7 a8 a9 a10 a11 a12 a13 hl hr

/-! ## The result's axes -/

/-- Moving the channel axis of an array over [4, 256, 128, 1] to the second place: entry (b, o, q, s) of the result
    is entry (b, q, s, o) of the array. -/
theorem transpose_result (X : S4x256x128x1.Idx → EReal) (h : S4x256x128x1.Transposes [0, 3, 1, 2] S4x1x256x128) :
    transpose S4x1x256x128 [0, 3, 1, 2] X h = resultOf (fun p o => X (ix4 p.1 p.2.1 p.2.2 o)) := by
  funext i
  refine (transpose_apply _ X h i
    (ix4 (⟨(i 0).val, (i 0).isLt⟩ : Fin 4) (⟨(i 2).val, (i 2).isLt⟩ : Fin 256) (⟨(i 3).val, (i 3).isLt⟩ : Fin 128)
      (⟨(i 1).val, (i 1).isLt⟩ : Fin 1)) fun b => ?_).trans rfl
  match b with
  | ⟨0, _⟩ => rfl
  | ⟨1, _⟩ => rfl
  | ⟨2, _⟩ => rfl
  | ⟨3, _⟩ => rfl

variable (m : (ℓ : Loc nD τ sig) → Buf (Elt Ideal) ℓ) (ρ : Dev nD → PrngReg)

/-! ## At the program's own buffers -/

/-- What the first stage receives: the left and right halves of the weight, and the arguments as launched. -/
theorem V1_main_v0 (c : Dev nD) : V1 (F := Ideal) m ρ c main_v0
    = extractStridedSlice S256x256 ![0, 0] (m ((c : Thread nD τ).loc main_arg2)) slices_S256x512_S256x256_0_0 := by
  show StableHlo.after hostOps0 (W0 m ρ c) (Proc.devRef .tc main_v0) = _
  after_results

theorem V1_main_v1 (c : Dev nD) : V1 (F := Ideal) m ρ c main_v1
    = extractStridedSlice S256x256 ![0, 256] (m ((c : Thread nD τ).loc main_arg2)) slices_S256x512_S256x256_0_256 := by
  show StableHlo.after hostOps0 (W0 m ρ c) (Proc.devRef .tc main_v1) = _
  after_results

theorem V1_main_arg0 (c : Dev nD) : V1 (F := Ideal) m ρ c main_arg0 = m ((c : Thread nD τ).loc main_arg0) := by
  show StableHlo.after hostOps0 (W0 m ρ c) (Proc.devRef .tc main_arg0) = _
  after_results
  try rfl

theorem V1_main_arg1 (c : Dev nD) : V1 (F := Ideal) m ρ c main_arg1 = m ((c : Thread nD τ).loc main_arg1) := by
  show StableHlo.after hostOps0 (W0 m ρ c) (Proc.devRef .tc main_arg1) = _
  after_results
  try rfl

theorem V1_main_arg3 (c : Dev nD) : V1 (F := Ideal) m ρ c main_arg3 = m ((c : Thread nD τ).loc main_arg3) := by
  show StableHlo.after hostOps0 (W0 m ρ c) (Proc.devRef .tc main_arg3) = _
  after_results
  try rfl

/-- The first stage's function of what it receives is the specification's first pre-activation of the arguments. -/
theorem pre0_entry (c : Dev nD) :
    pre0 (V1 (F := Ideal) m ρ c main_arg1) (V1 (F := Ideal) m ρ c main_arg0) (V1 (F := Ideal) m ρ c main_v0)
        (V1 (F := Ideal) m ρ c main_v1) (V1 (F := Ideal) m ρ c main_arg3)
      = x0K (inputsOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))) :=
  pre0_of (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    slices_S256x512_S256x256_0_0 slices_S256x512_S256x256_0_256
    (V1 (F := Ideal) m ρ c main_arg1) (V1 (F := Ideal) m ρ c main_arg0) (V1 (F := Ideal) m ρ c main_v0)
    (V1 (F := Ideal) m ρ c main_v1) (V1 (F := Ideal) m ρ c main_arg3)
    (V1_main_arg1 m ρ c) (V1_main_arg0 m ρ c) (V1_main_v0 m ρ c) (V1_main_v1 m ρ c) (V1_main_arg3 m ρ c)

/-- The program's result is the last stage's array with the channel axis moved to the second place. -/
theorem W9_main_v48 (c : Dev nD) : W9 (F := Ideal) m ρ c (Proc.devRef .tc main_v48)
    = transpose S4x1x256x128 [0, 3, 1, 2] (W8 (F := Ideal) m ρ c (Proc.devRef .tc main_v47))
        transposes_S4x256x128x1_S4x1x256x128_0_3_1_2 := by
  show StableHlo.after hostOps4 (W8 m ρ c) (Proc.devRef .tc main_v48) = _
  after_results

/-- The program's result, entry (b, o, q, s), is entry (b, q, s, o) of whatever array X the last stage left. -/
theorem result_entry_of (c : Dev nD) (X : S4x256x128x1.Idx → EReal)
    (hX : W8 (F := Ideal) m ρ c (Proc.devRef .tc main_v47) = X) :
    W9 (F := Ideal) m ρ c (Proc.devRef .tc main_v48) = resultOf (fun p o => X (ix4 p.1 p.2.1 p.2.2 o)) := by
  subst hX
  exact (W9_main_v48 m ρ c).trans (transpose_result _ _)

/-- The same, with the last stage's array named as the program holds it. -/
theorem result_entry (c : Dev nD) :
    W9 (F := Ideal) m ρ c (Proc.devRef .tc main_v48)
      = resultOf (fun p o => (W8 (F := Ideal) m ρ c (Proc.devRef .tc main_v47) : S4x256x128x1.Idx → EReal) (ix4 p.1 p.2.1 p.2.2 o)) :=
  result_entry_of m ρ c _ rfl

end Cert.KernelIdeal.FoldEnds

end
-- ==== Proof.Region0Body.lean ====
/-
  The arithmetic of the first stage's kernel body, read at an index, over the extended reals.

  At one grid point the body holds a block of 32 query rows, the batch's 128 support rows, the two halves of the
  first weight and the bias. Its stored values are:
  * the pre-activation of the block, one entry per (query row q, support row s, output channel o): the query row
    against one weight half plus the support row against the other, plus the bias — two products of 256 terms;
  * the per-channel sum of these entries over the block's 32 · 128 positions, added to the running sum;
  * the per-channel sum of their squares, added to the running sum of squares;
  * at the first point, zero for both running sums.
  A change of float format is the identity here, a product into a zero accumulator is a plain sum, and a sum over one
  axis is a sum over that axis's coordinates.
-/
import proofs.«104936_j50861002719650_1_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Region0

open Idealize.ShloMosaic Idealize.ShloMosaic.ValueIdx Cert.KernelIdeal Cert.KernelIdeal.Gen

/-! ## Layout operations of the body, at an index -/

/-- A [32,256] array viewed [32,1,256] reads (q, ·, o) at (q, o). -/
theorem cast_q1o (v : S32x256.Idx → EReal) (h : S32x256.ShapeCasts S32x1x256) (q : Fin 32) (u : Fin 1) (o : Fin 256) :
    shapeCast S32x1x256 v h (ix3 q u o) = v (ix2 q o) :=
  shapeCast_apply v h _ _ (by
    have hu : u.val = 0 := by omega
    rw [Shape.rowMajor_val_three, Shape.rowMajor_val_two]
    show q.val * 256 + o.val = (q.val * 1 + u.val) * 256 + o.val
    rw [hu]; omega)

/-- A [256] array viewed [1,1,256] reads (·, ·, o) at o. -/
theorem cast_11o (v : S256.Idx → EReal) (h : S256.ShapeCasts S1x1x256) (u u' : Fin 1) (o : Fin 256) :
    shapeCast S1x1x256 v h (ix3 u u' o) = v (ix1 o) :=
  shapeCast_apply v h _ _ (by
    have hu : u.val = 0 := by omega
    have hu' : u'.val = 0 := by omega
    rw [Shape.rowMajor_val_three, Shape.rowMajor_val_one]
    show o.val = (u.val * 1 + u'.val) * 256 + o.val
    rw [hu, hu']; omega)

/-- A [32,1,256] array copied along the support axis reads (q, s, o) at (q, 0, o). -/
theorem bcast_q (v : S32x1x256.Idx → EReal) (h : S32x1x256.Broadcasts S32x128x256) (q : Fin 32) (s : Fin 128) (o : Fin 256) :
    broadcastTo S32x128x256 v h (ix3 q s o) = v (ix3 q (0 : Fin 1) o) :=
  broadcastTo_apply v h (ix3 q s o) (ix3 q (0 : Fin 1) o) fun a => by
    match a with
    | ⟨0, _⟩ => show q.val = if (32 : Nat) = 1 then 0 else q.val; rw [if_neg (by decide)]
    | ⟨1, _⟩ => show 0 = if (1 : Nat) = 1 then 0 else s.val; rw [if_pos rfl]
    | ⟨2, _⟩ => show o.val = if (256 : Nat) = 1 then 0 else o.val; rw [if_neg (by decide)]

/-- A [1,128,256] array copied along the query axis reads (q, s, o) at (0, s, o). -/
theorem bcast_s (v : S1x128x256.Idx → EReal) (h : S1x128x256.Broadcasts S32x128x256) (q : Fin 32) (s : Fin 128) (o : Fin 256) :
    broadcastTo S32x128x256 v h (ix3 q s o) = v (ix3 (0 : Fin 1) s o) :=
  broadcastTo_apply v h (ix3 q s o) (ix3 (0 : Fin 1) s o) fun a => by
    match a with
    | ⟨0, _⟩ => show 0 = if (1 : Nat) = 1 then 0 else q.val; rw [if_pos rfl]
    | ⟨1, _⟩ => show s.val = if (128 : Nat) = 1 then 0 else s.val; rw [if_neg (by decide)]
    | ⟨2, _⟩ => show o.val = if (256 : Nat) = 1 then 0 else o.val; rw [if_neg (by decide)]

/-- A [1,1,256] array copied along both position axes reads (q, s, o) at (0, 0, o). -/
theorem bcast_o (v : S1x1x256.Idx → EReal) (h : S1x1x256.Broadcasts S32x128x256) (q : Fin 32) (s : Fin 128) (o : Fin 256) :
    broadcastTo S32x128x256 v h (ix3 q s o) = v (ix3 (0 : Fin 1) (0 : Fin 1) o) :=
  broadcastTo_apply v h (ix3 q s o) (ix3 (0 : Fin 1) (0 : Fin 1) o) fun a => by
    match a with
    | ⟨0, _⟩ => show 0 = if (1 : Nat) = 1 then 0 else q.val; rw [if_pos rfl]
    | ⟨1, _⟩ => show 0 = if (1 : Nat) = 1 then 0 else s.val; rw [if_pos rfl]
    | ⟨2, _⟩ => show o.val = if (256 : Nat) = 1 then 0 else o.val; rw [if_neg (by decide)]

/-- The sum over the 32 query rows of a block, at (s, o). -/
theorem sum_rows_q (v : FVec Ideal S32x128x256 .f32) (h : S32x128x256.Reduces [0] S128x256) (hφ : FKind.Formats .f32)
    (hacc : (0x00000000#32 : BitVec 32) = FKind.add.neutral .f32 hφ) (s : Fin 128) (o : Fin 256) :
    multiReduction (F := Ideal) .add [0] S128x256 v 0x00000000#32 h hφ hacc (ix2 s o) = ∑ q : Fin 32, v (ix3 q s o) := by
  refine (Ideal.multiReduction_add_single v 0x00000000#32 h hφ hacc (ix2 s o)).trans ?_
  refine Finset.sum_congr rfl fun q _ => congrArg v ?_
  funext a
  match a with
  | ⟨0, _⟩ => rfl
  | ⟨1, _⟩ => rfl
  | ⟨2, _⟩ => rfl

/-- The sum over the 128 support rows, at o. -/
theorem sum_rows_s (v : FVec Ideal S128x256 .f32) (h : S128x256.Reduces [0] S256) (hφ : FKind.Formats .f32)
    (hacc : (0x00000000#32 : BitVec 32) = FKind.add.neutral .f32 hφ) (o : Fin 256) :
    multiReduction (F := Ideal) .add [0] S256 v 0x00000000#32 h hφ hacc (ix1 o) = ∑ s : Fin 128, v (ix2 s o) := by
  refine (Ideal.multiReduction_add_single v 0x00000000#32 h hφ hacc (ix1 o)).trans ?_
  refine Finset.sum_congr rfl fun s _ => congrArg v ?_
  funext a
  match a with
  | ⟨0, _⟩ => rfl
  | ⟨1, _⟩ => rfl

/-! ## The two products -/

abbrev dotQ := dot_S32x256_S256x256_S32x256_1_0_0_1_n_n
abbrev dotS := dot_S128x256_S256x256_S128x256_1_0_0_1_n_n

theorem dotQ_lhs0 (i : S32x256.Idx) (k : dotQ.contr.Idx) : (dotQ.lhsIdx i k 0).val = (i 0).val := by
  unfold DotDims.lhsIdx
  rw [dif_neg (show ¬(0 : Fin S32x256.rank) ∈ dotQ.lhsBatch by decide), dif_pos (show (0 : Fin S32x256.rank) ∈ dotQ.lhsNonContracting by decide)]
  rfl
theorem dotQ_lhs1 (i : S32x256.Idx) (k : dotQ.contr.Idx) : (dotQ.lhsIdx i k 1).val = (k ⟨0, by decide⟩).val :=
  dotQ.lhsIdx_val_of_single rfl i k
theorem dotQ_rhs0 (i : S32x256.Idx) (k : dotQ.contr.Idx) : (dotQ.rhsIdx i k 0).val = (k ⟨0, by decide⟩).val :=
  dotQ.rhsIdx_val_of_single rfl i k
theorem dotQ_rhs1 (i : S32x256.Idx) (k : dotQ.contr.Idx) : (dotQ.rhsIdx i k 1).val = (i 1).val := by
  unfold DotDims.rhsIdx
  rw [dif_neg (show ¬(1 : Fin S256x256.rank) ∈ dotQ.rhsBatch by decide), dif_pos (show (1 : Fin S256x256.rank) ∈ dotQ.rhsNonContracting by decide)]
  rfl

theorem dotS_lhs0 (i : S128x256.Idx) (k : dotS.contr.Idx) : (dotS.lhsIdx i k 0).val = (i 0).val := by
  unfold DotDims.lhsIdx
  rw [dif_neg (show ¬(0 : Fin S128x256.rank) ∈ dotS.lhsBatch by decide), dif_pos (show (0 : Fin S128x256.rank) ∈ dotS.lhsNonContracting by decide)]
  rfl
theorem dotS_lhs1 (i : S128x256.Idx) (k : dotS.contr.Idx) : (dotS.lhsIdx i k 1).val = (k ⟨0, by decide⟩).val :=
  dotS.lhsIdx_val_of_single rfl i k
theorem dotS_rhs0 (i : S128x256.Idx) (k : dotS.contr.Idx) : (dotS.rhsIdx i k 0).val = (k ⟨0, by decide⟩).val :=
  dotS.rhsIdx_val_of_single rfl i k
theorem dotS_rhs1 (i : S128x256.Idx) (k : dotS.contr.Idx) : (dotS.rhsIdx i k 1).val = (i 1).val := by
  unfold DotDims.rhsIdx
  rw [dif_neg (show ¬(1 : Fin S256x256.rank) ∈ dotS.rhsBatch by decide), dif_pos (show (1 : Fin S256x256.rank) ∈ dotS.rhsNonContracting by decide)]
  rfl

/-- The query product at (q, o): the block's query row q against the weight's row o, 256 terms. -/
theorem qproj_apply (x : Vec Ideal S1x32x256 .f32) (w : Vec Ideal S256x256 .f32)
    (h1 : S1x32x256.ShapeCasts S32x256) (h2 : S256x256.ShapeCasts S256x256) (h3 : S256x256.Transposes [1, 0] S256x256)
    (hb : FTy.bits .bf16 < FTy.bits .f32) (q : Fin 32) (o : Fin 256) :
    matmul (F := Ideal) dotQ none (truncf .bf16 (shapeCast S32x256 x h1) hb)
        (transpose S256x256 [1, 0] (truncf .bf16 (shapeCast S256x256 w h2) hb) h3) (constant S32x256 .f32 0x00000000#32) (ix2 q o)
      = ∑ k : Fin 256, x (ix3 (0 : Fin 1) q k) * w (ix2 o k) := by
  refine (Ideal.matmul_constant_zero_apply dotQ none _ _ (ix2 q o)).trans ?_
  rw [← Equiv.sum_comp (contrEquiv1 dotQ 256 rfl rfl).symm]
  refine Finset.sum_congr rfl fun k _ => ?_
  have hk := contrEquiv1_symm_val dotQ 256 rfl rfl k
  have el : dotQ.lhsIdx (ix2 q o) ((contrEquiv1 dotQ 256 rfl rfl).symm k) = ix2 q k := funext fun a => Fin.ext (by
    match a with
    | ⟨0, _⟩ => exact dotQ_lhs0 _ _
    | ⟨1, _⟩ => exact (dotQ_lhs1 _ _).trans hk)
  have er : dotQ.rhsIdx (ix2 q o) ((contrEquiv1 dotQ 256 rfl rfl).symm k) = ix2 k o := funext fun a => Fin.ext (by
    match a with
    | ⟨0, _⟩ => exact (dotQ_rhs0 _ _).trans hk
    | ⟨1, _⟩ => exact dotQ_rhs1 _ _)
  rw [el, er]
  have e1 : (truncf (F := Ideal) .bf16 (shapeCast S32x256 x h1) hb (ix2 q k) : EReal) = x (ix3 (0 : Fin 1) q k) :=
    shapeCast_1ab_ab_apply x h1 q k
  have e2 : (transpose S256x256 [1, 0] (truncf (F := Ideal) .bf16 (shapeCast S256x256 w h2) hb) h3 (ix2 k o) : EReal) = w (ix2 o k) :=
    (transpose_ix2_apply (truncf (F := Ideal) .bf16 (shapeCast S256x256 w h2) hb) h3 k o).trans
      (congrFun (shapeCast_self w h2) (ix2 o k))
  exact congrArg₂ (fun a b : EReal => a * b) e1 e2

/-- The support product at (s, o): the block's support row s against the weight's row o, 256 terms. -/
theorem sproj_apply (x : Vec Ideal S1x128x256 .f32) (w : Vec Ideal S256x256 .f32)
    (h1 : S1x128x256.ShapeCasts S128x256) (h2 : S256x256.ShapeCasts S256x256) (h3 : S256x256.Transposes [1, 0] S256x256)
    (hb : FTy.bits .bf16 < FTy.bits .f32) (s : Fin 128) (o : Fin 256) :
    matmul (F := Ideal) dotS none (truncf .bf16 (shapeCast S128x256 x h1) hb)
        (transpose S256x256 [1, 0] (truncf .bf16 (shapeCast S256x256 w h2) hb) h3) (constant S128x256 .f32 0x00000000#32) (ix2 s o)
      = ∑ k : Fin 256, x (ix3 (0 : Fin 1) s k) * w (ix2 o k) := by
  refine (Ideal.matmul_constant_zero_apply dotS none _ _ (ix2 s o)).trans ?_
  rw [← Equiv.sum_comp (contrEquiv1 dotS 256 rfl rfl).symm]
  refine Finset.sum_congr rfl fun k _ => ?_
  have hk := contrEquiv1_symm_val dotS 256 rfl rfl k
  have el : dotS.lhsIdx (ix2 s o) ((contrEquiv1 dotS 256 rfl rfl).symm k) = ix2 s k := funext fun a => Fin.ext (by
    match a with
    | ⟨0, _⟩ => exact dotS_lhs0 _ _
    | ⟨1, _⟩ => exact (dotS_lhs1 _ _).trans hk)
  have er : dotS.rhsIdx (ix2 s o) ((contrEquiv1 dotS 256 rfl rfl).symm k) = ix2 k o := funext fun a => Fin.ext (by
    match a with
    | ⟨0, _⟩ => exact (dotS_rhs0 _ _).trans hk
    | ⟨1, _⟩ => exact dotS_rhs1 _ _)
  rw [el, er]
  have e1 : (truncf (F := Ideal) .bf16 (shapeCast S128x256 x h1) hb (ix2 s k) : EReal) = x (ix3 (0 : Fin 1) s k) :=
    shapeCast_1ab_ab_apply x h1 s k
  have e2 : (transpose S256x256 [1, 0] (truncf (F := Ideal) .bf16 (shapeCast S256x256 w h2) hb) h3 (ix2 k o) : EReal) = w (ix2 o k) :=
    (transpose_ix2_apply (truncf (F := Ideal) .bf16 (shapeCast S256x256 w h2) hb) h3 k o).trans
      (congrFun (shapeCast_self w h2) (ix2 o k))
  exact congrArg₂ (fun a b : EReal => a * b) e1 e2

/-! ## The body's stored values at an index -/

/-- The pre-activation of a block at its row pair (q, s) and output channel o: the query row against the first weight,
    the support row against the second, plus the bias. -/
def blockPre (x : Vec Ideal S1x32x256 .f32) (y : Vec Ideal S1x128x256 .f32) (wq ws : Vec Ideal S256x256 .f32)
    (b : Vec Ideal S256 .f32) (q : Fin 32) (s : Fin 128) (o : Fin 256) : EReal :=
  ((∑ k : Fin 256, x (ix3 (0 : Fin 1) q k) * wq (ix2 o k)) + (∑ k : Fin 256, y (ix3 (0 : Fin 1) s k) * ws (ix2 o k)))
    + b (ix1 o)

/-- The computed block at (q, s, o). -/
theorem pay5_apply (x : Vec Ideal S1x32x256 .f32) (y : Vec Ideal S1x128x256 .f32) (wq ws : Vec Ideal S256x256 .f32)
    (b : Vec Ideal S256 .f32) (q : Fin 32) (s : Fin 128) (o : Fin 256) :
    k0_pay5 (F := Ideal) x y wq ws b (ix3 q s o) = blockPre x y wq ws b q s o := by
  unfold k0_pay5 blockPre
  show ((broadcastTo S32x128x256 _ _ (ix3 q s o) + broadcastTo S32x128x256 _ _ (ix3 q s o) : EReal)
    + broadcastTo S32x128x256 _ _ (ix3 q s o) : EReal) = _
  refine congrArg₂ (fun a b : EReal => a + b) (congrArg₂ (fun a b : EReal => a + b) ?_ ?_) ?_
  · exact (bcast_q _ _ q s o).trans ((cast_q1o _ _ q 0 o).trans (qproj_apply x wq _ _ _ _ q o))
  · exact (bcast_s _ _ q s o).trans ((shapeCast_ab_1ab_apply _ _ 0 s o).trans (sproj_apply y ws _ _ _ _ s o))
  · exact (bcast_o _ _ q s o).trans (cast_11o _ _ 0 0 o)

/-- The stored block at (·, q, s, o). -/
theorem pay6_apply (x : Vec Ideal S1x32x256 .f32) (y : Vec Ideal S1x128x256 .f32) (wq ws : Vec Ideal S256x256 .f32)
    (b : Vec Ideal S256 .f32) (u : Fin 1) (q : Fin 32) (s : Fin 128) (o : Fin 256) :
    k0_pay6 (F := Ideal) x y wq ws b (ix4 u q s o) = blockPre x y wq ws b q s o := by
  unfold k0_pay6
  exact (shapeCast_abc_1abc_apply _ _ u q s o).trans (pay5_apply x y wq ws b q s o)

/-- The block summed over its query rows, at (s, o). -/
theorem pay7_apply (x : Vec Ideal S1x32x256 .f32) (y : Vec Ideal S1x128x256 .f32) (wq ws : Vec Ideal S256x256 .f32)
    (b : Vec Ideal S256 .f32) (s : Fin 128) (o : Fin 256) :
    k0_pay7 (F := Ideal) x y wq ws b (ix2 s o) = ∑ q : Fin 32, blockPre x y wq ws b q s o := by
  unfold k0_pay7
  refine (sum_rows_q _ _ _ _ s o).trans ?_
  exact Finset.sum_congr rfl fun q _ => pay5_apply x y wq ws b q s o

/-- The running sum after a point: what it held plus the sum over the support rows of the row sums. -/
theorem pay1_apply (r : FVec Ideal S128x256 .f32) (acc : Vec Ideal S1x256 .f32) (u : Fin 1) (o : Fin 256) :
    k0_pay1 (F := Ideal) r acc (ix2 u o) = acc (ix2 u o) + ∑ s : Fin 128, r (ix2 s o) := by
  unfold k0_pay1
  show ((shapeCast S1x256 acc _ (ix2 u o) : EReal) + shapeCast S1x256 _ _ (ix2 u o) : EReal) = _
  refine congrArg₂ (fun a b : EReal => a + b) ?_ ?_
  · exact congrFun (shapeCast_self acc _) (ix2 u o)
  · exact (shapeCast_a_1a_apply _ _ u o).trans (sum_rows_s r _ _ _ o)

/-- The running sum of squares after a point: what it held plus the sum of the block's squared entries. -/
theorem pay2_apply (v : FVec Ideal S32x128x256 .f32) (acc : Vec Ideal S1x256 .f32) (u : Fin 1) (o : Fin 256) :
    k0_pay2 (F := Ideal) v acc (ix2 u o) = acc (ix2 u o) + ∑ s : Fin 128, ∑ q : Fin 32, v (ix3 q s o) * v (ix3 q s o) := by
  unfold k0_pay2
  show ((shapeCast S1x256 acc _ (ix2 u o) : EReal) + shapeCast S1x256 _ _ (ix2 u o) : EReal) = _
  refine congrArg₂ (fun a b : EReal => a + b) ?_ ?_
  · exact congrFun (shapeCast_self acc _) (ix2 u o)
  · refine (shapeCast_a_1a_apply _ _ u o).trans ((sum_rows_s _ _ _ _ o).trans ?_)
    exact Finset.sum_congr rfl fun s _ => sum_rows_q (mulf v v) _ _ _ s o

/-- The first point's reset stores zero. -/
theorem pay3_apply (j : S1x256.Idx) : k0_pay3 (F := Ideal) j = 0 := Ideal.ofBits_zero_f32
theorem pay4_apply (j : S1x256.Idx) : k0_pay4 (F := Ideal) j = 0 := Ideal.ofBits_zero_f32

end Cert.KernelIdeal.Region0

end
-- ==== Proof.Region0Value.lean ====
/-
  The arrays the first pipelined region leaves, read off its frame.

  The region runs the first stage's body at the 32 points of a 4 × 8 grid: point t works on batch t / 8 and on the
  32 query rows of tile t % 8, against all 128 support rows. Three arrays come out:
  * the pre-activation over (batch, query row, support row, channel): every point writes its block back, the
    blocks tile the array, and each block's entries are the specification's pre-activation at the block's
    positions;
  * per channel the sum, and the sum of squares, of the pre-activation over all positions: one block that every
    point revisits, zeroed at the first point, to which each point adds its block's sums, written back after the
    last point. After point n it holds the sum over the points up to n (induction on the point); after the last
    point that is the sum over all positions, the positions re-indexed point by point.
-/
import proofs.«104936_j50861002719650_1_alg».proof.Proof.Gen.KernelIdeal.Frame
import proofs.«104936_j50861002719650_1_alg».proof.Proof.Region0Body
import proofs.«104936_j50861002719650_1_alg».proof.Proof.SpecIO
import Idealize.ShloMosaic.Lib.Pipeline.Value
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## What each case of the body leaves in the three outputs' buffers

At the first point the body zeroes the two running sums, stores the block, and adds the block's sums to the zeros; at
every other point it stores the block and adds the block's sums to what the point before left. Each buffer ends
holding the payload of its last store; the loads read whole buffers. -/

section Pieces
variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_B_5 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i)
    (x0 : Vec F S1x32x256 .f32) (x1 : Vec F S1x128x256 .f32) (x2 : Vec F S256x256 .f32) (x3 : Vec F S256x256 .f32) (x4 : Vec F S256 .f32) (xo6 : Vec F S1x256 .f32) (xo7 : Vec F S1x256 .f32) :
    out0_B_5 c i arg2 harg2 arg3 harg3 arg4 harg4 arg5 harg5 arg6 harg6 arg7 harg7 arg8 harg8 arg9 harg9 hc0 x0 x1 x2 x3 x4 xo6 xo7 = k0_pay6 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz4]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

theorem out_B_6 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i)
    (x0 : Vec F S1x32x256 .f32) (x1 : Vec F S1x128x256 .f32) (x2 : Vec F S256x256 .f32) (x3 : Vec F S256x256 .f32) (x4 : Vec F S256 .f32) (xo6 : Vec F S1x256 .f32) (xo7 : Vec F S1x256 .f32) :
    out0_B_6 c i arg2 harg2 arg3 harg3 arg4 harg4 arg5 harg5 arg6 harg6 arg7 harg7 arg8 harg8 arg9 harg9 hc0 x0 x1 x2 x3 x4 xo6 xo7 = k0_pay1 (k0_pay7 x0 x1 x2 x3 x4) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

theorem out_B_7 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i)
    (x0 : Vec F S1x32x256 .f32) (x1 : Vec F S1x128x256 .f32) (x2 : Vec F S256x256 .f32) (x3 : Vec F S256x256 .f32) (x4 : Vec F S256 .f32) (xo6 : Vec F S1x256 .f32) (xo7 : Vec F S1x256 .f32) :
    out0_B_7 c i arg2 harg2 arg3 harg3 arg4 harg4 arg5 harg5 arg6 harg6 arg7 harg7 arg8 harg8 arg9 harg9 hc0 x0 x1 x2 x3 x4 xo6 xo7 = k0_pay2 (k0_pay5 x0 x1 x2 x3 x4) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

theorem out_A_5 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : cond0_0 i)
    (x0 : Vec F S1x32x256 .f32) (x1 : Vec F S1x128x256 .f32) (x2 : Vec F S256x256 .f32) (x3 : Vec F S256x256 .f32) (x4 : Vec F S256 .f32) :
    out0_A_5 c i arg2 harg2 arg3 harg3 arg4 harg4 arg5 harg5 arg6 harg6 arg7 harg7 arg8 harg8 arg9 harg9 hc0 x0 x1 x2 x3 x4 = k0_pay6 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz4]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

theorem out_A_6 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : cond0_0 i)
    (x0 : Vec F S1x32x256 .f32) (x1 : Vec F S1x128x256 .f32) (x2 : Vec F S256x256 .f32) (x3 : Vec F S256x256 .f32) (x4 : Vec F S256 .f32) :
    out0_A_6 c i arg2 harg2 arg3 harg3 arg4 harg4 arg5 harg5 arg6 harg6 arg7 harg7 arg8 harg8 arg9 harg9 hc0 x0 x1 x2 x3 x4 = k0_pay1 (k0_pay7 x0 x1 x2 x3 x4) k0_pay3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

theorem out_A_7 (c : Dev nD) (i : grid0.Coords) (arg2 : Memref sig .tc .vmem S1x32x256 .f32) (harg2 : arg2.IsWhole) (arg3 : Memref sig .tc .vmem S1x128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x32x128x256 .f32) (harg7 : arg7.IsWhole) (arg8 : Memref sig .tc .vmem S1x256 .f32) (harg8 : arg8.IsWhole) (arg9 : Memref sig .tc .vmem S1x256 .f32) (harg9 : arg9.IsWhole) (hc0 : cond0_0 i)
    (x0 : Vec F S1x32x256 .f32) (x1 : Vec F S1x128x256 .f32) (x2 : Vec F S256x256 .f32) (x3 : Vec F S256x256 .f32) (x4 : Vec F S256 .f32) :
    out0_A_7 c i arg2 harg2 arg3 harg3 arg4 harg4 arg5 harg5 arg6 harg6 arg7 harg7 arg8 harg8 arg9 harg9 hc0 x0 x1 x2 x3 x4 = k0_pay2 (k0_pay5 x0 x1 x2 x3 x4) k0_pay4 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, harg8.read_unread, harg9.read_unread, View.ld_unit_zero (S := S1x32x256) hz3, View.ld_unit_zero (S := S1x128x256) hz3, View.ld_unit_zero (S := S256x256) hz2, View.ld_unit_zero (S := S256) hz1, View.ld_unit_zero (S := S1x256) hz2]

end Pieces

/-! ## Sums over the grid's points -/

/-- The running sum of f over the points up to n, in point order. -/
def accSum {N : ℕ} (f : Fin N → EReal) : (n : ℕ) → n < N → EReal
  | 0, h => f ⟨0, h⟩
  | n + 1, h => accSum f n (Nat.lt_of_succ_lt h) + f ⟨n + 1, h⟩

theorem accSum_eq_range {N : ℕ} (f : Fin N → EReal) : ∀ (n : ℕ) (h : n < N),
    accSum f n h = ∑ i ∈ Finset.range (n + 1), (if h' : i < N then f ⟨i, h'⟩ else 0)
  | 0, h => by rw [accSum, Finset.sum_range_one, dif_pos h]
  | n + 1, h => by rw [accSum, accSum_eq_range f n, Finset.sum_range_succ _ (n + 1), dif_pos h]

/-- After the last point the running sum is the sum over all points. -/
theorem accSum_last {N : ℕ} (f : Fin N → EReal) (n : ℕ) (h : n < N) (hn : n + 1 = N) : accSum f n h = ∑ t, f t := by
  rw [accSum_eq_range, hn, ← Fin.sum_univ_eq_sum_range (fun i => if h' : i < N then f ⟨i, h'⟩ else 0) N]
  exact Finset.sum_congr rfl fun t _ => by rw [dif_pos t.isLt]

/-- Spec.Positions, point by point: point t holds batch t / 8 and query rows (t % 8) · 32 + q, every support row. -/
def posEquiv : (Fin 32 × Fin 128 × Fin 32) ≃ Spec.Pos where
  toFun x := (⟨x.1.val / 8, by omega⟩, ⟨(x.1.val % 8) * 32 + x.2.2.val, by omega⟩, x.2.1)
  invFun p := (⟨p.1.val * 8 + p.2.1.val / 32, by omega⟩, p.2.2, ⟨p.2.1.val % 32, by omega⟩)
  left_inv x := by
    obtain ⟨t, s, q⟩ := x
    refine Prod.ext (Fin.ext ?_) (Prod.ext rfl (Fin.ext ?_))
    · show t.val / 8 * 8 + ((t.val % 8) * 32 + q.val) / 32 = t.val; omega
    · show ((t.val % 8) * 32 + q.val) % 32 = q.val; omega
  right_inv p := by
    obtain ⟨b, r, s⟩ := p
    refine Prod.ext (Fin.ext ?_) (Prod.ext (Fin.ext ?_) rfl)
    · show (b.val * 8 + r.val / 32) / 8 = b.val; omega
    · show ((b.val * 8 + r.val / 32) % 8) * 32 + r.val % 32 = r.val; omega

/-- A sum over all positions, taken point by point. -/
theorem sum_points {N : ℕ} (hN : N = 32) (g : Spec.Pos → EReal) :
    ∑ t : Fin N, ∑ s : Fin 128, ∑ q : Fin 32,
        g (⟨t.val / 8, by have := t.isLt; omega⟩, ⟨(t.val % 8) * 32 + q.val, by omega⟩, s)
      = ∑ p : Spec.Pos, g p := by
  subst hN
  rw [← Equiv.sum_comp posEquiv g, Fintype.sum_prod_type]
  refine Finset.sum_congr rfl fun t _ => ?_
  rw [Fintype.sum_prod_type]
  rfl

/-! ## The blocks the body reads -/

variable (V : (c : Dev nD) → (b : Ref sig .tc) → Buf (Elt Ideal) ((c : Thread nD τ).loc b))

/-- The index maps over the grid: point t is batch t / 8 and query tile t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 4) = t.val / 8 ∧ win0_5.index t (1 : Fin 4) = t.val % 8 ∧ win0_5.index t (2 : Fin 4) = 0 ∧ win0_5.index t (3 : Fin 4) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The batch of point t. -/
def tb (t : Fin cfg0.N) : Fin 4 := ⟨t.val / 8, by have h := t.isLt; have hN : cfg0.N = 32 := N_0; omega⟩
/-- The query row of the array that row q of point t's block is. -/
def tr (t : Fin cfg0.N) (q : Fin 32) : Fin 256 := ⟨(t.val % 8) * 32 + q.val, by have h := t.isLt; omega⟩

abbrev Aq (c : Dev nD) : SpecIO.Arr ⟨3, ![4, 256, 256]⟩ := V c main_arg1
abbrev As (c : Dev nD) : SpecIO.Arr ⟨3, ![4, 128, 256]⟩ := V c main_arg0
abbrev Wq (c : Dev nD) : SpecIO.Arr ⟨2, ![256, 256]⟩ := V c main_v0
abbrev Ws (c : Dev nD) : SpecIO.Arr ⟨2, ![256, 256]⟩ := V c main_v1
abbrev Bb (c : Dev nD) : SpecIO.Arr ⟨1, ![256]⟩ := V c main_arg3

abbrev blkQ (c : Dev nD) (t : Fin cfg0.N) : Vec Ideal S1x32x256 .f32 := iblk0 V c 0 t
abbrev blkS (c : Dev nD) (t : Fin cfg0.N) : Vec Ideal S1x128x256 .f32 := iblk0 V c 1 t
abbrev blkWq (c : Dev nD) (t : Fin cfg0.N) : Vec Ideal S256x256 .f32 := iblk0 V c 2 t
abbrev blkWs (c : Dev nD) (t : Fin cfg0.N) : Vec Ideal S256x256 .f32 := iblk0 V c 3 t
abbrev blkB (c : Dev nD) (t : Fin cfg0.N) : Vec Ideal S256 .f32 := iblk0 V c 4 t

theorem blkQ_apply (c : Dev nD) (t : Fin cfg0.N) (u : Fin 1) (q : Fin 32) (k : Fin 256) :
    blkQ V c t (ix3 u q k) = Aq V c (ix3 (tb t) (tr t q) k) := by
  obtain ⟨e0, e1, e2, -⟩ := idx_facts t
  unfold blkQ iblk0
  rw [View.read_apply]
  show V c main_arg1 _ = V c main_arg1 _
  refine congrArg (V c main_arg1) (funext fun a => Fin.ext ?_)
  have hu : u.val = 0 := by omega
  match a with
  | ⟨0, _⟩ => show win0_0.index t (0 : Fin 3) * 1 + 1 * u.val = t.val / 8; omega
  | ⟨1, _⟩ => show win0_0.index t (1 : Fin 3) * 32 + 1 * q.val = (t.val % 8) * 32 + q.val; omega
  | ⟨2, _⟩ => show win0_0.index t (2 : Fin 3) * 256 + 1 * k.val = k.val; omega

theorem blkS_apply (c : Dev nD) (t : Fin cfg0.N) (u : Fin 1) (s : Fin 128) (k : Fin 256) :
    blkS V c t (ix3 u s k) = As V c (ix3 (tb t) s k) := by
  obtain ⟨-, -, -, e0, e1, e2, -⟩ := idx_facts t
  unfold blkS iblk0
  rw [View.read_apply]
  show V c main_arg0 _ = V c main_arg0 _
  refine congrArg (V c main_arg0) (funext fun a => Fin.ext ?_)
  have hu : u.val = 0 := by omega
  match a with
  | ⟨0, _⟩ => show win0_1.index t (0 : Fin 3) * 1 + 1 * u.val = t.val / 8; omega
  | ⟨1, _⟩ => show win0_1.index t (1 : Fin 3) * 128 + 1 * s.val = s.val; omega
  | ⟨2, _⟩ => show win0_1.index t (2 : Fin 3) * 256 + 1 * k.val = k.val; omega

theorem blkWq_apply (c : Dev nD) (t : Fin cfg0.N) (o : Fin 256) (k : Fin 256) :
    blkWq V c t (ix2 o k) = Wq V c (ix2 o k) := by
  obtain ⟨-, -, -, -, -, -, e0, e1, -⟩ := idx_facts t
  unfold blkWq iblk0
  rw [View.read_apply]
  show V c main_v0 _ = V c main_v0 _
  refine congrArg (V c main_v0) (funext fun a => Fin.ext ?_)
  match a with
  | ⟨0, _⟩ => show win0_2.index t (0 : Fin 2) * 256 + 1 * o.val = o.val; omega
  | ⟨1, _⟩ => show win0_2.index t (1 : Fin 2) * 256 + 1 * k.val = k.val; omega

theorem blkWs_apply (c : Dev nD) (t : Fin cfg0.N) (o : Fin 256) (k : Fin 256) :
    blkWs V c t (ix2 o k) = Ws V c (ix2 o k) := by
  obtain ⟨-, -, -, -, -, -, -, -, e0, e1, -⟩ := idx_facts t
  unfold blkWs iblk0
  rw [View.read_apply]
  show V c main_v1 _ = V c main_v1 _
  refine congrArg (V c main_v1) (funext fun a => Fin.ext ?_)
  match a with
  | ⟨0, _⟩ => show win0_3.index t (0 : Fin 2) * 256 + 1 * o.val = o.val; omega
  | ⟨1, _⟩ => show win0_3.index t (1 : Fin 2) * 256 + 1 * k.val = k.val; omega

theorem blkB_apply (c : Dev nD) (t : Fin cfg0.N) (o : Fin 256) :
    blkB V c t (ix1 o) = Bb V c (ix1 o) := by
  obtain ⟨-, -, -, -, -, -, -, -, -, -, e0, -⟩ := idx_facts t
  unfold blkB iblk0
  rw [View.read_apply]
  show V c main_arg3 _ = V c main_arg3 _
  refine congrArg (V c main_arg3) (funext fun a => Fin.ext ?_)
  match a with
  | ⟨0, _⟩ => show win0_4.index t (0 : Fin 1) * 256 + 1 * o.val = o.val; omega

/-! ## The outputs after a point -/

/-- After the first point: the block, and the block's sums added to zero. -/
theorem outs_first (c : Dev nD) (t : Fin cfg0.N) (h0 : t.val % 32 = 0) :
    outsAt0 V c t.val t.isLt = (k0_pay6 (blkQ V c t) (blkS V c t) (blkWq V c t) (blkWs V c t) (blkB V c t),
      k0_pay1 (k0_pay7 (blkQ V c t) (blkS V c t) (blkWq V c t) (blkWs V c t) (blkB V c t)) (k0_pay3 (F := Ideal)),
      k0_pay2 (k0_pay5 (blkQ V c t) (blkS V c t) (blkWq V c t) (blkWs V c t) (blkB V c t)) (k0_pay4 (F := Ideal))) := by
  rw [outsAt0_A V c t h0]
  exact congrArg₂ Prod.mk (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))

/-- After any other point: the block, and the block's sums added to what the point before left. -/
theorem outs_next (c : Dev nD) (t : Fin cfg0.N) (h0 : ¬t.val % 32 = 0) :
    outsAt0 V c t.val t.isLt = (k0_pay6 (blkQ V c t) (blkS V c t) (blkWq V c t) (blkWs V c t) (blkB V c t),
      k0_pay1 (k0_pay7 (blkQ V c t) (blkS V c t) (blkWq V c t) (blkWs V c t) (blkB V c t)) (outsAt0 V c (t.val - 1) (Nat.lt_of_le_of_lt (Nat.sub_le _ _) t.isLt)).2.1,
      k0_pay2 (k0_pay5 (blkQ V c t) (blkS V c t) (blkWq V c t) (blkWs V c t) (blkB V c t)) (outsAt0 V c (t.val - 1) (Nat.lt_of_le_of_lt (Nat.sub_le _ _) t.isLt)).2.2) := by
  rw [outsAt0_B V c t h0]
  exact congrArg₂ Prod.mk (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))

/-- The first output's buffer after point t holds the block computed there. -/
theorem stage_out (c : Dev nD) (t : Fin cfg0.N) : (outsAt0 V c t.val t.isLt).1 = k0_pay6 (blkQ V c t) (blkS V c t) (blkWq V c t) (blkWs V c t) (blkB V c t) := by
  by_cases h0 : t.val % 32 = 0
  · rw [outs_first V c t h0]
  · rw [outs_next V c t h0]

/-! ## The block's entries are the specification's -/

/-- The pre-activation of point t's block at (q, s, o). -/
def pre (c : Dev nD) (t : Fin cfg0.N) (q : Fin 32) (s : Fin 128) (o : Fin 256) : EReal :=
  blockPre (blkQ V c t) (blkS V c t) (blkWq V c t) (blkWs V c t) (blkB V c t) q s o

/-- The first stage's pre-activation as the specification states it, of the arrays the region finds. -/
abbrev y0 (c : Dev nD) : Spec.Pos → Fin 256 → EReal := SpecIO.pre0 (Aq V c) (As V c) (Wq V c) (Ws V c) (Bb V c)

/-- Entry (q, s, o) of point t's block is the specification's pre-activation at position (t / 8, (t % 8) · 32 + q, s). -/
theorem pre_eq (c : Dev nD) (t : Fin cfg0.N) (q : Fin 32) (s : Fin 128) (o : Fin 256) :
    pre V c t q s o = y0 V c (tb t, tr t q, s) o := by
  unfold pre blockPre y0 SpecIO.pre0
  refine congrArg₂ (fun a b : EReal => a + b) (congrArg₂ (fun a b : EReal => a + b)
    (Finset.sum_congr rfl fun k _ => ?_) (Finset.sum_congr rfl fun k _ => ?_)) (blkB_apply V c t o)
  · exact congrArg₂ (fun a b : EReal => a * b) (blkQ_apply V c t 0 q k) (blkWq_apply V c t o k)
  · exact congrArg₂ (fun a b : EReal => a * b) (blkS_apply V c t 0 s k) (blkWs_apply V c t o k)

/-- The sum of point t's block over its positions, per channel; -/
def bsum (c : Dev nD) (o : Fin 256) (t : Fin cfg0.N) : EReal := ∑ s : Fin 128, ∑ q : Fin 32, pre V c t q s o
/-- and the sum of its squared entries. -/
def bsq (c : Dev nD) (o : Fin 256) (t : Fin cfg0.N) : EReal := ∑ s : Fin 128, ∑ q : Fin 32, pre V c t q s o * pre V c t q s o

/-- One point's update of the running sum. -/
theorem sum_step (c : Dev nD) (t : Fin cfg0.N) (acc : Vec Ideal S1x256 .f32) (u : Fin 1) (o : Fin 256) :
    k0_pay1 (F := Ideal) (k0_pay7 (blkQ V c t) (blkS V c t) (blkWq V c t) (blkWs V c t) (blkB V c t)) acc (ix2 u o) = acc (ix2 u o) + bsum V c o t := by
  refine (pay1_apply _ acc u o).trans (congrArg (fun z : EReal => acc (ix2 u o) + z) ?_)
  unfold bsum pre
  exact Finset.sum_congr rfl fun s _ => pay7_apply _ _ _ _ _ s o

/-- One point's update of the running sum of squares. -/
theorem sq_step (c : Dev nD) (t : Fin cfg0.N) (acc : Vec Ideal S1x256 .f32) (u : Fin 1) (o : Fin 256) :
    k0_pay2 (F := Ideal) (k0_pay5 (blkQ V c t) (blkS V c t) (blkWq V c t) (blkWs V c t) (blkB V c t)) acc (ix2 u o) = acc (ix2 u o) + bsq V c o t := by
  refine (pay2_apply _ acc u o).trans (congrArg (fun z : EReal => acc (ix2 u o) + z) ?_)
  unfold bsq pre
  exact Finset.sum_congr rfl fun s _ => Finset.sum_congr rfl fun q _ => by rw [pay5_apply]

/-- After point n the two carried buffers hold the sums over the points up to n of the blocks' sums: by induction on
    the point, the first point starting from zero. -/
theorem acc_inv (c : Dev nD) : ∀ (n : ℕ) (h : n < cfg0.N) (u : Fin 1) (o : Fin 256),
    (outsAt0 V c n h).2.1 (ix2 u o) = accSum (bsum V c o) n h ∧ (outsAt0 V c n h).2.2 (ix2 u o) = accSum (bsq V c o) n h
  | 0, h, u, o => by
    have e := outs_first V c ⟨0, h⟩ rfl
    rw [show outsAt0 V c 0 h = _ from e]
    refine ⟨(sum_step V c ⟨0, h⟩ (k0_pay3 (F := Ideal)) u o).trans ?_, (sq_step V c ⟨0, h⟩ (k0_pay4 (F := Ideal)) u o).trans ?_⟩
    · rw [pay3_apply, zero_add, accSum]
    · rw [pay4_apply, zero_add, accSum]
  | n + 1, h, u, o => by
    have hN : cfg0.N = 32 := N_0
    have hB : ¬(⟨n + 1, h⟩ : Fin cfg0.N).val % 32 = 0 := by dsimp only; omega
    have e := outs_next V c ⟨n + 1, h⟩ hB
    have ih := acc_inv c n (Nat.lt_of_succ_lt h) u o
    rw [show outsAt0 V c (n + 1) h = _ from e]
    refine ⟨(sum_step V c ⟨n + 1, h⟩ _ u o).trans ?_, (sq_step V c ⟨n + 1, h⟩ _ u o).trans ?_⟩
    · rw [accSum]; exact congrArg (fun z : EReal => z + bsum V c o ⟨n + 1, h⟩) ih.1
    · rw [accSum]; exact congrArg (fun z : EReal => z + bsq V c o ⟨n + 1, h⟩) ih.2

/-- Over all points the blocks' sums add up to the sum over all positions; -/
theorem sum_total (c : Dev nD) (o : Fin 256) : ∑ t : Fin cfg0.N, bsum V c o t = ∑ p : Spec.Pos, y0 V c p o := by
  unfold bsum
  simp only [pre_eq]
  exact sum_points N_0 (fun p => y0 V c p o)

/-- and so do the sums of squares. -/
theorem sq_total (c : Dev nD) (o : Fin 256) : ∑ t : Fin cfg0.N, bsq V c o t = ∑ p : Spec.Pos, y0 V c p o * y0 V c p o := by
  unfold bsq
  simp only [pre_eq]
  exact sum_points N_0 (fun p => y0 V c p o * y0 V c p o)

/-! ## What the write-backs write, and the arrays after the region -/

/-- Every point writes back its block of the first stage's array. -/
theorem flushed5_eq (c : Dev nD) (t : Fin cfg0.N) :
    (dat0 V c).flushed 5 t = ((cfg0.win 5).blk t).view.read (Elt Ideal) (SpecIO.stageArr (y0 V c)) := by
  show (cfg0.win 5).cut (grid0.coords t) ((dat0 V c).after 5 t) = _
  rw [after0_5, stage_out]
  obtain ⟨-, -, -, -, -, -, -, -, -, -, -, e0, e1, e2, e3, -⟩ := idx_facts t
  funext j
  obtain ⟨u, q, s, o, rfl⟩ : ∃ (u : Fin 1) (q : Fin 32) (s : Fin 128) (o : Fin 256), j = ix4 u q s o :=
    ⟨j 0, j 1, j 2, j 3, eq_ix4 j⟩
  rw [View.read_apply]
  refine (pay6_apply _ _ _ _ _ u q s o).trans ((pre_eq V c t q s o).trans ?_)
  have hu : u.val = 0 := by omega
  unfold SpecIO.stageArr
  refine congrArg₂ (y0 V c) (Prod.ext (Fin.ext ?_) (Prod.ext (Fin.ext ?_) (Fin.ext ?_))) (Fin.ext ?_)
  · show t.val / 8 = win0_5.index t (0 : Fin 4) * 1 + 1 * u.val; omega
  · show (t.val % 8) * 32 + q.val = win0_5.index t (1 : Fin 4) * 32 + 1 * q.val; omega
  · show s.val = win0_5.index t (2 : Fin 4) * 128 + 1 * s.val; omega
  · show o.val = win0_5.index t (3 : Fin 4) * 256 + 1 * o.val; omega

/-- An index of the first stage's array is in point t's block iff each coordinate is in the block's range. -/
theorem mem_blk5 (t : Fin cfg0.N) (i : S4x256x128x256.Idx) :
    i ∈ ((cfg0.win 5).blk t).view.set ↔ ∀ a : Fin 4, win0_5.index t a * S1x32x128x256.size a ≤ (i a).val
      ∧ (i a).val < win0_5.index t a * S1x32x128x256.size a + S1x32x128x256.size a := by
  show i ∈ ((View.whole main_v2_0).slice (win0_5.rect t)).set ↔ _
  rw [View.set_slice_whole, Rect.mem_set_unit]
  exact Iff.rfl

/-- Every index of the first stage's array is in the block of the point of its batch and query tile. -/
theorem cover5 (i : S4x256x128x256.Idx) :
    ∃ t : Fin cfg0.N, (cfg0.win 5).flush t = true ∧ i ∈ ((cfg0.win 5).blk t).view.set := by
  have hN : cfg0.N = 32 := N_0
  have h0 : (i 0).val < 4 := (i 0).isLt
  have h1 : (i 1).val < 256 := (i 1).isLt
  have h2 : (i 2).val < 128 := (i 2).isLt
  have h3 : (i 3).val < 256 := (i 3).isLt
  let t : Fin cfg0.N := ⟨(i 0).val * 8 + (i 1).val / 32, by omega⟩
  have ht : t.val = (i 0).val * 8 + (i 1).val / 32 := rfl
  obtain ⟨-, -, -, -, -, -, -, -, -, -, -, e0, e1, e2, e3, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 128 ≤ (i 2).val ∧ (i 2).val < win0_5.index t (2 : Fin 4) * 128 + 128; omega
  | ⟨3, _⟩ => show win0_5.index t (3 : Fin 4) * 256 ≤ (i 3).val ∧ (i 3).val < win0_5.index t (3 : Fin 4) * 256 + 256; omega

/-- After the last point the running sum, entry by entry, is the sum over all positions; -/
theorem acc6_apply (c : Dev nD) (t : Fin cfg0.N) (hlast : t.val + 1 = cfg0.N) (j : S1x256.Idx) :
    (outsAt0 V c t.val t.isLt).2.1 j = SpecIO.sumArr (y0 V c) (((cfg0.win 6).blk t).view.emb j) := by
  obtain ⟨-, -, -, -, -, -, -, -, -, -, -, -, -, -, -, e0, e1, -⟩ := idx_facts t
  obtain ⟨u, o, rfl⟩ : ∃ (u : Fin 1) (o : Fin 256), j = ix2 u o := ⟨j 0, j 1, eq_ix2 j⟩
  refine ((acc_inv V c t.val t.isLt u o).1).trans ?_
  rw [accSum_last _ t.val t.isLt hlast, sum_total]
  unfold SpecIO.sumArr
  have eo : (⟨(((cfg0.win 6).blk t).view.emb (ix2 u o) 1).val, (((cfg0.win 6).blk t).view.emb (ix2 u o) 1).isLt⟩ : Fin 256) = o :=
    Fin.ext (by show win0_6.index t (1 : Fin 2) * 256 + 1 * o.val = o.val; rw [e1]; omega)
  show _ = ∑ p : Spec.Pos, y0 V c p _
  rw [eo]

/-- and so is the running sum of squares. -/
theorem acc7_apply (c : Dev nD) (t : Fin cfg0.N) (hlast : t.val + 1 = cfg0.N) (j : S1x256.Idx) :
    (outsAt0 V c t.val t.isLt).2.2 j = SpecIO.sumsqArr (y0 V c) (((cfg0.win 7).blk t).view.emb j) := by
  obtain ⟨-, -, -, -, -, -, -, -, -, -, -, -, -, -, -, -, -, e0, e1⟩ := idx_facts t
  obtain ⟨u, o, rfl⟩ : ∃ (u : Fin 1) (o : Fin 256), j = ix2 u o := ⟨j 0, j 1, eq_ix2 j⟩
  refine ((acc_inv V c t.val t.isLt u o).2).trans ?_
  rw [accSum_last _ t.val t.isLt hlast, sq_total]
  unfold SpecIO.sumsqArr
  have eo : (⟨(((cfg0.win 7).blk t).view.emb (ix2 u o) 1).val, (((cfg0.win 7).blk t).view.emb (ix2 u o) 1).isLt⟩ : Fin 256) = o :=
    Fin.ext (by show win0_7.index t (1 : Fin 2) * 256 + 1 * o.val = o.val; rw [e1]; omega)
  show _ = ∑ p : Spec.Pos, y0 V c p _ * y0 V c p _
  rw [eo]

/-- The last point, the only one to write the running sums back, writes the sums over all positions. -/
theorem flushed6_eq (c : Dev nD) (t : Fin cfg0.N) (hf : (cfg0.win 6).flush t = true) :
    (dat0 V c).flushed 6 t = ((cfg0.win 6).blk t).view.read (Elt Ideal) (SpecIO.sumArr (y0 V c)) := by
  have ht : t.val < 32 := lt_of_lt_of_eq t.isLt N_0
  have h31 : t.val + 1 = cfg0.N := by have := (flush0_6 t).mp hf; have hN : cfg0.N = 32 := N_0; omega
  show (cfg0.win 6).cut (grid0.coords t) ((dat0 V c).after 6 t) = _
  rw [after0_6]
  funext j
  rw [View.read_apply]
  exact acc6_apply V c t h31 j

theorem flushed7_eq (c : Dev nD) (t : Fin cfg0.N) (hf : (cfg0.win 7).flush t = true) :
    (dat0 V c).flushed 7 t = ((cfg0.win 7).blk t).view.read (Elt Ideal) (SpecIO.sumsqArr (y0 V c)) := by
  have ht : t.val < 32 := lt_of_lt_of_eq t.isLt N_0
  have h31 : t.val + 1 = cfg0.N := by have := (flush0_7 t).mp hf; have hN : cfg0.N = 32 := N_0; omega
  show (cfg0.win 7).cut (grid0.coords t) ((dat0 V c).after 7 t) = _
  rw [after0_7]
  funext j
  rw [View.read_apply]
  exact acc7_apply V c t h31 j

theorem mem_blk6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v2_1).slice (win0_6.rect t)).set ↔ _
  rw [View.set_slice_whole, Rect.mem_set_unit]
  exact Iff.rfl

theorem mem_blk7 (t : Fin cfg0.N) (i : S1x256.Idx) :
    i ∈ ((cfg0.win 7).blk t).view.set ↔ ∀ a : Fin 2, win0_7.index t a * S1x256.size a ≤ (i a).val
      ∧ (i a).val < win0_7.index t a * S1x256.size a + S1x256.size a := by
  show i ∈ ((View.whole main_v2_2).slice (win0_7.rect t)).set ↔ _
  rw [View.set_slice_whole, Rect.mem_set_unit]
  exact Iff.rfl

/-- The last point. -/
def tLast : Fin cfg0.N := ⟨31, by rw [show cfg0.N = 32 from N_0]; decide⟩

theorem cover6 (i : S1x256.Idx) : ∃ t : Fin cfg0.N, (cfg0.win 6).flush t = true ∧ i ∈ ((cfg0.win 6).blk t).view.set := by
  have h0 : (i 0).val < 1 := (i 0).isLt
  have h1 : (i 1).val < 256 := (i 1).isLt
  obtain ⟨-, -, -, -, -, -, -, -, -, -, -, -, -, -, -, e0, e1, -⟩ := idx_facts tLast
  refine ⟨tLast, (flush0_6 tLast).mpr rfl, ?_⟩
  rw [mem_blk6]
  intro a
  match a with
  | ⟨0, _⟩ => show win0_6.index tLast (0 : Fin 2) * 1 ≤ (i 0).val ∧ (i 0).val < win0_6.index tLast (0 : Fin 2) * 1 + 1; omega
  | ⟨1, _⟩ => show win0_6.index tLast (1 : Fin 2) * 256 ≤ (i 1).val ∧ (i 1).val < win0_6.index tLast (1 : Fin 2) * 256 + 256; omega

theorem cover7 (i : S1x256.Idx) : ∃ t : Fin cfg0.N, (cfg0.win 7).flush t = true ∧ i ∈ ((cfg0.win 7).blk t).view.set := by
  have h0 : (i 0).val < 1 := (i 0).isLt
  have h1 : (i 1).val < 256 := (i 1).isLt
  obtain ⟨-, -, -, -, -, -, -, -, -, -, -, -, -, -, -, -, -, e0, e1⟩ := idx_facts tLast
  refine ⟨tLast, (flush0_7 tLast).mpr rfl, ?_⟩
  rw [mem_blk7]
  intro a
  match a with
  | ⟨0, _⟩ => show win0_7.index tLast (0 : Fin 2) * 1 ≤ (i 0).val ∧ (i 0).val < win0_7.index tLast (0 : Fin 2) * 1 + 1; omega
  | ⟨1, _⟩ => show win0_7.index tLast (1 : Fin 2) * 256 ≤ (i 1).val ∧ (i 1).val < win0_7.index tLast (1 : Fin 2) * 256 + 256; omega

/-! ## The three arrays after the region -/

/-- The first stage's array after the region: the specification's pre-activation, entry by entry. -/
theorem final5 (c : Dev nD) : (dat0 V c).arrAt 5 cfg0.N
    = SpecIO.stageArr (SpecIO.pre0 (V c main_arg1) (V c main_arg0) (V c main_v0) (V c main_v1) (V c main_arg3)) :=
  (dat0 V c).arrAt_eq_of_cover 5 (SpecIO.stageArr (y0 V c)) (fun t _ => flushed5_eq V c t) cover5

/-- The second output after the region: per channel, the sum of the pre-activation over all positions; -/
theorem final6 (c : Dev nD) : (dat0 V c).arrAt 6 cfg0.N
    = SpecIO.sumArr (SpecIO.pre0 (V c main_arg1) (V c main_arg0) (V c main_v0) (V c main_v1) (V c main_arg3)) :=
  (dat0 V c).arrAt_eq_of_cover 6 (SpecIO.sumArr (y0 V c)) (flushed6_eq V c) cover6

/-- and the third: per channel, the sum of its squares over all positions. -/
theorem final7 (c : Dev nD) : (dat0 V c).arrAt 7 cfg0.N
    = SpecIO.sumsqArr (SpecIO.pre0 (V c main_arg1) (V c main_arg0) (V c main_v0) (V c main_v1) (V c main_arg3)) :=
  (dat0 V c).arrAt_eq_of_cover 7 (SpecIO.sumsqArr (y0 V c)) (flushed7_eq V c) cover7

end Cert.KernelIdeal.Region0
end
-- ==== Proof.Region1Body.lean ====
/-
  The middle stage's block arithmetic, read entry by entry over the extended reals.

  One grid point of the middle stage receives a block x of 32 query rows by 128 support rows by 256 channels, a scale
  and a shift per input channel, a weight matrix [64, 256] and a bias [64]. It forms h = max(x · scale + shift, 0),
  flattens the 32 · 128 positions to 4096 rows, multiplies by the transposed weight, adds the bias, and folds the rows
  back to (query row, support row). Read at position (q, s) and output channel o this is
      ∑ k, max (x(q, s, k) · scale(k) + shift(k)) 0 · W(o, k)  +  bias(o).
  The two running statistics then add, per output channel, the block's sum and the block's sum of squares, each taken
  first over the 32 query rows and then over the 128 support rows.

  Every lemma here is about pure terms only: no memory, no grid.
-/
import proofs.«104936_j50861002719650_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Idealize.ShloMosaic Idealize.ShloMosaic.ValueIdx

section Layout
variable {α : Type}

/-- A vector `[a]` cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, c]` array cast to `[m, c]` with `m = a · b` reads, at `(p · b + q, k)`, the operand at `(p, q, k)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (k : Fin c) (r : Fin m)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[m, c]` array with `m = a · b` cast to `[a, b, c]` reads, at `(p, q, k)`, the operand at `(p · b + q, k)`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Layout

/-- The index over `(s, o)` with the dropped leading coordinate `q` put back is `(q, s, o)`. -/
theorem lift_ix3 {a b c : ℕ} (h : (⟨3, ![a, b, c]⟩ : Shape).Reduces [0] (⟨2, ![b, c]⟩ : Shape)) (s : Fin b) (o : Fin c)
    (k : Fin ((⟨3, ![a, b, c]⟩ : Shape).size 0)) : h.lift (ix2 s o) k = ix3 (⟨k.val, k.isLt⟩ : Fin a) s o := by
  funext d; apply Fin.ext
  fin_cases d <;> rfl

/-- The index over `o` with the dropped leading coordinate `s` put back is `(s, o)`. -/
theorem lift_ix2 {b c : ℕ} (h : (⟨2, ![b, c]⟩ : Shape).Reduces [0] (⟨1, ![c]⟩ : Shape)) (o : Fin c)
    (k : Fin ((⟨2, ![b, c]⟩ : Shape).size 0)) : h.lift (ix1 o) k = ix2 (⟨k.val, k.isLt⟩ : Fin b) o := by
  funext d; apply Fin.ext
  fin_cases d <;> rfl

/-- A sum over the leading axis of a rank-3 array of extended reals, from the zero word. -/
theorem reduce0_abc_apply {a b c : ℕ} (src : FVec Ideal ⟨3, ![a, b, c]⟩ .f32)
    (h : (⟨3, ![a, b, c]⟩ : Shape).Reduces [0] (⟨2, ![b, c]⟩ : Shape)) (hφ : FKind.Formats FTy.f32)
    (hacc : (0x00000000#32 : BitVec 32) = FKind.add.neutral FTy.f32 hφ) (s : Fin b) (o : Fin c) :
    multiReduction .add [0] ⟨2, ![b, c]⟩ src 0x00000000#32 h hφ hacc (ix2 s o) = ∑ q : Fin a, src (ix3 q s o) :=
  (Ideal.multiReduction_add_single src 0x00000000#32 h hφ hacc (ix2 s o)).trans
    (Finset.sum_congr rfl fun k _ => congrArg src (lift_ix3 h s o k))

/-- A sum over the leading axis of a rank-2 array of extended reals, from the zero word. -/
theorem reduce0_bc_apply {b c : ℕ} (src : FVec Ideal ⟨2, ![b, c]⟩ .f32)
    (h : (⟨2, ![b, c]⟩ : Shape).Reduces [0] (⟨1, ![c]⟩ : Shape)) (hφ : FKind.Formats FTy.f32)
    (hacc : (0x00000000#32 : BitVec 32) = FKind.add.neutral FTy.f32 hφ) (o : Fin c) :
    multiReduction .add [0] ⟨1, ![c]⟩ src 0x00000000#32 h hφ hacc (ix1 o) = ∑ s : Fin b, src (ix2 s o) :=
  (Ideal.multiReduction_add_single src 0x00000000#32 h hφ hacc (ix1 o)).trans
    (Finset.sum_congr rfl fun k _ => congrArg src (lift_ix2 h o k))

/-! ## The block product -/

open Cert.KernelIdeal Cert.KernelIdeal.Gen

/-- The left factor's index at output (r, o) and shared coordinate q: row r … -/
theorem lhs_0 (i : S4096x64.Idx) (q : dot_S4096x256_S256x64_S4096x64_1_0_0_1_n_n.contr.Idx) : (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
/-- … and column the shared coordinate. -/
theorem lhs_1 (i : S4096x64.Idx) (q : dot_S4096x256_S256x64_S4096x64_1_0_0_1_n_n.contr.Idx) : (dot_S4096x256_S256x64_S4096x64_1_0_0_1_n_n.lhsIdx i q 1).val = (q ⟨0, by decide⟩).val :=
  dot_S4096x256_S256x64_S4096x64_1_0_0_1_n_n.lhsIdx_val_of_single rfl i q
/-- The right factor's index: row the shared coordinate … -/
theorem rhs_0 (i : S4096x64.Idx) (q : dot_S4096x256_S256x64_S4096x64_1_0_0_1_n_n.contr.Idx) : (dot_S4096x256_S256x64_S4096x64_1_0_0_1_n_n.rhsIdx i q 0).val = (q ⟨0, by decide⟩).val :=
  dot_S4096x256_S256x64_S4096x64_1_0_0_1_n_n.rhsIdx_val_of_single rfl i q
/-- … and column o. -/
theorem rhs_1 (i : S4096x64.Idx) (q : dot_S4096x256_S256x64_S4096x64_1_0_0_1_n_n.contr.Idx) : (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The product of a [4096, 256] array with a [256, 64] array into a zero accumulator, at row `r` and column `o`:
    the sum over the 256 shared coordinates. -/
theorem matmul_4096_apply (lhs : FVec Ideal S4096x256 .bf16) (rhs : FVec Ideal S256x64 .bf16) (r : Fin 4096) (o : Fin 64) :
    matmul dot_S4096x256_S256x64_S4096x64_1_0_0_1_n_n none lhs rhs (constant S4096x64 .f32 0x00000000#32) (ix2 r o)
      = ∑ k : Fin 256, lhs (ix2 r k) * rhs (ix2 k o) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 r o) ((contrEquiv1 dot_S4096x256_S256x64_S4096x64_1_0_0_1_n_n 256 rfl rfl).symm k) = ix2 r k := funext fun a => Fin.ext (by
    match a with
    | ⟨0, _⟩ => exact lhs_0 _ _
    | ⟨1, _⟩ => exact (lhs_1 _ _).trans hk)
  have er : dot_S4096x256_S256x64_S4096x64_1_0_0_1_n_n.rhsIdx (ix2 r o) ((contrEquiv1 dot_S4096x256_S256x64_S4096x64_1_0_0_1_n_n 256 rfl rfl).symm k) = ix2 k o := funext fun a => Fin.ext (by
    match a with
    | ⟨0, _⟩ => exact (rhs_0 _ _).trans hk
    | ⟨1, _⟩ => exact rhs_1 _ _)
  rw [el, er]

/-! ## The payloads at an index -/

/-- The block's pre-activation at query row `q`, support row `s`, output channel `o`. -/
def blockVal (x0 : Vec Ideal S1x32x128x256 .f32) (x1 x2 : Vec Ideal S1x256 .f32) (x3 : Vec Ideal S64x256 .f32)
    (x4 : Vec Ideal S64 .f32) (q : Fin 32) (s : Fin 128) (o : Fin 64) : EReal :=
  (∑ k : Fin 256, max (x0 (ix4 (0 : Fin 1) q s k) * x1 (ix2 (0 : Fin 1) k) + x2 (ix2 (0 : Fin 1) k)) 0 * x3 (ix2 o k)) + x4 (ix1 o)

/-- The stage's value before it is stored: rescale, clamp, multiply by the weight's row, add the bias. -/
theorem pay5_apply (x0 : Vec Ideal S1x32x128x256 .f32) (x1 x2 : Vec Ideal S1x256 .f32) (x3 : Vec Ideal S64x256 .f32)
    (x4 : Vec Ideal S64 .f32) (q : Fin 32) (s : Fin 128) (o : Fin 64) :
    k1_pay5 x0 x1 x2 x3 x4 (ix3 q s o) = blockVal x0 x1 x2 x3 x4 q s o := by
  have hq := q.isLt
  have hs := s.isLt
  unfold k1_pay5 blockVal
  refine (shapeCast_mc_abc_apply (a := 32) (b := 128) (c := 64) (m := 4096) _ _ q s o ⟨q.val * 128 + s.val, by omega⟩ rfl).trans ?_
  refine (addf_apply _ _ _).trans ?_
  refine congrArg₂ (· + ·) ?_ ?_
  · refine (matmul_4096_apply _ _ _ _).trans (Finset.sum_congr rfl fun k _ => ?_)
    refine congrArg₂ (· * ·) ?_ ?_
    · refine (truncf_apply (s := S4096x256) (φ := FTy.f32) (ψ := FTy.bf16) _ bitsLt_bf16_f32 _).trans ?_
      refine (shapeCast_abc_mc_apply (a := 32) (b := 128) (c := 256) (m := 4096) _ _ q s k ⟨q.val * 128 + s.val, by omega⟩ rfl).trans ?_
      refine (maximumf_apply _ _ _).trans ?_
      refine congrArg₂ max ?_ ?_
      · refine (addf_apply _ _ _).trans ?_
        refine congrArg₂ (· + ·) ?_ ?_
        · refine (mulf_apply _ _ _).trans ?_
          refine congrArg₂ (· * ·) ?_ ?_
          · exact shapeCast_1abc_abc_apply _ _ q s k
          · refine (broadcastTo_11c_abc_apply _ _ q s k).trans ?_
            refine (shapeCast_a_11a_apply _ _ 0 0 k).trans ?_
            exact shapeCast_1a_a_apply _ _ k
        · refine (broadcastTo_11c_abc_apply _ _ q s k).trans ?_
          refine (shapeCast_a_11a_apply _ _ 0 0 k).trans ?_
          exact shapeCast_1a_a_apply _ _ k
      · exact Ideal.ofBits_zero_f32
    · exact transpose_ix2_apply (truncf (F := Ideal) (φ := FTy.f32) FTy.bf16 x3 bitsLt_bf16_f32) transposes_S64x256_p1_0_S256x64 k o
  · refine (broadcastTo_1b_ab_apply _ _ _ o).trans ?_
    exact shapeCast_a_1a_apply _ _ 0 o

/-- The stored block is that value under a leading unit axis. -/
theorem pay6_apply (x0 : Vec Ideal S1x32x128x256 .f32) (x1 x2 : Vec Ideal S1x256 .f32) (x3 : Vec Ideal S64x256 .f32)
    (x4 : Vec Ideal S64 .f32) (q : Fin 32) (s : Fin 128) (o : Fin 64) :
    k1_pay6 x0 x1 x2 x3 x4 (ix4 (0 : Fin 1) q s o) = blockVal x0 x1 x2 x3 x4 q s o := by
  unfold k1_pay6
  exact (shapeCast_abc_1abc_apply _ _ 0 q s o).trans (pay5_apply x0 x1 x2 x3 x4 q s o)

/-- The block summed over its 32 query rows. -/
theorem pay7_apply (x0 : Vec Ideal S1x32x128x256 .f32) (x1 x2 : Vec Ideal S1x256 .f32) (x3 : Vec Ideal S64x256 .f32)
    (x4 : Vec Ideal S64 .f32) (s : Fin 128) (o : Fin 64) :
    k1_pay7 x0 x1 x2 x3 x4 (ix2 s o) = ∑ q : Fin 32, blockVal x0 x1 x2 x3 x4 q s o := by
  unfold k1_pay7
  exact (reduce0_abc_apply _ _ _ _ s o).trans (Finset.sum_congr rfl fun q _ => pay5_apply x0 x1 x2 x3 x4 q s o)

/-- The running sum's update: what it held plus the sum over the support rows of the query-row sums. -/
theorem pay1_apply (v33 : FVec Ideal S128x64 .f32) (v38 : Vec Ideal S1x64 .f32) (o : Fin 64) :
    k1_pay1 v33 v38 (ix2 (0 : Fin 1) o) = v38 (ix2 (0 : Fin 1) o) + ∑ s : Fin 128, v33 (ix2 s o) := by
  unfold k1_pay1
  refine (addf_apply _ _ _).trans ?_
  refine congrArg₂ (· + ·) ?_ ?_
  · exact congrFun (shapeCast_self v38 _) _
  · refine (shapeCast_a_1a_apply _ _ 0 o).trans ?_
    exact reduce0_bc_apply _ _ _ _ o

/-- The running sum of squares' update: what it held plus the block's squares summed over query rows, then support rows. -/
theorem pay2_apply (v29 : FVec Ideal S32x128x64 .f32) (v43 : Vec Ideal S1x64 .f32) (o : Fin 64) :
    k1_pay2 v29 v43 (ix2 (0 : Fin 1) o)
      = v43 (ix2 (0 : Fin 1) o) + ∑ s : Fin 128, ∑ q : Fin 32, v29 (ix3 q s o) * v29 (ix3 q s o) := by
  unfold k1_pay2
  refine (addf_apply _ _ _).trans ?_
  refine congrArg₂ (· + ·) ?_ ?_
  · exact congrFun (shapeCast_self v43 _) _
  · refine (shapeCast_a_1a_apply _ _ 0 o).trans ?_
    refine (reduce0_bc_apply _ _ _ _ o).trans (Finset.sum_congr rfl fun s _ => ?_)
    refine (reduce0_abc_apply _ _ _ _ s o).trans (Finset.sum_congr rfl fun q _ => ?_)
    exact mulf_apply _ _ _

/-- The two accumulators start from zero. -/
theorem pay3_apply (j : S1x64.Idx) : k1_pay3 (F := Ideal) j = 0 := by
  unfold k1_pay3
  exact Ideal.ofBits_zero_f32

theorem pay4_apply (j : S1x64.Idx) : k1_pay4 (F := Ideal) j = 0 := by
  unfold k1_pay4
  exact Ideal.ofBits_zero_f32

end Cert.KernelIdeal.Region1

end
-- ==== Proof.Region1Value.lean ====
/-
  The middle stage as a whole: what its three result arrays hold once every grid point has run.

  The grid has 4 · 8 = 32 points; point t works on batch t / 8 and on query rows (t mod 8) · 32 … (t mod 8) · 32 + 31,
  with all 128 support rows. Each point stores its block of the stage's pre-activation, and adds the block's sum and
  sum of squares, per output channel, onto two accumulators that the first point starts from zero and that are
  written back after the last point only.

  * Every point's stored block is the block's pre-activation (the entry-by-entry reading of the block arithmetic), and
    the 32 blocks tile the array [4, 256, 128, 64]: the array ends holding the pre-activation at every position.
  * After point n an accumulator holds the sum over the points 0 … n of the block sums (induction on n; the extended
    reals are a commutative monoid under +, so no finiteness is needed). After the last point this is the sum over all
    blocks, and (point, support row, query row inside the block) ↔ (batch, query row, support row) is a bijection, so it
    is the sum over all positions.
-/
import proofs.«104936_j50861002719650_1_alg».proof.Proof.Gen.KernelIdeal.Frame
import proofs.«104936_j50861002719650_1_alg».proof.Proof.SpecIO
import proofs.«104936_j50861002719650_1_alg».proof.Proof.Region1Body
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec Cert.SpecIO

/-! ## What one run of the body leaves in each result's buffer -/

section Pieces
variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The first point stores the block's pre-activation … -/
theorem outA5 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S1x32x128x256 .f32) (x1 : Vec F S1x256 .f32) (x2 : Vec F S1x256 .f32) (x3 : Vec F S64x256 .f32) (x4 : Vec F S64 .f32) :
    out1_A_5 c i arg2 harg2 arg3 harg3 arg4 harg4 arg5 harg5 arg6 harg6 arg7 harg7 arg8 harg8 arg9 harg9 hc0 x0 x1 x2 x3 x4 = k1_pay6 x0 x1 x2 x3 x4 := by
  unfold out1_A_5
  rw [View.read_writes_eq_canon _ _ _ (cover1_A_5 c i arg2 harg2 arg3 harg3 arg4 harg4 arg5 harg5 arg6 harg6 arg7 harg7 arg8 harg8 arg9 harg9 hc0 x0 x1 x2 x3 x4)]
  unfold kernelRun1_A
  dsimp only
  try sl_unfold_words
  rw [View.canon_unit_zero hz4]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

/-- … and leaves in the running sum the zero it stored there plus the block's sum … -/
theorem outA6 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S1x32x128x256 .f32) (x1 : Vec F S1x256 .f32) (x2 : Vec F S1x256 .f32) (x3 : Vec F S64x256 .f32) (x4 : Vec F S64 .f32) :
    out1_A_6 c i arg2 harg2 arg3 harg3 arg4 harg4 arg5 harg5 arg6 harg6 arg7 harg7 arg8 harg8 arg9 harg9 hc0 x0 x1 x2 x3 x4 = k1_pay1 (k1_pay7 x0 x1 x2 x3 x4) (k1_pay3 (F := F)) := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4)]
  unfold kernelRun1_A
  dsimp only
  try sl_unfold_words
  rw [View.canon_cons_unit_zero (S := S1x64) hz2, View.readCov_unit_zero (S := S1x64) _ hz2]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

/-- … and likewise in the running sum of squares. -/
theorem outA7 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S1x32x128x256 .f32) (x1 : Vec F S1x256 .f32) (x2 : Vec F S1x256 .f32) (x3 : Vec F S64x256 .f32) (x4 : Vec F S64 .f32) :
    out1_A_7 c i arg2 harg2 arg3 harg3 arg4 harg4 arg5 harg5 arg6 harg6 arg7 harg7 arg8 harg8 arg9 harg9 hc0 x0 x1 x2 x3 x4 = k1_pay2 (k1_pay5 x0 x1 x2 x3 x4) (k1_pay4 (F := F)) := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4)]
  unfold kernelRun1_A
  dsimp only
  try sl_unfold_words
  rw [View.canon_cons_unit_zero (S := S1x64) hz2, View.readCov_unit_zero (S := S1x64) _ hz2]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

/-- Every later point stores the block's pre-activation … -/
theorem outB5 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S1x32x128x256 .f32) (x1 : Vec F S1x256 .f32) (x2 : Vec F S1x256 .f32) (x3 : Vec F S64x256 .f32) (x4 : Vec F S64 .f32) (xo6 xo7 : Vec F S1x64 .f32) :
    out1_B_5 c i arg2 harg2 arg3 harg3 arg4 harg4 arg5 harg5 arg6 harg6 arg7 harg7 arg8 harg8 arg9 harg9 hc0 x0 x1 x2 x3 x4 xo6 xo7 = k1_pay6 x0 x1 x2 x3 x4 := by
  unfold out1_B_5
  rw [View.read_writes_eq_canon _ _ _ (cover1_B_5 c i arg2 harg2 arg3 harg3 arg4 harg4 arg5 harg5 arg6 harg6 arg7 harg7 arg8 harg8 arg9 harg9 hc0 x0 x1 x2 x3 x4 xo6 xo7)]
  unfold kernelRun1_B
  dsimp only
  try sl_unfold_words
  rw [View.canon_unit_zero hz4]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

/-- … and adds the block's sum onto what the running sum held … -/
theorem outB6 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S1x32x128x256 .f32) (x1 : Vec F S1x256 .f32) (x2 : Vec F S1x256 .f32) (x3 : Vec F S64x256 .f32) (x4 : Vec F S64 .f32) (xo6 xo7 : Vec F S1x64 .f32) :
    out1_B_6 c i arg2 harg2 arg3 harg3 arg4 harg4 arg5 harg5 arg6 harg6 arg7 harg7 arg8 harg8 arg9 harg9 hc0 x0 x1 x2 x3 x4 xo6 xo7 = k1_pay1 (k1_pay7 x0 x1 x2 x3 x4) xo6 := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 xo6 xo7)]
  unfold kernelRun1_B
  dsimp only
  try sl_unfold_words
  rw [View.canon_unit_zero hz2]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

/-- … and the block's sum of squares onto what the running sum of squares held. -/
theorem outB7 (c : Dev nD) (i : grid1.Coords) (arg2 : Memref sig .tc .vmem S1x32x128x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S64x256 .f32) (harg5 : arg5.IsWhole) (arg6 : Memref sig .tc .vmem S64 .f32) (harg6 : arg6.IsWhole) (arg7 : Memref sig .tc .vmem S1x32x128x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S1x32x128x256 .f32) (x1 : Vec F S1x256 .f32) (x2 : Vec F S1x256 .f32) (x3 : Vec F S64x256 .f32) (x4 : Vec F S64 .f32) (xo6 xo7 : Vec F S1x64 .f32) :
    out1_B_7 c i arg2 harg2 arg3 harg3 arg4 harg4 arg5 harg5 arg6 harg6 arg7 harg7 arg8 harg8 arg9 harg9 hc0 x0 x1 x2 x3 x4 xo6 xo7 = k1_pay2 (k1_pay5 x0 x1 x2 x3 x4) xo7 := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 xo6 xo7)]
  unfold kernelRun1_B
  dsimp only
  try sl_unfold_words
  rw [View.canon_unit_zero hz2]
  simp only [View.readAt_eq_ld, harg2.read_unread, harg3.read_unread, harg4.read_unread, harg5.read_unread, harg6.read_unread,
    harg8.read_unread, harg9.read_unread, View.ld_unit_zero (S := S1x32x128x256) hz4, View.ld_unit_zero (S := S1x256) hz2,
    View.ld_unit_zero (S := S64x256) hz2, View.ld_unit_zero (S := S64) hz1, View.ld_unit_zero (S := S1x64) hz2]

end Pieces

/-! ## Positions, and the sum over all of them block by block -/

/-- The position of query row `q` and support row `s` of the block of grid point `t`. -/
def posAt (t : ℕ) (ht : t < 32) (q : Fin 32) (s : Fin 128) : Pos :=
  (⟨t / 8, by omega⟩, ⟨t % 8 * 32 + q.val, by have := q.isLt; omega⟩, s)

/-- (point, support row, query row inside the block) ↔ (batch, query row, support row). -/
def posEquiv : Fin 32 × Fin 128 × Fin 32 ≃ Pos where
  toFun x := posAt x.1.val x.1.isLt x.2.2 x.2.1
  invFun p := (⟨p.1.val * 8 + p.2.1.val / 32, by have := p.1.isLt; have := p.2.1.isLt; omega⟩, p.2.2,
    ⟨p.2.1.val % 32, by omega⟩)
  left_inv x := by
    obtain ⟨t, s, q⟩ := x
    have ht := t.isLt
    have hq := q.isLt
    refine Prod.ext (Fin.ext ?_) (Prod.ext rfl (Fin.ext ?_))
    · show t.val / 8 * 8 + (t.val % 8 * 32 + q.val) / 32 = t.val; omega
    · show (t.val % 8 * 32 + q.val) % 32 = q.val; omega
  right_inv p := by
    obtain ⟨b, Q, s⟩ := p
    have hb := b.isLt
    have hQ := Q.isLt
    refine Prod.ext (Fin.ext ?_) (Prod.ext (Fin.ext ?_) rfl)
    · show (b.val * 8 + Q.val / 32) / 8 = b.val; omega
    · show (b.val * 8 + Q.val / 32) % 8 * 32 + Q.val % 32 = Q.val; omega

/-- A sum over the 32 grid points of the sums over each point's block is the sum over all positions. -/
theorem sum_blocks {M : Type} [AddCommMonoid M] (f : Pos → M) :
    ∑ t ∈ Finset.range 32, (if h : t < 32 then ∑ s : Fin 128, ∑ q : Fin 32, f (posAt t h q s) else 0) = ∑ p, f p := by
  rw [Finset.sum_range (fun t => if h : t < 32 then ∑ s : Fin 128, ∑ q : Fin 32, f (posAt t h q s) else 0),
    ← Equiv.sum_comp posEquiv f, Fintype.sum_prod_type]
  refine Finset.sum_congr rfl fun t _ => ?_
  rw [dif_pos t.isLt, Fintype.sum_prod_type]
  rfl

/-! ## The stage's arrays -/

section Value
variable (V : (c : Dev nD) → (b : Ref sig .tc) → Buf (Elt Ideal) ((c : Thread nD τ).loc b)) (c : Dev nD)

/-- The stage's pre-activation at a position and an output channel, from the arrays the stage receives. -/
abbrev yv : Pos → Fin 64 → EReal :=
  preMid (Ci := 256) (Co := 64) (V c main_v2_0 : Arr ⟨4, ![4, 256, 128, 256]⟩) (V c main_v13 : Arr ⟨2, ![1, 256]⟩)
    (V c main_v16 : Arr ⟨2, ![1, 256]⟩) (V c main_arg6 : Arr ⟨2, ![64, 256]⟩) (V c main_arg7 : Arr ⟨1, ![64]⟩)

/-- The block index of every window at every grid point, decided over the grid: the previous stage's array and the
    result move with (batch, query tile); every other window stays on its one block. -/
theorem idx_facts : ∀ t : Fin cfg1.N,
    win1_0.index t (0 : Fin 4) = t.val / 8 ∧ win1_0.index t (1 : Fin 4) = t.val % 8
    ∧ win1_0.index t (2 : Fin 4) = 0 ∧ win1_0.index t (3 : Fin 4) = 0
    ∧ win1_5.index t (0 : Fin 4) = t.val / 8 ∧ win1_5.index t (1 : Fin 4) = t.val % 8
    ∧ win1_5.index t (2 : Fin 4) = 0 ∧ win1_5.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The block of the previous stage's array at point `t`: batch `t / 8`, query rows from `(t mod 8) · 32`. -/
theorem iblk0_apply (t : Fin cfg1.N) (ht : t.val < 32) (q : Fin 32) (s : Fin 128) (k : Fin 256) :
    (iblk1 V c 0 t : Vec Ideal S1x32x128x256 .f32) (ix4 (0 : Fin 1) q s k)
      = (V c main_v2_0 : Arr ⟨4, ![4, 256, 128, 256]⟩) (ix4 (posAt t.val ht q s).1 (posAt t.val ht q s).2.1 s k) := by
  obtain ⟨e0, e1, e2, e3, -⟩ := idx_facts t
  unfold iblk1
  rw [View.read_apply]
  show (V c main_v2_0 : Arr ⟨4, ![4, 256, 128, 256]⟩) _ = (V c main_v2_0 : Arr ⟨4, ![4, 256, 128, 256]⟩) _
  refine congrArg _ (funext fun a => Fin.ext ?_)
  match a with
  | ⟨0, _⟩ => show win1_0.index t (0 : Fin 4) * 1 + 1 * 0 = t.val / 8; rw [e0]; omega
  | ⟨1, _⟩ => show win1_0.index t (1 : Fin 4) * 32 + 1 * q.val = t.val % 8 * 32 + q.val; rw [e1]; omega
  | ⟨2, _⟩ => show win1_0.index t (2 : Fin 4) * 128 + 1 * s.val = s.val; rw [e2]; omega
  | ⟨3, _⟩ => show win1_0.index t (3 : Fin 4) * 256 + 1 * k.val = k.val; rw [e3]; omega

/-- The scale, the shift, the weight and the bias are read whole at every point. -/
theorem iblk1_eq (t : Fin cfg1.N) : (iblk1 V c 1 t : Vec Ideal S1x256 .f32) = (V c main_v13 : Arr ⟨2, ![1, 256]⟩) := by
  obtain ⟨-, -, -, -, -, -, -, -, e0, e1, -⟩ := idx_facts t
  funext j
  unfold iblk1
  rw [View.read_apply]
  show (V c main_v13 : Arr ⟨2, ![1, 256]⟩) _ = (V c main_v13 : Arr ⟨2, ![1, 256]⟩) j
  refine congrArg _ (funext fun a => Fin.ext ?_)
  match a with
  | ⟨0, _⟩ => show win1_1.index t (0 : Fin 2) * 1 + 1 * (j 0).val = (j 0).val; rw [e0]; omega
  | ⟨1, _⟩ => show win1_1.index t (1 : Fin 2) * 256 + 1 * (j 1).val = (j 1).val; rw [e1]; omega

theorem iblk2_eq (t : Fin cfg1.N) : (iblk1 V c 2 t : Vec Ideal S1x256 .f32) = (V c main_v16 : Arr ⟨2, ![1, 256]⟩) := by
  obtain ⟨-, -, -, -, -, -, -, -, -, -, e0, e1, -⟩ := idx_facts t
  funext j
  unfold iblk1
  rw [View.read_apply]
  show (V c main_v16 : Arr ⟨2, ![1, 256]⟩) _ = (V c main_v16 : Arr ⟨2, ![1, 256]⟩) j
  refine congrArg _ (funext fun a => Fin.ext ?_)
  match a with
  | ⟨0, _⟩ => show win1_2.index t (0 : Fin 2) * 1 + 1 * (j 0).val = (j 0).val; rw [e0]; omega
  | ⟨1, _⟩ => show win1_2.index t (1 : Fin 2) * 256 + 1 * (j 1).val = (j 1).val; rw [e1]; omega

theorem iblk3_eq (t : Fin cfg1.N) : (iblk1 V c 3 t : Vec Ideal S64x256 .f32) = (V c main_arg6 : Arr ⟨2, ![64, 256]⟩) := by
  obtain ⟨-, -, -, -, -, -, -, -, -, -, -, -, e0, e1, -⟩ := idx_facts t
  funext j
  unfold iblk1
  rw [View.read_apply]
  show (V c main_arg6 : Arr ⟨2, ![64, 256]⟩) _ = (V c main_arg6 : Arr ⟨2, ![64, 256]⟩) j
  refine congrArg _ (funext fun a => Fin.ext ?_)
  match a with
  | ⟨0, _⟩ => show win1_3.index t (0 : Fin 2) * 64 + 1 * (j 0).val = (j 0).val; rw [e0]; omega
  | ⟨1, _⟩ => show win1_3.index t (1 : Fin 2) * 256 + 1 * (j 1).val = (j 1).val; rw [e1]; omega

theorem iblk4_eq (t : Fin cfg1.N) : (iblk1 V c 4 t : Vec Ideal S64 .f32) = (V c main_arg7 : Arr ⟨1, ![64]⟩) := by
  obtain ⟨-, -, -, -, -, -, -, -, -, -, -, -, -, -, e0, -⟩ := idx_facts t
  funext j
  unfold iblk1
  rw [View.read_apply]
  show (V c main_arg7 : Arr ⟨1, ![64]⟩) _ = (V c main_arg7 : Arr ⟨1, ![64]⟩) j
  refine congrArg _ (funext fun a => Fin.ext ?_)
  match a with
  | ⟨0, _⟩ => show win1_4.index t (0 : Fin 1) * 64 + 1 * (j 0).val = (j 0).val; rw [e0]; omega

/-- The block arithmetic on point `t`'s blocks is the stage's pre-activation at the block's positions. -/
theorem blockVal_iblk (t : Fin cfg1.N) (ht : t.val < 32) (q : Fin 32) (s : Fin 128) (o : Fin 64) :
    blockVal (iblk1 V c 0 t) (iblk1 V c 1 t) (iblk1 V c 2 t) (iblk1 V c 3 t) (iblk1 V c 4 t) q s o = yv V c (posAt t.val ht q s) o := by
  unfold blockVal yv preMid dense
  rw [iblk1_eq V c t, iblk2_eq V c t, iblk3_eq V c t, iblk4_eq V c t]
  refine congrArg₂ (· + ·) (Finset.sum_congr rfl fun k _ => ?_) rfl
  rw [iblk0_apply V c t ht q s k]
  rfl

/-! ## The stored blocks -/

/-- What the first result's buffer holds after point `t`: the block's pre-activation. -/
theorem out5_eq (t : Fin cfg1.N) : (outsAt1 V c t.val t.isLt).1 = k1_pay6 (iblk1 V c 0 t) (iblk1 V c 1 t) (iblk1 V c 2 t) (iblk1 V c 3 t) (iblk1 V c 4 t) := by
  by_cases h0 : t.val % 32 = 0
  · rw [outsAt1_A V c t h0]
    dsimp only
    exact outA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact outB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2.1
      (outsAt1 V c (t.val - 1) (Nat.lt_of_le_of_lt (Nat.sub_le _ _) t.isLt)).2.2

/-- Point `t`'s stored block, entry by entry, is the stage's array at the entry's place in the array. -/
theorem blk5_apply (t : Fin cfg1.N) (j : S1x32x128x64.Idx) :
    k1_pay6 (iblk1 V c 0 t) (iblk1 V c 1 t) (iblk1 V c 2 t) (iblk1 V c 3 t) (iblk1 V c 4 t) j = stageArr (yv V c) (((cfg1.win 5).blk t).view.emb j) := by
  have ht : t.val < 32 := lt_of_lt_of_eq t.isLt N_1
  obtain ⟨-, -, -, -, e0, e1, e2, e3, -⟩ := idx_facts t
  obtain ⟨u, q, s, o, rfl⟩ : ∃ (u : Fin 1) (q : Fin 32) (s : Fin 128) (o : Fin 64), j = ix4 u q s o :=
    ⟨j 0, j 1, j 2, j 3, eq_ix4 j⟩
  obtain rfl : u = 0 := Subsingleton.elim _ _
  refine (pay6_apply (iblk1 V c 0 t) (iblk1 V c 1 t) (iblk1 V c 2 t) (iblk1 V c 3 t) (iblk1 V c 4 t) q s o).trans ?_
  refine (blockVal_iblk V c t ht q s o).trans ?_
  unfold stageArr
  refine congrArg₂ (yv V c) ?_ ?_
  · unfold posAt posOf
    refine Prod.ext (Fin.ext ?_) (Prod.ext (Fin.ext ?_) (Fin.ext ?_))
    · show t.val / 8 = win1_5.index t (0 : Fin 4) * 1 + 1 * 0; rw [e0]; omega
    · show t.val % 8 * 32 + q.val = win1_5.index t (1 : Fin 4) * 32 + 1 * q.val; rw [e1]; omega
    · show s.val = win1_5.index t (2 : Fin 4) * 128 + 1 * s.val; rw [e2]; omega
  · unfold chanOf
    refine Fin.ext ?_
    show o.val = win1_5.index t (3 : Fin 4) * 64 + 1 * o.val; rw [e3]; omega

/-- What point `t` writes back of the first result is its block of the stage's array. -/
theorem flushed5_eq (t : Fin cfg1.N) (hf : (cfg1.win 5).flush t = true) :
    (dat1 V c).flushed 5 t = ((cfg1.win 5).blk t).view.read (Elt Ideal) (stageArr (yv V c)) := by
  show (cfg1.win 5).cut (grid1.coords t) ((dat1 V c).after 5 t) = _
  rw [after1_5, out5_eq]
  funext j
  rw [View.read_apply]
  exact blk5_apply V c t j

/-- Every entry of the first result lies in the block of the point of its batch and query tile. -/
theorem cover5 (i : S4x256x128x64.Idx) :
    ∃ t : Fin cfg1.N, (cfg1.win 5).flush t = true ∧ i ∈ ((cfg1.win 5).blk t).view.set := by
  have h0 : (i 0).val < 4 := (i 0).isLt
  have h1 : (i 1).val < 256 := (i 1).isLt
  have h2 : (i 2).val < 128 := (i 2).isLt
  have h3 : (i 3).val < 64 := (i 3).isLt
  obtain ⟨t, htv⟩ : ∃ t : Fin cfg1.N, t.val = (i 0).val * 8 + (i 1).val / 32 :=
    ⟨⟨(i 0).val * 8 + (i 1).val / 32, by rw [show cfg1.N = 32 from N_1]; omega⟩, rfl⟩
  obtain ⟨-, -, -, -, e0, e1, e2, e3, -⟩ := idx_facts t
  refine ⟨t, flush1_5 t, ?_⟩
  show i ∈ ((View.whole main_v17_0).slice (win1_5.rect t)).set
  rw [View.set_slice_whole, Rect.mem_set_unit]
  intro a
  match a with
  | ⟨0, _⟩ =>
    show win1_5.index t (0 : Fin 4) * 1 ≤ (i 0).val ∧ (i 0).val < win1_5.index t (0 : Fin 4) * 1 + 1
    rw [e0, htv]; omega
  | ⟨1, _⟩ =>
    show win1_5.index t (1 : Fin 4) * 32 ≤ (i 1).val ∧ (i 1).val < win1_5.index t (1 : Fin 4) * 32 + 32
    rw [e1, htv]; omega
  | ⟨2, _⟩ =>
    show win1_5.index t (2 : Fin 4) * 128 ≤ (i 2).val ∧ (i 2).val < win1_5.index t (2 : Fin 4) * 128 + 128
    rw [e2]; omega
  | ⟨3, _⟩ =>
    show win1_5.index t (3 : Fin 4) * 64 ≤ (i 3).val ∧ (i 3).val < win1_5.index t (3 : Fin 4) * 64 + 64
    rw [e3]; omega

/-- THE FIRST RESULT after the region: the stage's pre-activation at every position and channel. -/
theorem final5 : (dat1 V c).arrAt 5 cfg1.N = stageArr (yv V c) :=
  (dat1 V c).arrAt_eq_of_cover 5 (stageArr (yv V c)) (flushed5_eq V c) (cover5)

/-! ## The two running statistics -/

/-- Point `t`'s contribution to the running sum at channel `o`: the sum of the pre-activation over its block. -/
def bsum (t : ℕ) (o : Fin 64) : EReal :=
  if h : t < 32 then ∑ s : Fin 128, ∑ q : Fin 32, yv V c (posAt t h q s) o else 0

/-- Point `t`'s contribution to the running sum of squares. -/
def bsq (t : ℕ) (o : Fin 64) : EReal :=
  if h : t < 32 then ∑ s : Fin 128, ∑ q : Fin 32, yv V c (posAt t h q s) o * yv V c (posAt t h q s) o else 0

/-- One point's update of the running sum: what it held plus the point's contribution. -/
theorem upd6 (t : Fin cfg1.N) (ht : t.val < 32) (acc : Vec Ideal S1x64 .f32) (o : Fin 64) :
    k1_pay1 (k1_pay7 (iblk1 V c 0 t) (iblk1 V c 1 t) (iblk1 V c 2 t) (iblk1 V c 3 t) (iblk1 V c 4 t)) acc (ix2 (0 : Fin 1) o) = acc (ix2 (0 : Fin 1) o) + bsum V c t.val o := by
  refine (pay1_apply _ acc o).trans ?_
  refine congrArg (acc (ix2 (0 : Fin 1) o) + ·) ?_
  unfold bsum
  rw [dif_pos ht]
  refine Finset.sum_congr rfl fun s _ => ?_
  exact (pay7_apply (iblk1 V c 0 t) (iblk1 V c 1 t) (iblk1 V c 2 t) (iblk1 V c 3 t) (iblk1 V c 4 t) s o).trans (Finset.sum_congr rfl fun q _ => blockVal_iblk V c t ht q s o)

/-- One point's update of the running sum of squares. -/
theorem upd7 (t : Fin cfg1.N) (ht : t.val < 32) (acc : Vec Ideal S1x64 .f32) (o : Fin 64) :
    k1_pay2 (k1_pay5 (iblk1 V c 0 t) (iblk1 V c 1 t) (iblk1 V c 2 t) (iblk1 V c 3 t) (iblk1 V c 4 t)) acc (ix2 (0 : Fin 1) o) = acc (ix2 (0 : Fin 1) o) + bsq V c t.val o := by
  refine (pay2_apply _ acc o).trans ?_
  refine congrArg (acc (ix2 (0 : Fin 1) o) + ·) ?_
  unfold bsq
  rw [dif_pos ht]
  refine Finset.sum_congr rfl fun s _ => Finset.sum_congr rfl fun q _ => ?_
  have e := (pay5_apply (iblk1 V c 0 t) (iblk1 V c 1 t) (iblk1 V c 2 t) (iblk1 V c 3 t) (iblk1 V c 4 t) q s o).trans (blockVal_iblk V c t ht q s o)
  exact congrArg₂ (· * ·) e e

/-- After point `n` the running sum holds the contributions of the points `0 … n`. -/
theorem acc6_eq : ∀ (n : ℕ) (hn : n < cfg1.N) (o : Fin 64),
    (outsAt1 V c n hn).2.1 (ix2 (0 : Fin 1) o) = ∑ t ∈ Finset.range (n + 1), bsum V c t o
  | 0, hn, o => by
    rw [outsAt1_A V c ⟨0, hn⟩ rfl]
    dsimp only
    refine (congrFun (outA6 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩)) (ix2 (0 : Fin 1) o)).trans ?_
    refine (upd6 V c ⟨0, hn⟩ (by omega : (0 : ℕ) < 32) _ o).trans ?_
    rw [pay3_apply, zero_add, Finset.sum_range_one]
  | n + 1, hn, o => by
    have hN : n + 1 < 32 := lt_of_lt_of_eq hn N_1
    have hB : ¬(⟨n + 1, hn⟩ : Fin cfg1.N).val % 32 = 0 := by dsimp only; omega
    rw [outsAt1_B V c ⟨n + 1, hn⟩ hB]
    dsimp only
    refine (congrFun (outB6 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (outsAt1 V c n (Nat.lt_of_succ_lt hn)).2.1 (outsAt1 V c n (Nat.lt_of_succ_lt hn)).2.2) (ix2 (0 : Fin 1) o)).trans ?_
    refine (upd6 V c ⟨n + 1, hn⟩ hN _ o).trans ?_
    rw [acc6_eq n (Nat.lt_of_succ_lt hn) o, Finset.sum_range_succ _ (n + 1)]

/-- After point `n` the running sum of squares holds the contributions of the points `0 … n`. -/
theorem acc7_eq : ∀ (n : ℕ) (hn : n < cfg1.N) (o : Fin 64),
    (outsAt1 V c n hn).2.2 (ix2 (0 : Fin 1) o) = ∑ t ∈ Finset.range (n + 1), bsq V c t o
  | 0, hn, o => by
    rw [outsAt1_A V c ⟨0, hn⟩ rfl]
    dsimp only
    refine (congrFun (outA7 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩)) (ix2 (0 : Fin 1) o)).trans ?_
    refine (upd7 V c ⟨0, hn⟩ (by omega : (0 : ℕ) < 32) _ o).trans ?_
    rw [pay4_apply, zero_add, Finset.sum_range_one]
  | n + 1, hn, o => by
    have hN : n + 1 < 32 := lt_of_lt_of_eq hn N_1
    have hB : ¬(⟨n + 1, hn⟩ : Fin cfg1.N).val % 32 = 0 := by dsimp only; omega
    rw [outsAt1_B V c ⟨n + 1, hn⟩ hB]
    dsimp only
    refine (congrFun (outB7 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (outsAt1 V c n (Nat.lt_of_succ_lt hn)).2.1 (outsAt1 V c n (Nat.lt_of_succ_lt hn)).2.2) (ix2 (0 : Fin 1) o)).trans ?_
    refine (upd7 V c ⟨n + 1, hn⟩ hN _ o).trans ?_
    rw [acc7_eq n (Nat.lt_of_succ_lt hn) o, Finset.sum_range_succ _ (n + 1)]

/-- After the last point the running sum, entry by entry, is the sum over all positions. -/
theorem blk6_apply (t : Fin cfg1.N) (h31 : t.val = 31) (j : S1x64.Idx) :
    (outsAt1 V c t.val t.isLt).2.1 j = sumArr (yv V c) (((cfg1.win 6).blk t).view.emb j) := by
  obtain ⟨-, -, -, -, -, -, -, -, -, -, -, -, -, -, -, e0, e1, -⟩ := idx_facts t
  obtain ⟨u, o, rfl⟩ : ∃ (u : Fin 1) (o : Fin 64), j = ix2 u o := ⟨j 0, j 1, eq_ix2 j⟩
  obtain rfl : u = 0 := Subsingleton.elim _ _
  rw [acc6_eq V c t.val t.isLt o, h31]
  unfold sumArr
  have eo : (⟨((((cfg1.win 6).blk t).view.emb (ix2 (0 : Fin 1) o)) 1).val, ((((cfg1.win 6).blk t).view.emb (ix2 (0 : Fin 1) o)) 1).isLt⟩ : Fin 64) = o :=
    Fin.ext (by show win1_6.index t (1 : Fin 2) * 64 + 1 * o.val = o.val; rw [e1]; omega)
  show _ = ∑ p : Pos, yv V c p _
  rw [eo]
  exact sum_blocks (fun p => yv V c p o)

theorem blk7_apply (t : Fin cfg1.N) (h31 : t.val = 31) (j : S1x64.Idx) :
    (outsAt1 V c t.val t.isLt).2.2 j = sumsqArr (yv V c) (((cfg1.win 7).blk t).view.emb j) := by
  obtain ⟨-, -, -, -, -, -, -, -, -, -, -, -, -, -, -, -, -, e0, e1⟩ := idx_facts t
  obtain ⟨u, o, rfl⟩ : ∃ (u : Fin 1) (o : Fin 64), j = ix2 u o := ⟨j 0, j 1, eq_ix2 j⟩
  obtain rfl : u = 0 := Subsingleton.elim _ _
  rw [acc7_eq V c t.val t.isLt o, h31]
  unfold sumsqArr
  have eo : (⟨((((cfg1.win 7).blk t).view.emb (ix2 (0 : Fin 1) o)) 1).val, ((((cfg1.win 7).blk t).view.emb (ix2 (0 : Fin 1) o)) 1).isLt⟩ : Fin 64) = o :=
    Fin.ext (by show win1_7.index t (1 : Fin 2) * 64 + 1 * o.val = o.val; rw [e1]; omega)
  show _ = ∑ p : Pos, yv V c p _ * yv V c p _
  rw [eo]
  exact sum_blocks (fun p => yv V c p o * yv V c p o)

/-- The one write-back of the running sum, after the last point, writes the sums over all positions. -/
theorem flushed6_eq (t : Fin cfg1.N) (hf : (cfg1.win 6).flush t = true) :
    (dat1 V c).flushed 6 t = ((cfg1.win 6).blk t).view.read (Elt Ideal) (sumArr (yv V c)) := by
  have ht : t.val < 32 := lt_of_lt_of_eq t.isLt N_1
  have h31 : t.val = 31 := by have := (flush1_6 t).mp hf; omega
  show (cfg1.win 6).cut (grid1.coords t) ((dat1 V c).after 6 t) = _
  rw [after1_6]
  funext j
  rw [View.read_apply]
  exact blk6_apply V c t h31 j

theorem flushed7_eq (t : Fin cfg1.N) (hf : (cfg1.win 7).flush t = true) :
    (dat1 V c).flushed 7 t = ((cfg1.win 7).blk t).view.read (Elt Ideal) (sumsqArr (yv V c)) := by
  have ht : t.val < 32 := lt_of_lt_of_eq t.isLt N_1
  have h31 : t.val = 31 := by have := (flush1_7 t).mp hf; omega
  show (cfg1.win 7).cut (grid1.coords t) ((dat1 V c).after 7 t) = _
  rw [after1_7]
  funext j
  rw [View.read_apply]
  exact blk7_apply V c t h31 j

/-- The last point's block of a statistics array is the whole array. -/
theorem cover6 (i : S1x64.Idx) : ∃ t : Fin cfg1.N, (cfg1.win 6).flush t = true ∧ i ∈ ((cfg1.win 6).blk t).view.set := by
  have h0 : (i 0).val < 1 := (i 0).isLt
  have h1 : (i 1).val < 64 := (i 1).isLt
  obtain ⟨t, htv⟩ : ∃ t : Fin cfg1.N, t.val = 31 := ⟨⟨31, by rw [show cfg1.N = 32 from N_1]; omega⟩, rfl⟩
  obtain ⟨-, -, -, -, -, -, -, -, -, -, -, -, -, -, -, e0, e1, -⟩ := idx_facts t
  refine ⟨t, (flush1_6 t).mpr (by rw [htv]), ?_⟩
  show i ∈ ((View.whole main_v17_1).slice (win1_6.rect t)).set
  rw [View.set_slice_whole, Rect.mem_set_unit]
  intro a
  match a with
  | ⟨0, _⟩ =>
    show win1_6.index t (0 : Fin 2) * 1 ≤ (i 0).val ∧ (i 0).val < win1_6.index t (0 : Fin 2) * 1 + 1
    rw [e0]; omega
  | ⟨1, _⟩ =>
    show win1_6.index t (1 : Fin 2) * 64 ≤ (i 1).val ∧ (i 1).val < win1_6.index t (1 : Fin 2) * 64 + 64
    rw [e1]; omega

theorem cover7 (i : S1x64.Idx) : ∃ t : Fin cfg1.N, (cfg1.win 7).flush t = true ∧ i ∈ ((cfg1.win 7).blk t).view.set := by
  have h0 : (i 0).val < 1 := (i 0).isLt
  have h1 : (i 1).val < 64 := (i 1).isLt
  obtain ⟨t, htv⟩ : ∃ t : Fin cfg1.N, t.val = 31 := ⟨⟨31, by rw [show cfg1.N = 32 from N_1]; omega⟩, rfl⟩
  obtain ⟨-, -, -, -, -, -, -, -, -, -, -, -, -, -, -, -, -, e0, e1⟩ := idx_facts t
  refine ⟨t, (flush1_7 t).mpr (by rw [htv]), ?_⟩
  show i ∈ ((View.whole main_v17_2).slice (win1_7.rect t)).set
  rw [View.set_slice_whole, Rect.mem_set_unit]
  intro a
  match a with
  | ⟨0, _⟩ =>
    show win1_7.index t (0 : Fin 2) * 1 ≤ (i 0).val ∧ (i 0).val < win1_7.index t (0 : Fin 2) * 1 + 1
    rw [e0]; omega
  | ⟨1, _⟩ =>
    show win1_7.index t (1 : Fin 2) * 64 ≤ (i 1).val ∧ (i 1).val < win1_7.index t (1 : Fin 2) * 64 + 64
    rw [e1]; omega

/-- THE SECOND RESULT after the region: per channel, the sum of the pre-activation over all positions. -/
theorem final6 : (dat1 V c).arrAt 6 cfg1.N = sumArr (yv V c) :=
  (dat1 V c).arrAt_eq_of_cover 6 (sumArr (yv V c)) (flushed6_eq V c) (cover6)

/-- THE THIRD RESULT after the region: per channel, the sum of its squares over all positions. -/
theorem final7 : (dat1 V c).arrAt 7 cfg1.N = sumsqArr (yv V c) :=
  (dat1 V c).arrAt_eq_of_cover 7 (sumsqArr (yv V c)) (flushed7_eq V c) (cover7)

end Value

end Cert.KernelIdeal.Region1

end
-- ==== Proof.Region2Body.lean ====
/-
  One grid point of the second middle stage, as mathematics.

  A grid point holds a block of 32 query rows by 128 support rows of the previous stage (64 channels each), the
  64 scales and shifts, the 64 weights of the single output channel and its bias. Every input channel is rescaled
  (x * scale + shift) and clamped at zero; the block is flattened to 4096 rows, multiplied into the weight column
  (a product accumulated from zero, so a plain sum over the 64 channels), the bias is added, and the column is
  folded back to 32 by 128. Changes of number format are the identity on the extended reals. The block's sum and
  sum of squares are taken first over the query rows, then over the support rows, and added to two running cells.

  This file reads each of those values at explicit coordinates. It also holds the re-indexing of the grid: the
  blocks of the 32 grid points tile the 4 * 256 * 128 positions.
-/
import proofs.«104936_j50861002719650_1_alg».proof.Proof.Gen.KernelIdeal.Skeleton
import Idealize.ShloMosaic.Lib.ValueLayout
import Idealize.ShloMosaic.PureOps.Ideal.Laws

noncomputable section

open scoped BigOperators

namespace Cert.KernelIdeal.Region2

open Idealize.ShloMosaic Idealize.ShloMosaic.ValueIdx Cert.KernelIdeal Cert.KernelIdeal.Gen

/-! ## The grid tiles the positions -/

/-- A position: (batch, query row, support row). -/
abbrev Pos : Type := Fin 4 × Fin 256 × Fin 128

/-- The position of query row q and support row s of the block at grid point t: batch t / 8, query row
    (t % 8) * 32 + q. -/
def blkPos (t : Fin 32) (q : Fin 32) (s : Fin 128) : Pos :=
  (⟨t.val / 8, by have := t.isLt; omega⟩, ⟨(t.val % 8) * 32 + q.val, by have := q.isLt; omega⟩, s)

/-- Every position lies in exactly one block, at one place. -/
theorem blkPos_bijective : Function.Bijective (fun x : Fin 32 × Fin 32 × Fin 128 => blkPos x.1 x.2.1 x.2.2) := by
  constructor
  · rintro ⟨t, q, s⟩ ⟨t', q', s'⟩ h
    simp only [blkPos, Prod.mk.injEq, Fin.mk.injEq] at h
    obtain ⟨h1, h2, h3⟩ := h
    have := t.isLt; have := t'.isLt; have := q.isLt; have := q'.isLt
    have ht : t = t' := Fin.ext (by omega)
    have hq : q = q' := Fin.ext (by omega)
    subst ht hq h3; rfl
  · rintro ⟨b, r, s⟩
    refine ⟨(⟨b.val * 8 + r.val / 32, by have := b.isLt; have := r.isLt; omega⟩, ⟨r.val % 32, by omega⟩, s), ?_⟩
    simp only [blkPos, Prod.mk.injEq, Fin.ext_iff]
    have := b.isLt; have := r.isLt
    refine ⟨by omega, by omega, trivial⟩

/-- So a sum over grid points, then support rows, then query rows of the block is the sum over all positions. -/
theorem sum_blocks {M : Type*} [AddCommMonoid M] (f : Pos → M) :
    ∑ t : Fin 32, ∑ s : Fin 128, ∑ q : Fin 32, f (blkPos t q s) = ∑ p : Pos, f p := by
  rw [← Fintype.sum_bijective _ blkPos_bijective (fun x => f (blkPos x.1 x.2.1 x.2.2)) f (fun _ => rfl)]
  rw [Fintype.sum_prod_type]
  refine Finset.sum_congr rfl fun t _ => ?_
  rw [Fintype.sum_prod_type, Finset.sum_comm]

/-- A sum over the naturals below n of a function of the points below n is the sum over those points. -/
theorem sum_range_dite {M : Type*} [AddCommMonoid M] (n : ℕ) (g : Fin n → M) :
    ∑ k ∈ Finset.range n, (if h : k < n then g ⟨k, h⟩ else 0) = ∑ t : Fin n, g t := by
  rw [← Fin.sum_univ_eq_sum_range (fun k => if h : k < n then g ⟨k, h⟩ else 0) n]
  exact Finset.sum_congr rfl fun t _ => by rw [dif_pos t.isLt]

/-! ## Layout steps of the body, read at coordinates -/

/-- Row q * 128 + s of the flattened block. -/
def row (q : Fin 32) (s : Fin 128) : Fin 4096 := ⟨q.val * 128 + s.val, by have := q.isLt; have := s.isLt; omega⟩

/-- The column of 4096 rows folded back to [32, 128, 1]: entry (q, s, 0) is row q * 128 + s. -/
theorem fold_rows {α : Type} (x : S4096x1.Idx → α) (h : S4096x1.ShapeCasts S32x128x1) (q : Fin 32) (s : Fin 128) :
    shapeCast S32x128x1 x h (ix3 q s (0 : Fin 1)) = x (ix2 (row q s) (0 : Fin 1)) :=
  shapeCast_apply x h _ _ (by
    rw [Shape.rowMajor_val_two, Shape.rowMajor_val_three]
    show (q.val * 128 + s.val) * 1 + 0 = (q.val * 128 + s.val) * 1 + 0
    rfl)

/-- The block flattened to [4096, 64]: row q * 128 + s, channel k is entry (q, s, k). -/
theorem flat_rows {α : Type} (x : S32x128x64.Idx → α) (h : S32x128x64.ShapeCasts S4096x64) (q : Fin 32) (s : Fin 128)
    (k : Fin 64) : shapeCast S4096x64 x h (ix2 (row q s) k) = x (ix3 q s k) :=
  shapeCast_apply x h _ _ (by
    rw [Shape.rowMajor_val_three, Shape.rowMajor_val_two]
    show (q.val * 128 + s.val) * 64 + k.val = (q.val * 128 + s.val) * 64 + k.val
    rfl)

/-- A [1, 64] row taken to [64], then to [1, 1, 64], then spread over the block: entry (q, s, k) is the row at k. -/
theorem chan_apply {α : Type} (x : S1x64.Idx → α) (h1 : S1x64.ShapeCasts S64) (h2 : S64.ShapeCasts S1x1x64)
    (h3 : S1x1x64.Broadcasts S32x128x64) (q : Fin 32) (s : Fin 128) (k : Fin 64) :
    broadcastTo S32x128x64 (shapeCast S1x1x64 (shapeCast S64 x h1) h2) h3 (ix3 q s k) = x (ix2 (0 : Fin 1) k) := by
  refine (broadcastTo_apply _ h3 (ix3 q s k) (ix3 (0 : Fin 1) (0 : Fin 1) k) fun a => ?_).trans ?_
  · match a with
    | ⟨0, _⟩ => rfl
    | ⟨1, _⟩ => rfl
    | ⟨2, _⟩ => show k.val = if (64 : ℕ) = 1 then 0 else k.val; rw [if_neg (by decide)]
  · refine (shapeCast_apply _ h2 _ (ix1 k) ?_).trans (shapeCast_1a_a_apply x h1 k)
    rw [Shape.rowMajor_val_one, Shape.rowMajor_val_three]
    show k.val = (0 * 1 + 0) * 64 + k.val
    omega

/-! ## The product with the weight column -/

theorem lhs_row (i : S4096x1.Idx) (c : dot_S4096x64_S64x1_S4096x1_1_0_0_1_n_n.contr.Idx) :
    (dot_S4096x64_S64x1_S4096x1_1_0_0_1_n_n.lhsIdx i c 0).val = (i 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl

theorem rhs_col (i : S4096x1.Idx) (c : dot_S4096x64_S64x1_S4096x1_1_0_0_1_n_n.contr.Idx) :
    (dot_S4096x64_S64x1_S4096x1_1_0_0_1_n_n.rhsIdx i c 1).val = (i 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-- The matrix product accumulated from zero, at row r: the sum over the 64 channels of the products. -/
theorem matmul_row (A : FVec Ideal S4096x64 .bf16) (B : FVec Ideal S64x1 .bf16) (r : Fin 4096) :
    matmul dot_S4096x64_S64x1_S4096x1_1_0_0_1_n_n none A B (constant S4096x1 .f32 0x00000000#32) (ix2 r (0 : Fin 1))
      = ∑ k : Fin 64, A (ix2 r k) * B (ix2 k (0 : Fin 1)) := by
  simp only [matmul]
  rw [Ideal.matmul_constant_zero_apply,
    ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 r (0 : Fin 1))
      ((contrEquiv1 dot_S4096x64_S64x1_S4096x1_1_0_0_1_n_n 64 rfl rfl).symm k) = ix2 r k :=
    funext fun a => Fin.ext (by
      match a with
      | ⟨0, _⟩ => exact lhs_row _ _
      | ⟨1, _⟩ => exact (dot_S4096x64_S64x1_S4096x1_1_0_0_1_n_n.lhsIdx_val_of_single rfl _ _).trans hk)
  have er : dot_S4096x64_S64x1_S4096x1_1_0_0_1_n_n.rhsIdx (ix2 r (0 : Fin 1))
      ((contrEquiv1 dot_S4096x64_S64x1_S4096x1_1_0_0_1_n_n 64 rfl rfl).symm k) = ix2 k (0 : Fin 1) :=
    funext fun a => Fin.ext (by
      match a with
      | ⟨0, _⟩ => exact (dot_S4096x64_S64x1_S4096x1_1_0_0_1_n_n.rhsIdx_val_of_single rfl _ _).trans hk
      | ⟨1, _⟩ => exact rhs_col _ _)
  rw [el, er]

/-! ## The sums over the block -/

/-- The sum over the 32 query rows, at support row s. -/
theorem sum_q (v : FVec Ideal S32x128x1 .f32) (s : Fin 128) :
    multiReduction .add [0] S128x1 v 0x00000000#32 reduces_S32x128x1_S128x1 (.inl rfl) rfl (ix2 s (0 : Fin 1))
      = ∑ q : Fin 32, v (ix3 q s (0 : Fin 1)) := by
  refine (Ideal.multiReduction_add_single v _ _ _ _ _).trans ?_
  refine Finset.sum_congr rfl fun q _ => congrArg v ?_
  funext a; apply Fin.ext
  match a with
  | ⟨0, _⟩ => rfl
  | ⟨1, _⟩ => rfl
  | ⟨2, _⟩ => rfl

/-- The sum over the 128 support rows. -/
theorem sum_s (v : FVec Ideal S128x1 .f32) :
    multiReduction .add [0] S1 v 0x00000000#32 reduces_S128x1_S1 (.inl rfl) rfl (ix1 (0 : Fin 1))
      = ∑ s : Fin 128, v (ix2 s (0 : Fin 1)) := by
  refine (Ideal.multiReduction_add_single v _ _ _ _ _).trans ?_
  refine Finset.sum_congr rfl fun s _ => congrArg v ?_
  funext a; apply Fin.ext
  match a with
  | ⟨0, _⟩ => rfl
  | ⟨1, _⟩ => rfl

/-! ## The body's values at coordinates -/

section Payloads

variable (x0 : S1x32x128x64.Idx → EReal) (x1 x2 x3 : S1x64.Idx → EReal) (x4 : S1.Idx → EReal)

/-- The stage's value at query row q and support row s of the block: every channel rescaled and clamped at zero,
    times the weight, summed over the 64 channels, plus the bias. -/
def cell (q : Fin 32) (s : Fin 128) : EReal :=
  (∑ k : Fin 64, max (x0 (ix4 (0 : Fin 1) q s k) * x1 (ix2 (0 : Fin 1) k) + x2 (ix2 (0 : Fin 1) k)) 0
      * x3 (ix2 (0 : Fin 1) k)) + x4 (ix1 (0 : Fin 1))

/-- The value the body computes for the block, at (q, s, 0). -/
theorem pay5_apply (q : Fin 32) (s : Fin 128) :
    k2_pay5 (F := Ideal) x0 x1 x2 x3 x4 (ix3 q s (0 : Fin 1)) = cell x0 x1 x2 x3 x4 q s := by
  unfold k2_pay5 cell
  refine (fold_rows _ _ q s).trans ?_
  rw [addf_apply]
  refine congrArg₂ (· + ·) ?_ ?_
  · refine (matmul_row _ _ (row q s)).trans ?_
    refine Finset.sum_congr rfl fun k _ => ?_
    refine congrArg₂ (· * ·) ?_ ?_
    · rw [truncf_apply]
      refine (flat_rows _ _ q s k).trans ?_
      rw [maximumf_apply, addf_apply, mulf_apply, broadcast_apply]
      refine congrArg₂ max (congrArg₂ (· + ·) (congrArg₂ (· * ·) ?_ ?_) ?_) Ideal.ofBits_zero_f32
      · exact shapeCast_1abc_abc_apply x0 _ q s k
      · exact chan_apply x1 _ _ _ q s k
      · exact chan_apply x2 _ _ _ q s k
    · refine (transpose_ix2_apply _ _ k (0 : Fin 1)).trans ?_
      rfl
  · refine (broadcastTo_1b_ab_apply _ _ (row q s) (0 : Fin 1)).trans ?_
    exact shapeCast_a_1a_apply x4 _ (0 : Fin 1) (0 : Fin 1)

/-- The same value as stored: entry (0, q, s, 0) of the output block. -/
theorem pay6_apply (q : Fin 32) (s : Fin 128) :
    k2_pay6 (F := Ideal) x0 x1 x2 x3 x4 (ix4 (0 : Fin 1) q s (0 : Fin 1)) = cell x0 x1 x2 x3 x4 q s := by
  unfold k2_pay6
  exact (shapeCast_abc_1abc_apply _ _ (0 : Fin 1) q s (0 : Fin 1)).trans (pay5_apply x0 x1 x2 x3 x4 q s)

/-- The block's values summed over the query rows, at support row s. -/
theorem pay7_apply (s : Fin 128) :
    k2_pay7 (F := Ideal) x0 x1 x2 x3 x4 (ix2 s (0 : Fin 1)) = ∑ q : Fin 32, cell x0 x1 x2 x3 x4 q s := by
  unfold k2_pay7
  refine (sum_q _ s).trans ?_
  exact Finset.sum_congr rfl fun q _ => pay5_apply x0 x1 x2 x3 x4 q s

end Payloads

/-- The running sum's new value: the old value plus the sum over the support rows. -/
theorem pay1_apply (v33 : S128x1.Idx → EReal) (v38 : S1x1.Idx → EReal) :
    k2_pay1 (F := Ideal) v33 v38 (ix2 (0 : Fin 1) (0 : Fin 1))
      = v38 (ix2 (0 : Fin 1) (0 : Fin 1)) + ∑ s : Fin 128, v33 (ix2 s (0 : Fin 1)) := by
  unfold k2_pay1
  rw [addf_apply, shapeCast_self]
  refine congrArg (v38 (ix2 (0 : Fin 1) (0 : Fin 1)) + ·) ?_
  exact (shapeCast_a_1a_apply _ _ (0 : Fin 1) (0 : Fin 1)).trans (sum_s v33)

/-- The running sum of squares' new value: the old value plus the sum over the block of the squares. -/
theorem pay2_apply (v29 : S32x128x1.Idx → EReal) (v43 : S1x1.Idx → EReal) :
    k2_pay2 (F := Ideal) v29 v43 (ix2 (0 : Fin 1) (0 : Fin 1))
      = v43 (ix2 (0 : Fin 1) (0 : Fin 1))
        + ∑ s : Fin 128, ∑ q : Fin 32, v29 (ix3 q s (0 : Fin 1)) * v29 (ix3 q s (0 : Fin 1)) := by
  unfold k2_pay2
  rw [addf_apply, shapeCast_self]
  refine congrArg (v43 (ix2 (0 : Fin 1) (0 : Fin 1)) + ·) ?_
  refine (shapeCast_a_1a_apply _ _ (0 : Fin 1) (0 : Fin 1)).trans ?_
  refine (sum_s _).trans ?_
  refine Finset.sum_congr rfl fun s _ => ?_
  exact sum_q _ s

/-- The two running cells start from zero. -/
theorem pay3_apply (j : S1x1.Idx) : k2_pay3 (F := Ideal) j = 0 := Ideal.ofBits_zero_f32
theorem pay4_apply (j : S1x1.Idx) : k2_pay4 (F := Ideal) j = 0 := Ideal.ofBits_zero_f32

end Cert.KernelIdeal.Region2

end
-- ==== Proof.Region2Value.lean ====
/-
  The arrays the second middle stage leaves behind.

  The stage runs over a grid of 32 points (4 batches by 8 tiles of 32 query rows). At each point it reads one
  block of the previous stage's array, the scales, shifts, weights and bias, stores the block of its own values,
  and adds the block's sum and sum of squares to two running cells that are zeroed at the first point and written
  out after the last. Here: what each point leaves (read off the pieces the run stores), the running cells after
  point n as the sum over the points up to n (by induction on n), and then the three arrays as functions of the
  arrays the stage received: every position lies in exactly one block, so the value array is the stage's function
  position by position, and the two cells are the sums over all positions.
-/
import proofs.«104936_j50861002719650_1_alg».proof.Proof.Region2Body
import proofs.«104936_j50861002719650_1_alg».proof.Proof.SpecIO
import proofs.«104936_j50861002719650_1_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

/-! ## What one grid point leaves in the three output blocks -/

section Pieces

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At a later grid point the output block is left holding the stage's values of the input block. -/
theorem out_B_5 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : ¬cond2_0 i)
    (x0 : Vec F S1x32x128x64 .f32) (x1 : Vec F S1x64 .f32) (x2 : Vec F S1x64 .f32) (x3 : Vec F S1x64 .f32) (x4 : Vec F S1 .f32) (xo6 : Vec F S1x1 .f32) (xo7 : Vec F S1x1 .f32) :
    out2_B_5 c i a2 h2 a3 h3 a4 h4 a5 h5 a6 h6 a7 h7 a8 h8 a9 h9 hc x0 x1 x2 x3 x4 xo6 xo7 = k2_pay6 x0 x1 x2 x3 x4 := by
  unfold out2_B_5
  rw [View.read_writes_eq_canon _ _ _ (cover2_B_5 c i a2 h2 a3 h3 a4 h4 a5 h5 a6 h6 a7 h7 a8 h8 a9 h9 hc x0 x1 x2 x3 x4 xo6 xo7)]
  unfold kernelRun2_B
  dsimp only
  sl_unfold_words
  rw [View.canon_unit_zero hz4]
  simp only [View.readAt_eq_ld, h2.read_unread, h3.read_unread, h4.read_unread, h5.read_unread, h6.read_unread, h8.read_unread, h9.read_unread, View.ld_unit_zero (S := S1x32x128x64) hz4, View.ld_unit_zero (S := S1x64) hz2, View.ld_unit_zero (S := S1) hz1, View.ld_unit_zero (S := S1x1) hz2]

/-- At a later grid point the running sum is left at its old value plus the block's sum. -/
theorem out_B_6 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : ¬cond2_0 i)
    (x0 : Vec F S1x32x128x64 .f32) (x1 : Vec F S1x64 .f32) (x2 : Vec F S1x64 .f32) (x3 : Vec F S1x64 .f32) (x4 : Vec F S1 .f32) (xo6 : Vec F S1x1 .f32) (xo7 : Vec F S1x1 .f32) :
    out2_B_6 c i a2 h2 a3 h3 a4 h4 a5 h5 a6 h6 a7 h7 a8 h8 a9 h9 hc x0 x1 x2 x3 x4 xo6 xo7 = k2_pay1 (k2_pay7 x0 x1 x2 x3 x4) xo6 := by
  unfold out2_B_6
  rw [View.read_writes_eq_canon _ _ _ (cover2_B_6 c i a2 h2 a3 h3 a4 h4 a5 h5 a6 h6 a7 h7 a8 h8 a9 h9 hc x0 x1 x2 x3 x4 xo6 xo7)]
  unfold kernelRun2_B
  dsimp only
  sl_unfold_words
  rw [View.canon_unit_zero hz2]
  simp only [View.readAt_eq_ld, h2.read_unread, h3.read_unread, h4.read_unread, h5.read_unread, h6.read_unread, h8.read_unread, h9.read_unread, View.ld_unit_zero (S := S1x32x128x64) hz4, View.ld_unit_zero (S := S1x64) hz2, View.ld_unit_zero (S := S1) hz1, View.ld_unit_zero (S := S1x1) hz2]

/-- At a later grid point the running sum of squares is left at its old value plus the block's sum of squares. -/
theorem out_B_7 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : ¬cond2_0 i)
    (x0 : Vec F S1x32x128x64 .f32) (x1 : Vec F S1x64 .f32) (x2 : Vec F S1x64 .f32) (x3 : Vec F S1x64 .f32) (x4 : Vec F S1 .f32) (xo6 : Vec F S1x1 .f32) (xo7 : Vec F S1x1 .f32) :
    out2_B_7 c i a2 h2 a3 h3 a4 h4 a5 h5 a6 h6 a7 h7 a8 h8 a9 h9 hc x0 x1 x2 x3 x4 xo6 xo7 = k2_pay2 (k2_pay5 x0 x1 x2 x3 x4) xo7 := by
  unfold out2_B_7
  rw [View.read_writes_eq_canon _ _ _ (cover2_B_7 c i a2 h2 a3 h3 a4 h4 a5 h5 a6 h6 a7 h7 a8 h8 a9 h9 hc x0 x1 x2 x3 x4 xo6 xo7)]
  unfold kernelRun2_B
  dsimp only
  sl_unfold_words
  rw [View.canon_unit_zero hz2]
  simp only [View.readAt_eq_ld, h2.read_unread, h3.read_unread, h4.read_unread, h5.read_unread, h6.read_unread, h8.read_unread, h9.read_unread, View.ld_unit_zero (S := S1x32x128x64) hz4, View.ld_unit_zero (S := S1x64) hz2, View.ld_unit_zero (S := S1) hz1, View.ld_unit_zero (S := S1x1) hz2]

/-- At the first grid point the output block is left holding the stage's values of the input block. -/
theorem out_A_5 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : cond2_0 i)
    (x0 : Vec F S1x32x128x64 .f32) (x1 : Vec F S1x64 .f32) (x2 : Vec F S1x64 .f32) (x3 : Vec F S1x64 .f32) (x4 : Vec F S1 .f32) :
    out2_A_5 c i a2 h2 a3 h3 a4 h4 a5 h5 a6 h6 a7 h7 a8 h8 a9 h9 hc x0 x1 x2 x3 x4 = k2_pay6 x0 x1 x2 x3 x4 := by
  unfold out2_A_5
  rw [View.read_writes_eq_canon _ _ _ (cover2_A_5 c i a2 h2 a3 h3 a4 h4 a5 h5 a6 h6 a7 h7 a8 h8 a9 h9 hc x0 x1 x2 x3 x4)]
  unfold kernelRun2_A
  dsimp only
  sl_unfold_words
  rw [View.canon_unit_zero hz4]
  simp only [View.readAt_eq_ld, h2.read_unread, h3.read_unread, h4.read_unread, h5.read_unread, h6.read_unread, View.ld_unit_zero (S := S1x32x128x64) hz4, View.ld_unit_zero (S := S1x64) hz2, View.ld_unit_zero (S := S1) hz1]

/-- At the first grid point the running sum is zeroed, read back, and left at zero plus the block's sum. -/
theorem out_A_6 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : cond2_0 i)
    (x0 : Vec F S1x32x128x64 .f32) (x1 : Vec F S1x64 .f32) (x2 : Vec F S1x64 .f32) (x3 : Vec F S1x64 .f32) (x4 : Vec F S1 .f32) :
    out2_A_6 c i a2 h2 a3 h3 a4 h4 a5 h5 a6 h6 a7 h7 a8 h8 a9 h9 hc x0 x1 x2 x3 x4 = k2_pay1 (k2_pay7 x0 x1 x2 x3 x4) (k2_pay3 (F := F)) := by
  unfold out2_A_6
  rw [View.read_writes_eq_canon _ _ _ (cover2_A_6 c i a2 h2 a3 h3 a4 h4 a5 h5 a6 h6 a7 h7 a8 h8 a9 h9 hc x0 x1 x2 x3 x4)]
  unfold kernelRun2_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, View.ld_unit_zero (S := S1x32x128x64) hz4, View.ld_unit_zero (S := S1x64) hz2, View.ld_unit_zero (S := S1) hz1]

/-- At the first grid point the running sum of squares is zeroed, read back, and left at zero plus the block's. -/
theorem out_A_7 (c : Dev nD) (i : grid2.Coords) (a2 : Memref sig .tc .vmem S1x32x128x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1 .f32) (h6 : a6.IsWhole) (a7 : Memref sig .tc .vmem S1x32x128x1 .f32) (h7 : a7.IsWhole) (a8 : Memref sig .tc .vmem S1x1 .f32) (h8 : a8.IsWhole) (a9 : Memref sig .tc .vmem S1x1 .f32) (h9 : a9.IsWhole) (hc : cond2_0 i)
    (x0 : Vec F S1x32x128x64 .f32) (x1 : Vec F S1x64 .f32) (x2 : Vec F S1x64 .f32) (x3 : Vec F S1x64 .f32) (x4 : Vec F S1 .f32) :
    out2_A_7 c i a2 h2 a3 h3 a4 h4 a5 h5 a6 h6 a7 h7 a8 h8 a9 h9 hc x0 x1 x2 x3 x4 = k2_pay2 (k2_pay5 x0 x1 x2 x3 x4) (k2_pay4 (F := F)) := by
  unfold out2_A_7
  rw [View.read_writes_eq_canon _ _ _ (cover2_A_7 c i a2 h2 a3 h3 a4 h4 a5 h5 a6 h6 a7 h7 a8 h8 a9 h9 hc x0 x1 x2 x3 x4)]
  unfold kernelRun2_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, View.ld_unit_zero (S := S1x32x128x64) hz4, View.ld_unit_zero (S := S1x64) hz2, View.ld_unit_zero (S := S1) hz1]

end Pieces

/-! ## The blocks the windows hand to a grid point -/

section Value

variable (V : (c : Dev nD) → (b : Ref sig .tc) → Buf (Elt Ideal) ((c : Thread nD τ).loc b)) (c : Dev nD)

/-- The stage's function of the arrays it receives: position and (single) output channel. -/
def yK : Spec.Pos → Fin 1 → EReal :=
  SpecIO.preMid (Ci := 64) (Co := 1) (V c main_v17_0) (V c main_v28) (V c main_v31) (V c main_arg10) (V c main_arg11)

/-- A grid point as a number below 32. -/
def pt (t : Fin cfg2.N) : Fin 32 := ⟨t.val, lt_of_lt_of_eq t.isLt (show cfg2.N = 32 from N_2)⟩

/-- The block indices of the windows, decided over the grid: the two big windows move with the point (batch t / 8,
    tile t % 8), the small ones stay. -/
theorem idx_w0 : ∀ t : Fin cfg2.N, win2_0.index t (0 : Fin 4) = t.val / 8 ∧ win2_0.index t (1 : Fin 4) = t.val % 8
    ∧ win2_0.index t (2 : Fin 4) = 0 ∧ win2_0.index t (3 : Fin 4) = 0 :=
  (by decide +kernel : ∀ t : Fin grid2.N, _)
theorem idx_w5 : ∀ t : Fin cfg2.N, win2_5.index t (0 : Fin 4) = t.val / 8 ∧ win2_5.index t (1 : Fin 4) = t.val % 8
    ∧ win2_5.index t (2 : Fin 4) = 0 ∧ win2_5.index t (3 : Fin 4) = 0 :=
  (by decide +kernel : ∀ t : Fin grid2.N, _)
theorem idx_w1 : ∀ t : Fin cfg2.N, win2_1.index t (0 : Fin 2) = 0 ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 1) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 2) = 0 ∧ win2_7.index t (1 : Fin 2) = 0 :=
  (by decide +kernel : ∀ t : Fin grid2.N, _)

/-- The input block at point t, entry (0, q, s, k), is the previous stage's array at the block's position. -/
theorem blk0 (t : Fin cfg2.N) (q : Fin 32) (s : Fin 128) (k : Fin 64) :
    iblk2 V c 0 t (ix4 (0 : Fin 1) q s k)
      = V c main_v17_0 (ix4 (blkPos (pt t) q s).1 (blkPos (pt t) q s).2.1 s k) := by
  unfold iblk2
  rw [View.read_apply]
  show V c main_v17_0 _ = V c main_v17_0 _
  refine congrArg (V c main_v17_0) ?_
  obtain ⟨e0, e1, e2, e3⟩ := idx_w0 t
  funext a; apply Fin.ext
  match a with
  | ⟨0, _⟩ => show win2_0.index t (0 : Fin 4) * 1 + 1 * 0 = t.val / 8; rw [e0]; omega
  | ⟨1, _⟩ => show win2_0.index t (1 : Fin 4) * 32 + 1 * q.val = (t.val % 8) * 32 + q.val; rw [e1]; omega
  | ⟨2, _⟩ => show win2_0.index t (2 : Fin 4) * 128 + 1 * s.val = s.val; rw [e2]; omega
  | ⟨3, _⟩ => show win2_0.index t (3 : Fin 4) * 64 + 1 * k.val = k.val; rw [e3]; omega

/-- The scale, shift and weight rows and the bias are whole arrays, the same at every point. -/
theorem blk1 (t : Fin cfg2.N) (k : Fin 64) : iblk2 V c 1 t (ix2 (0 : Fin 1) k) = V c main_v28 (ix2 (0 : Fin 1) k) := by
  unfold iblk2
  rw [View.read_apply]
  show V c main_v28 _ = V c main_v28 _
  refine congrArg (V c main_v28) ?_
  obtain ⟨e0, e1⟩ := idx_w1 t
  funext a; apply Fin.ext
  match a with
  | ⟨0, _⟩ => show win2_1.index t (0 : Fin 2) * 1 + 1 * 0 = 0; rw [e0]
  | ⟨1, _⟩ => show win2_1.index t (1 : Fin 2) * 64 + 1 * k.val = k.val; rw [e1]; omega
theorem blk2 (t : Fin cfg2.N) (k : Fin 64) : iblk2 V c 2 t (ix2 (0 : Fin 1) k) = V c main_v31 (ix2 (0 : Fin 1) k) := by
  unfold iblk2
  rw [View.read_apply]
  show V c main_v31 _ = V c main_v31 _
  refine congrArg (V c main_v31) ?_
  obtain ⟨e0, e1⟩ := idx_w2 t
  funext a; apply Fin.ext
  match a with
  | ⟨0, _⟩ => show win2_2.index t (0 : Fin 2) * 1 + 1 * 0 = 0; rw [e0]
  | ⟨1, _⟩ => show win2_2.index t (1 : Fin 2) * 64 + 1 * k.val = k.val; rw [e1]; omega
theorem blk3 (t : Fin cfg2.N) (k : Fin 64) : iblk2 V c 3 t (ix2 (0 : Fin 1) k) = V c main_arg10 (ix2 (0 : Fin 1) k) := by
  unfold iblk2
  rw [View.read_apply]
  show V c main_arg10 _ = V c main_arg10 _
  refine congrArg (V c main_arg10) ?_
  obtain ⟨e0, e1⟩ := idx_w3 t
  funext a; apply Fin.ext
  match a with
  | ⟨0, _⟩ => show win2_3.index t (0 : Fin 2) * 1 + 1 * 0 = 0; rw [e0]
  | ⟨1, _⟩ => show win2_3.index t (1 : Fin 2) * 64 + 1 * k.val = k.val; rw [e1]; omega
theorem blk4 (t : Fin cfg2.N) : iblk2 V c 4 t (ix1 (0 : Fin 1)) = V c main_arg11 (ix1 (0 : Fin 1)) := by
  unfold iblk2
  rw [View.read_apply]
  show V c main_arg11 _ = V c main_arg11 _
  refine congrArg (V c main_arg11) ?_
  have e0 := idx_w4 t
  funext a; apply Fin.ext
  match a with
  | ⟨0, _⟩ => show win2_4.index t (0 : Fin 1) * 1 + 1 * 0 = 0; rw [e0]

/-- So the value the body computes at (q, s) of the block at point t is the stage's function at the block's
    position. -/
theorem cell_eq (t : Fin cfg2.N) (q : Fin 32) (s : Fin 128) :
    cell (iblk2 V c 0 t) (iblk2 V c 1 t) (iblk2 V c 2 t) (iblk2 V c 3 t) (iblk2 V c 4 t) q s = yK V c (blkPos (pt t) q s) 0 := by
  unfold cell yK SpecIO.preMid Spec.dense
  simp only [blk0, blk1, blk2, blk3, blk4]
  rfl

/-! ## What the output blocks hold after each point -/

/-- The sum of the stage's values over the block of point t, and of their squares. -/
def bsum (t : Fin cfg2.N) : EReal := ∑ s : Fin 128, ∑ q : Fin 32, yK V c (blkPos (pt t) q s) 0
def bsq (t : Fin cfg2.N) : EReal :=
  ∑ s : Fin 128, ∑ q : Fin 32, yK V c (blkPos (pt t) q s) 0 * yK V c (blkPos (pt t) q s) 0

/-- The running cells after point n: the block sums of the points up to n. -/
def accS (n : ℕ) : EReal := ∑ k ∈ Finset.range (n + 1), (if h : k < cfg2.N then bsum V c ⟨k, h⟩ else 0)
def accQ (n : ℕ) : EReal := ∑ k ∈ Finset.range (n + 1), (if h : k < cfg2.N then bsq V c ⟨k, h⟩ else 0)

/-- The block's sum as the body forms it: over the query rows, then over the support rows. -/
theorem sum_pay7 (t : Fin cfg2.N) :
    ∑ s : Fin 128, k2_pay7 (F := Ideal) (iblk2 V c 0 t) (iblk2 V c 1 t) (iblk2 V c 2 t) (iblk2 V c 3 t) (iblk2 V c 4 t) (ix2 s (0 : Fin 1)) = bsum V c t := by
  unfold bsum
  refine Finset.sum_congr rfl fun s _ => ?_
  rw [pay7_apply]
  exact Finset.sum_congr rfl fun q _ => cell_eq V c t q s

theorem sum_pay5_sq (t : Fin cfg2.N) :
    ∑ s : Fin 128, ∑ q : Fin 32, k2_pay5 (F := Ideal) (iblk2 V c 0 t) (iblk2 V c 1 t) (iblk2 V c 2 t) (iblk2 V c 3 t) (iblk2 V c 4 t) (ix3 q s (0 : Fin 1))
        * k2_pay5 (F := Ideal) (iblk2 V c 0 t) (iblk2 V c 1 t) (iblk2 V c 2 t) (iblk2 V c 3 t) (iblk2 V c 4 t) (ix3 q s (0 : Fin 1)) = bsq V c t := by
  unfold bsq
  refine Finset.sum_congr rfl fun s _ => Finset.sum_congr rfl fun q _ => ?_
  rw [pay5_apply, cell_eq]

/-- The one index of a [1, 1] block. -/
theorem idx11 (j : S1x1.Idx) : j = ix2 (0 : Fin 1) (0 : Fin 1) := by
  funext a; apply Fin.ext
  match a with
  | ⟨0, _⟩ => have := idx2_lt0 j; show (j 0).val = 0; omega
  | ⟨1, _⟩ => have := idx2_lt1 j; show (j 1).val = 0; omega

/-- After every point the value block holds the stage's values of that point's input block. -/
theorem outs5 (t : Fin cfg2.N) : (outsAt2 V c t.val t.isLt).1 = k2_pay6 (F := Ideal) (iblk2 V c 0 t) (iblk2 V c 1 t) (iblk2 V c 2 t) (iblk2 V c 3 t) (iblk2 V c 4 t) := by
  have hN : t.val < 32 := lt_of_lt_of_eq t.isLt (show cfg2.N = 32 from N_2)
  by_cases h0 : t.val % 32 = 0
  · rw [outsAt2_A V c t h0]
    dsimp only
    exact out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _

/-- After point n the two running cells hold the sums over the blocks of the points up to n: by induction on n —
    the first point zeroes the cells and adds its block, every later point adds its block to what the point
    before left. -/
theorem outs67 : ∀ (n : ℕ) (h : n < cfg2.N),
    (outsAt2 V c n h).2.1 (ix2 (0 : Fin 1) (0 : Fin 1)) = accS V c n
      ∧ (outsAt2 V c n h).2.2 (ix2 (0 : Fin 1) (0 : Fin 1)) = accQ V c n
  | 0, h => by
    rw [outsAt2_A V c ⟨0, h⟩ rfl]
    dsimp only
    rw [out_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩),
      out_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩)]
    constructor
    · rw [pay1_apply, pay3_apply, zero_add, sum_pay7]
      unfold accS; rw [Finset.sum_range_one, dif_pos h]
    · rw [pay2_apply, pay4_apply, zero_add, sum_pay5_sq]
      unfold accQ; rw [Finset.sum_range_one, dif_pos h]
  | n + 1, h => by
    have hN : cfg2.N = 32 := N_2
    have hB : ¬(⟨n + 1, h⟩ : Fin cfg2.N).val % 32 = 0 := by dsimp only; omega
    obtain ⟨ih1, ih2⟩ := outs67 n (Nat.lt_of_succ_lt h)
    rw [outsAt2_B V c ⟨n + 1, h⟩ hB]
    dsimp only
    rw [out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _,
      out_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _]
    constructor
    · rw [pay1_apply, sum_pay7]
      show (outsAt2 V c n _).2.1 (ix2 (0 : Fin 1) (0 : Fin 1)) + _ = _
      rw [ih1]
      unfold accS; rw [Finset.sum_range_succ _ (n + 1), dif_pos h]
    · rw [pay2_apply, sum_pay5_sq]
      show (outsAt2 V c n _).2.2 (ix2 (0 : Fin 1) (0 : Fin 1)) + _ = _
      rw [ih2]
      unfold accQ; rw [Finset.sum_range_succ _ (n + 1), dif_pos h]

/-- The points' blocks tile the positions, so the block sums over all points add up to the sum over all positions. -/
theorem sum_points (g : Spec.Pos → EReal) :
    ∑ t : Fin cfg2.N, ∑ s : Fin 128, ∑ q : Fin 32, g (blkPos (pt t) q s) = ∑ p : Spec.Pos, g p := by
  rw [← sum_blocks g]
  exact Fintype.sum_equiv (finCongr (show cfg2.N = 32 from N_2)) _ _ (fun t => rfl)

/-- After the last point the cells hold the sums over all positions. -/
theorem accS_last : accS V c 31 = ∑ p : Spec.Pos, yK V c p 0 := by
  have e : accS V c 31 = ∑ t : Fin cfg2.N, bsum V c t :=
    sum_range_dite cfg2.N (bsum V c)
  rw [e]
  exact sum_points (fun p => yK V c p 0)

theorem accQ_last : accQ V c 31 = ∑ p : Spec.Pos, yK V c p 0 * yK V c p 0 := by
  have e : accQ V c 31 = ∑ t : Fin cfg2.N, bsq V c t :=
    sum_range_dite cfg2.N (bsq V c)
  rw [e]
  exact sum_points (fun p => yK V c p 0 * yK V c p 0)

/-! ## The three arrays after the stage -/

/-- Entry (0, q, s, 0) of the output block of point t sits at the block's position in the array. -/
theorem emb5 (t : Fin cfg2.N) (q : Fin 32) (s : Fin 128) :
    ((cfg2.win 5).blk t).view.emb (ix4 (0 : Fin 1) q s (0 : Fin 1))
      = ix4 (blkPos (pt t) q s).1 (blkPos (pt t) q s).2.1 s (0 : Fin 1) := by
  obtain ⟨e0, e1, e2, e3⟩ := idx_w5 t
  funext a; apply Fin.ext
  match a with
  | ⟨0, _⟩ => show win2_5.index t (0 : Fin 4) * 1 + 1 * 0 = t.val / 8; rw [e0]; omega
  | ⟨1, _⟩ => show win2_5.index t (1 : Fin 4) * 32 + 1 * q.val = (t.val % 8) * 32 + q.val; rw [e1]; omega
  | ⟨2, _⟩ => show win2_5.index t (2 : Fin 4) * 128 + 1 * s.val = s.val; rw [e2]; omega
  | ⟨3, _⟩ => show win2_5.index t (3 : Fin 4) * 1 + 1 * 0 = 0; rw [e3]

/-- What point t writes back to the value array is block t of the stage's array. -/
theorem flushed5_eq (t : Fin cfg2.N) :
    (dat2 V c).flushed 5 t = ((cfg2.win 5).blk t).view.read (Elt Ideal) (SpecIO.stageArr (yK V c)) := by
  show (cfg2.win 5).cut (grid2.coords t) ((dat2 V c).after 5 t) = _
  rw [after2_5, outs5]
  funext j
  rw [View.read_apply]
  obtain ⟨u, q, s, z, rfl⟩ : ∃ (u : Fin 1) (q : Fin 32) (s : Fin 128) (z : Fin 1), j = ix4 u q s z :=
    ⟨j 0, j 1, j 2, j 3, eq_ix4 j⟩
  obtain rfl : u = 0 := Subsingleton.elim _ _
  obtain rfl : z = 0 := Subsingleton.elim _ _
  rw [emb5]
  show k2_pay6 (F := Ideal) _ _ _ _ _ (ix4 (0 : Fin 1) q s (0 : Fin 1)) = yK V c (blkPos (pt t) q s) 0
  rw [pay6_apply, cell_eq]

/-- An index of the value array is in point t's block iff each coordinate is in the block's range. -/
theorem mem_blk5 (t : Fin cfg2.N) (i : S4x256x128x1.Idx) :
    i ∈ ((cfg2.win 5).blk t).view.set ↔ ∀ a : Fin 4, win2_5.index t a * S1x32x128x1.size a ≤ (i a).val
      ∧ (i a).val < win2_5.index t a * S1x32x128x1.size a + S1x32x128x1.size a := by
  show i ∈ ((View.whole main_v32_0).slice (win2_5.rect t)).set ↔ _
  rw [View.set_slice_whole, Rect.mem_set_unit]
  exact Iff.rfl

/-- Every index of the value array lies in the block of the point (batch, query row / 32). -/
theorem cover5 (i : S4x256x128x1.Idx) :
    ∃ t : Fin cfg2.N, (cfg2.win 5).flush t = true ∧ i ∈ ((cfg2.win 5).blk t).view.set := by
  have h0 : (i 0).val < 4 := (i 0).isLt
  have h1 : (i 1).val < 256 := (i 1).isLt
  have h2 : (i 2).val < 128 := (i 2).isLt
  have h3 : (i 3).val < 1 := (i 3).isLt
  have hN : cfg2.N = 32 := N_2
  have hlt : (i 0).val * 8 + (i 1).val / 32 < cfg2.N := by rw [hN]; omega
  refine ⟨⟨(i 0).val * 8 + (i 1).val / 32, hlt⟩, flush2_5 _, ?_⟩
  rw [mem_blk5]
  obtain ⟨e0, e1, e2, e3⟩ := idx_w5 ⟨(i 0).val * 8 + (i 1).val / 32, hlt⟩
  dsimp only at e0 e1
  intro a
  match a with
  | ⟨0, _⟩ =>
    show win2_5.index _ (0 : Fin 4) * 1 ≤ (i 0).val ∧ (i 0).val < win2_5.index _ (0 : Fin 4) * 1 + 1
    rw [e0]; omega
  | ⟨1, _⟩ =>
    show win2_5.index _ (1 : Fin 4) * 32 ≤ (i 1).val ∧ (i 1).val < win2_5.index _ (1 : Fin 4) * 32 + 32
    rw [e1]; omega
  | ⟨2, _⟩ =>
    show win2_5.index _ (2 : Fin 4) * 128 ≤ (i 2).val ∧ (i 2).val < win2_5.index _ (2 : Fin 4) * 128 + 128
    rw [e2]; omega
  | ⟨3, _⟩ =>
    show win2_5.index _ (3 : Fin 4) * 1 ≤ (i 3).val ∧ (i 3).val < win2_5.index _ (3 : Fin 4) * 1 + 1
    rw [e3]; omega

/-- THE VALUE ARRAY after the stage: the stage's function of the arrays it received, position by position. -/
theorem final5 : (dat2 V c).arrAt 5 cfg2.N = SpecIO.stageArr (yK V c) :=
  (dat2 V c).arrAt_eq_of_cover 5 (SpecIO.stageArr (yK V c)) (fun t _ => flushed5_eq V c t) cover5

/-- The one write-back of the running sum, after the last point, writes the sum over all positions. -/
theorem flushed6_eq (t : Fin cfg2.N) (hf : (cfg2.win 6).flush t = true) :
    (dat2 V c).flushed 6 t = ((cfg2.win 6).blk t).view.read (Elt Ideal) (SpecIO.sumArr (yK V c)) := by
  have hN : cfg2.N = 32 := N_2
  have h31 : t.val = 31 := by have := (flush2_6 t).mp hf; have := t.isLt; omega
  show (cfg2.win 6).cut (grid2.coords t) ((dat2 V c).after 6 t) = _
  rw [after2_6]
  funext j
  rw [View.read_apply]
  obtain rfl := idx11 j
  show (outsAt2 V c t.val t.isLt).2.1 (ix2 (0 : Fin 1) (0 : Fin 1)) = SpecIO.sumArr (yK V c) _
  rw [(outs67 V c t.val t.isLt).1, h31, accS_last]
  unfold SpecIO.sumArr
  refine Finset.sum_congr rfl fun p _ => ?_
  exact congrArg (yK V c p) (Subsingleton.elim _ _)

/-- The last point's block is the whole [1, 1] array. -/
theorem cover6 (i : S1x1.Idx) :
    ∃ t : Fin cfg2.N, (cfg2.win 6).flush t = true ∧ i ∈ ((cfg2.win 6).blk t).view.set := by
  have hN : cfg2.N = 32 := N_2
  have hlt : 31 < cfg2.N := by rw [hN]; omega
  refine ⟨⟨31, hlt⟩, (flush2_6 _).mpr rfl, ?_⟩
  show i ∈ ((View.whole main_v32_1).slice (win2_6.rect ⟨31, hlt⟩)).set
  rw [View.set_slice_whole, Rect.mem_set_unit]
  obtain ⟨e0, e1⟩ := idx_w6 ⟨31, hlt⟩
  have h0 := idx2_lt0 i
  have h1 := idx2_lt1 i
  intro a
  match a with
  | ⟨0, _⟩ =>
    show win2_6.index _ (0 : Fin 2) * 1 ≤ (i 0).val ∧ (i 0).val < win2_6.index _ (0 : Fin 2) * 1 + 1
    rw [e0]; omega
  | ⟨1, _⟩ =>
    show win2_6.index _ (1 : Fin 2) * 1 ≤ (i 1).val ∧ (i 1).val < win2_6.index _ (1 : Fin 2) * 1 + 1
    rw [e1]; omega

/-- THE SUM after the stage: over all positions. -/
theorem final6 : (dat2 V c).arrAt 6 cfg2.N = SpecIO.sumArr (yK V c) :=
  (dat2 V c).arrAt_eq_of_cover 6 (SpecIO.sumArr (yK V c)) (flushed6_eq V c) cover6

/-- The one write-back of the running sum of squares, after the last point, writes the sum over all positions. -/
theorem flushed7_eq (t : Fin cfg2.N) (hf : (cfg2.win 7).flush t = true) :
    (dat2 V c).flushed 7 t = ((cfg2.win 7).blk t).view.read (Elt Ideal) (SpecIO.sumsqArr (yK V c)) := by
  have hN : cfg2.N = 32 := N_2
  have h31 : t.val = 31 := by have := (flush2_7 t).mp hf; have := t.isLt; omega
  show (cfg2.win 7).cut (grid2.coords t) ((dat2 V c).after 7 t) = _
  rw [after2_7]
  funext j
  rw [View.read_apply]
  obtain rfl := idx11 j
  show (outsAt2 V c t.val t.isLt).2.2 (ix2 (0 : Fin 1) (0 : Fin 1)) = SpecIO.sumsqArr (yK V c) _
  rw [(outs67 V c t.val t.isLt).2, h31, accQ_last]
  unfold SpecIO.sumsqArr
  refine Finset.sum_congr rfl fun p _ => ?_
  exact congrArg (fun o => yK V c p o * yK V c p o) (Subsingleton.elim _ _)

/-- The last point's block is the whole [1, 1] array. -/
theorem cover7 (i : S1x1.Idx) :
    ∃ t : Fin cfg2.N, (cfg2.win 7).flush t = true ∧ i ∈ ((cfg2.win 7).blk t).view.set := by
  have hN : cfg2.N = 32 := N_2
  have hlt : 31 < cfg2.N := by rw [hN]; omega
  refine ⟨⟨31, hlt⟩, (flush2_7 _).mpr rfl, ?_⟩
  show i ∈ ((View.whole main_v32_2).slice (win2_7.rect ⟨31, hlt⟩)).set
  rw [View.set_slice_whole, Rect.mem_set_unit]
  obtain ⟨e0, e1⟩ := idx_w7 ⟨31, hlt⟩
  have h0 := idx2_lt0 i
  have h1 := idx2_lt1 i
  intro a
  match a with
  | ⟨0, _⟩ =>
    show win2_7.index _ (0 : Fin 2) * 1 ≤ (i 0).val ∧ (i 0).val < win2_7.index _ (0 : Fin 2) * 1 + 1
    rw [e0]; omega
  | ⟨1, _⟩ =>
    show win2_7.index _ (1 : Fin 2) * 1 ≤ (i 1).val ∧ (i 1).val < win2_7.index _ (1 : Fin 2) * 1 + 1
    rw [e1]; omega

/-- THE SUM OF SQUARES after the stage: over all positions. -/
theorem final7 : (dat2 V c).arrAt 7 cfg2.N = SpecIO.sumsqArr (yK V c) :=
  (dat2 V c).arrAt_eq_of_cover 7 (SpecIO.sumsqArr (yK V c)) (flushed7_eq V c) cover7

/-! ## The same three facts with the stage's function written out -/

theorem yK_def : yK V c = SpecIO.preMid (Ci := 64) (Co := 1) (V c main_v17_0) (V c main_v28) (V c main_v31)
    (V c main_arg10) (V c main_arg11) := rfl

theorem arr5 : (dat2 V c).arrAt 5 cfg2.N = SpecIO.stageArr (SpecIO.preMid (Ci := 64) (Co := 1) (V c main_v17_0)
    (V c main_v28) (V c main_v31) (V c main_arg10) (V c main_arg11)) := final5 V c

theorem arr6 : (dat2 V c).arrAt 6 cfg2.N = SpecIO.sumArr (SpecIO.preMid (Ci := 64) (Co := 1) (V c main_v17_0)
    (V c main_v28) (V c main_v31) (V c main_arg10) (V c main_arg11)) := final6 V c

theorem arr7 : (dat2 V c).arrAt 7 cfg2.N = SpecIO.sumsqArr (SpecIO.preMid (Ci := 64) (Co := 1) (V c main_v17_0)
    (V c main_v28) (V c main_v31) (V c main_arg10) (V c main_arg11)) := final7 V c

end Value

end Cert.KernelIdeal.Region2

end
-- ==== Proof.Region3Value.lean ====
/-
  The last stage of the pipeline, read as one array.

  The last stage walks the array of pre-activations over [4, 256, 128, 1] in 32 blocks of 32 query rows — point t
  handles batch t / 8 and query rows 32 · (t % 8) … 32 · (t % 8) + 31 — and writes, at every entry of the block, the
  entry times the one channel's scale plus its shift, clamped at zero. The scale and the shift are [1, 1] arrays, read
  whole at every point. The 32 blocks tile the array, so after the last point the result array holds that function of
  the three arrays at every index.
-/
import proofs.«104936_j50861002719650_1_alg».proof.Proof.Gen.KernelIdeal.Frame
import proofs.«104936_j50861002719650_1_alg».proof.Proof.SpecIO
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

/-! ## The stored value at an index -/

/-- The array of shape [1, 1] has one index. -/
theorem idx11 (k : S1x1.Idx) : k = ix2 (0 : Fin 1) (0 : Fin 1) := by
  funext d
  match d with
  | ⟨0, _⟩ => exact Fin.ext (by show (k 0).val = 0; have := (k 0).isLt; simp at this; omega)
  | ⟨1, _⟩ => exact Fin.ext (by show (k 1).val = 0; have := (k 1).isLt; simp at this; omega)

/-- A [1, 1] array cast to [1], cast to [1, 1, 1] and broadcast over [32, 128, 1] reads its one entry everywhere. -/
theorem splat_apply (v : Vec Ideal S1x1 .f32) (h1 : S1x1.ShapeCasts S1) (h2 : S1.ShapeCasts S1x1x1)
    (h3 : S1x1x1.Broadcasts S32x128x1) (j : S32x128x1.Idx) :
    broadcastTo S32x128x1 (shapeCast S1x1x1 (shapeCast S1 v h1) h2) h3 j = v (ix2 0 0) := by
  unfold broadcastTo shapeCast
  exact congrArg v (idx11 _)

/-- The stored value at the entry (0, q, s, 0) of a block: the block's entry times the scale plus the shift, clamped
    at zero. -/
theorem pay_apply (v0 : Vec Ideal S1x32x128x1 .f32) (v2 v4 : Vec Ideal S1x1 .f32)
    (u : Fin 1) (q : Fin 32) (s : Fin 128) (o : Fin 1) :
    k3_pay1 (F := Ideal) v0 v2 v4 (ix4 u q s o) = max (v0 (ix4 u q s o) * v2 (ix2 0 0) + v4 (ix2 0 0)) 0 := by
  obtain rfl : u = 0 := Subsingleton.elim _ _
  unfold k3_pay1
  refine (shapeCast_abc_1abc_apply _ _ 0 q s o).trans ?_
  show max (shapeCast S32x128x1 v0 _ (ix3 q s o) * broadcastTo S32x128x1 (shapeCast S1x1x1 (shapeCast S1 v2 _) _) _ (ix3 q s o)
      + broadcastTo S32x128x1 (shapeCast S1x1x1 (shapeCast S1 v4 _) _) _ (ix3 q s o)) (Ideal.ofBits .f32 0x00000000#32) = _
  rw [Ideal.ofBits_zero_f32, splat_apply, splat_apply, shapeCast_1abc_abc_apply]

/-- The stored block as one function of the three loaded blocks. -/
theorem pay_eq (v0 : Vec Ideal S1x32x128x1 .f32) (v2 v4 : Vec Ideal S1x1 .f32) :
    k3_pay1 (F := Ideal) v0 v2 v4 = fun y => max (v0 y * v2 (ix2 0 0) + v4 (ix2 0 0)) 0 := by
  funext y
  obtain ⟨u, q, s, o, rfl⟩ : ∃ (u : Fin 1) (q : Fin 32) (s : Fin 128) (o : Fin 1), y = ix4 u q s o :=
    ⟨y 0, y 1, y 2, y 3, eq_ix4 y⟩
  exact pay_apply v0 v2 v4 u q s o

/-! ## From blocks to the array -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block indices over the grid of 32 points: the input block and the output block move together, point t at
    batch t / 8 and row block t % 8. -/
theorem idx_facts : ∀ t : Fin cfg3.N,
    win3_0.index t (0 : Fin 4) = win3_3.index t (0 : Fin 4) ∧ win3_0.index t (1 : Fin 4) = win3_3.index t (1 : Fin 4)
    ∧ win3_0.index t (2 : Fin 4) = win3_3.index t (2 : Fin 4) ∧ win3_0.index t (3 : Fin 4) = win3_3.index t (3 : Fin 4)
    ∧ win3_3.index t (0 : Fin 4) = t.val / 8 ∧ win3_3.index t (1 : Fin 4) = t.val % 8
    ∧ win3_3.index t (2 : Fin 4) = 0 ∧ win3_3.index t (3 : Fin 4) = 0 :=
  (by decide +kernel : ∀ t : Fin grid3.N, _)

/-- One entry of the result: the pre-activation at the same index, the scale and the shift at their one index. -/
theorem entry_eq (X : S4x256x128x1.Idx → EReal) (sc sh : S1x1.Idx → EReal) (i0 i3 : S4x256x128x1.Idx) (k1 k2 : S1x1.Idx)
    (h : i0 = i3) : max (X i0 * sc k1 + sh k2) 0 = Cert.SpecIO.lastArr X sc sh i3 := by
  subst h
  rw [idx11 k1, idx11 k2]
  rfl

variable (V : (c : Dev nD) → (b : Ref sig .tc) → Buf (Elt Ideal) ((c : Thread nD τ).loc b))

/-- The array the last stage leaves: the rescaled, clamped pre-activations. -/
abbrev G (c : Dev nD) : S4x256x128x1.Idx → EReal :=
  Cert.SpecIO.lastArr (V c main_v32_0) (V c main_v43) (V c main_v46)

/-- What point t writes back is block t of that array. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz4]
  simp only [View.ld_unit_zero (S := S1x32x128x1) hz4, View.ld_unit_zero (S := S1x1) hz2]
  rw [pay_eq]
  obtain ⟨e0, e1, e2, e3, -, -, -, -⟩ := idx_facts t
  funext j
  have h0 : ((cfg3.win 0).blk t).view.emb j = ((cfg3.win 3).blk t).view.emb j := by
    funext a; apply Fin.ext
    match a with
    | ⟨0, _⟩ => show win3_0.index t (0 : Fin 4) * 1 + 1 * (j 0).val = win3_3.index t (0 : Fin 4) * 1 + 1 * (j 0).val; omega
    | ⟨1, _⟩ => show win3_0.index t (1 : Fin 4) * 32 + 1 * (j 1).val = win3_3.index t (1 : Fin 4) * 32 + 1 * (j 1).val; omega
    | ⟨2, _⟩ => show win3_0.index t (2 : Fin 4) * 128 + 1 * (j 2).val = win3_3.index t (2 : Fin 4) * 128 + 1 * (j 2).val; omega
    | ⟨3, _⟩ => show win3_0.index t (3 : Fin 4) * 1 + 1 * (j 3).val = win3_3.index t (3 : Fin 4) * 1 + 1 * (j 3).val; omega
  exact entry_eq (V c main_v32_0) (V c main_v43) (V c main_v46) (((cfg3.win 0).blk t).view.emb j)
    (((cfg3.win 3).blk t).view.emb j) (((cfg3.win 1).blk t).view.emb (ix2 0 0)) (((cfg3.win 2).blk t).view.emb (ix2 0 0)) h0

/-- An index of the array is in point t's block iff each coordinate is in the block's range on its axis. -/
theorem mem_blk (t : Fin cfg3.N) (i : S4x256x128x1.Idx) :
    i ∈ ((cfg3.win 3).blk t).view.set ↔ ∀ a : Fin 4, win3_3.index t a * S1x32x128x1.size a ≤ (i a).val
      ∧ (i a).val < win3_3.index t a * S1x32x128x1.size a + S1x32x128x1.size a := by
  show i ∈ ((View.whole main_v47).slice (win3_3.rect t)).set ↔ _
  rw [View.set_slice_whole, Rect.mem_set_unit]
  exact Iff.rfl

/-- Every index of the array is in some point's block: batch b, query row r sit in the block of point 8 b + r / 32. -/
theorem cover (i : S4x256x128x1.Idx) :
    ∃ t : Fin cfg3.N, (cfg3.win 3).flush t = true ∧ i ∈ ((cfg3.win 3).blk t).view.set := by
  have hi0 : (i 0).val < 4 := (i 0).isLt
  have hi1 : (i 1).val < 256 := (i 1).isLt
  have hi2 : (i 2).val < 128 := (i 2).isLt
  have hi3 : (i 3).val < 1 := (i 3).isLt
  obtain ⟨t, ht⟩ : ∃ t : Fin cfg3.N, t.val = (i 0).val * 8 + (i 1).val / 32 :=
    ⟨⟨(i 0).val * 8 + (i 1).val / 32, by rw [show cfg3.N = 32 from N_3]; omega⟩, rfl⟩
  obtain ⟨-, -, -, -, q0, q1, q2, q3⟩ := idx_facts t
  refine ⟨t, flush3_3 t, ?_⟩
  rw [mem_blk]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 32 ≤ (i 1).val ∧ (i 1).val < win3_3.index t (1 : Fin 4) * 32 + 32; omega
  | ⟨2, _⟩ => show win3_3.index t (2 : Fin 4) * 128 ≤ (i 2).val ∧ (i 2).val < win3_3.index t (2 : Fin 4) * 128 + 128; omega
  | ⟨3, _⟩ => show win3_3.index t (3 : Fin 4) * 1 ≤ (i 3).val ∧ (i 3).val < win3_3.index t (3 : Fin 4) * 1 + 1; omega

/-- After the last point the result array is the rescaled, clamped array of pre-activations, as the stage found
    the three arrays when it started. -/
theorem final (c : Dev nD) :
    (dat3 V c).arrAt 3 cfg3.N = Cert.SpecIO.lastArr (V c main_v32_0) (V c main_v43) (V c main_v46) :=
  (dat3 V c).arrAt_eq_of_cover 3 (G V c) (fun t _ => flushed_eq V c t) cover

end Cert.KernelIdeal.Region3

end
-- ==== Proof.KernelValue.lean ====
/-
  The idealized kernel program's result is the specification's first arrangement.

  Stage by stage along the program: the first launch leaves the first pre-activation and its per-channel sum and
  sum of squares; the host turns those into scale and shift; the second launch normalises, clamps, multiplies by
  the second weight and again leaves sums; likewise the third; the last launch normalises and clamps the
  one-channel array, and the closing transposition lays it out as [4, 1, 256, 128].
-/
import proofs.«104936_j50861002719650_1_alg».proof.Proof.KernelFold
import proofs.«104936_j50861002719650_1_alg».proof.Proof.SpecLink
import proofs.«104936_j50861002719650_1_alg».proof.Proof.FoldEnds
import proofs.«104936_j50861002719650_1_alg».proof.Proof.Region0Value
import proofs.«104936_j50861002719650_1_alg».proof.Proof.Region1Value
import proofs.«104936_j50861002719650_1_alg».proof.Proof.Region2Value
import proofs.«104936_j50861002719650_1_alg».proof.Proof.Region3Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.SpecIO Cert.Spec

variable (m : (ℓ : Loc nD τ sig) → Buf (Elt Ideal) ℓ) (ρ : Dev nD → PrngReg)

/-! ## What each launch leaves, for any contents at its entry -/
theorem R0_5 (V : (c : Dev nD) → (b : Ref sig .tc) → Buf (Elt Ideal) ((c : Thread nD τ).loc b)) (c : Dev nD) : (dat0 V c).arrAt 5 cfg0.N = stageArr (pre0 (V c main_arg1) (V c main_arg0) (V c main_v0) (V c main_v1) (V c main_arg3)) :=
  Region0.final5 V c
theorem R0_6 (V : (c : Dev nD) → (b : Ref sig .tc) → Buf (Elt Ideal) ((c : Thread nD τ).loc b)) (c : Dev nD) : (dat0 V c).arrAt 6 cfg0.N = sumArr (pre0 (V c main_arg1) (V c main_arg0) (V c main_v0) (V c main_v1) (V c main_arg3)) :=
  Region0.final6 V c
theorem R0_7 (V : (c : Dev nD) → (b : Ref sig .tc) → Buf (Elt Ideal) ((c : Thread nD τ).loc b)) (c : Dev nD) : (dat0 V c).arrAt 7 cfg0.N = sumsqArr (pre0 (V c main_arg1) (V c main_arg0) (V c main_v0) (V c main_v1) (V c main_arg3)) :=
  Region0.final7 V c
theorem R1_5 (V : (c : Dev nD) → (b : Ref sig .tc) → Buf (Elt Ideal) ((c : Thread nD τ).loc b)) (c : Dev nD) : (dat1 V c).arrAt 5 cfg1.N = stageArr (preMid (Ci := 256) (Co := 64) (V c main_v2_0) (V c main_v13) (V c main_v16) (V c main_arg6) (V c main_arg7)) :=
  Region1.final5 V c
theorem R1_6 (V : (c : Dev nD) → (b : Ref sig .tc) → Buf (Elt Ideal) ((c : Thread nD τ).loc b)) (c : Dev nD) : (dat1 V c).arrAt 6 cfg1.N = sumArr (preMid (Ci := 256) (Co := 64) (V c main_v2_0) (V c main_v13) (V c main_v16) (V c main_arg6) (V c main_arg7)) :=
  Region1.final6 V c
theorem R1_7 (V : (c : Dev nD) → (b : Ref sig .tc) → Buf (Elt Ideal) ((c : Thread nD τ).loc b)) (c : Dev nD) : (dat1 V c).arrAt 7 cfg1.N = sumsqArr (preMid (Ci := 256) (Co := 64) (V c main_v2_0) (V c main_v13) (V c main_v16) (V c main_arg6) (V c main_arg7)) :=
  Region1.final7 V c
theorem R2_5 (V : (c : Dev nD) → (b : Ref sig .tc) → Buf (Elt Ideal) ((c : Thread nD τ).loc b)) (c : Dev nD) : (dat2 V c).arrAt 5 cfg2.N = stageArr (preMid (Ci := 64) (Co := 1) (V c main_v17_0) (V c main_v28) (V c main_v31) (V c main_arg10) (V c main_arg11)) :=
  Region2.arr5 V c
theorem R2_6 (V : (c : Dev nD) → (b : Ref sig .tc) → Buf (Elt Ideal) ((c : Thread nD τ).loc b)) (c : Dev nD) : (dat2 V c).arrAt 6 cfg2.N = sumArr (preMid (Ci := 64) (Co := 1) (V c main_v17_0) (V c main_v28) (V c main_v31) (V c main_arg10) (V c main_arg11)) :=
  Region2.arr6 V c
theorem R2_7 (V : (c : Dev nD) → (b : Ref sig .tc) → Buf (Elt Ideal) ((c : Thread nD τ).loc b)) (c : Dev nD) : (dat2 V c).arrAt 7 cfg2.N = sumsqArr (preMid (Ci := 64) (Co := 1) (V c main_v17_0) (V c main_v28) (V c main_v31) (V c main_arg10) (V c main_arg11)) :=
  Region2.arr7 V c
theorem R3 (V : (c : Dev nD) → (b : Ref sig .tc) → Buf (Elt Ideal) ((c : Thread nD τ).loc b)) (c : Dev nD) : (dat3 V c).arrAt 3 cfg3.N = lastArr (V c main_v32_0) (V c main_v43) (V c main_v46) :=
  Region3.final V c

/-- What the first launch computes from its operands is the first dense layer of the specification. -/
theorem E0 (c : Dev nD) : pre0 (V1 m ρ c main_arg1) (V1 m ρ c main_arg0) (V1 m ρ c main_v0) (V1 m ρ c main_v1) (V1 m ρ c main_arg3) = x0K (inputsOf (a0 m c) (a1 m c) (a2 m c) (a3 m c) (a4 m c) (a5 m c) (a6 m c) (a7 m c) (a8 m c) (a9 m c) (a10 m c) (a11 m c) (a12 m c) (a13 m c)) :=
  FoldEnds.pre0_entry m ρ c

/-- The specification's inputs: the fourteen argument arrays as launched, by coordinates. -/
abbrev I (c : Dev nD) : Inputs := inputsOf (a0 m c) (a1 m c) (a2 m c) (a3 m c) (a4 m c) (a5 m c) (a6 m c) (a7 m c) (a8 m c) (a9 m c) (a10 m c) (a11 m c) (a12 m c) (a13 m c)

/-! ## After the first launch -/

theorem W2_x0 (c : Dev nD) : W2 m ρ c (Proc.devRef .tc main_v2_0) = stageArr (x0K (I m c)) :=
  ((W2_arr m ρ c 5).trans (R0_5 (V1 m ρ) c)).trans (congrArg stageArr (E0 m ρ c))
theorem W2_s1 (c : Dev nD) : W2 m ρ c (Proc.devRef .tc main_v2_1) = sumArr (x0K (I m c)) :=
  ((W2_arr m ρ c 6).trans (R0_6 (V1 m ρ) c)).trans (congrArg sumArr (E0 m ρ c))
theorem W2_s2 (c : Dev nD) : W2 m ρ c (Proc.devRef .tc main_v2_2) = sumsqArr (x0K (I m c)) :=
  ((W2_arr m ρ c 7).trans (R0_7 (V1 m ρ) c)).trans (congrArg sumsqArr (E0 m ρ c))

/-- The scale and shift the host hands the second launch are the specification's, channel by channel. -/
theorem sc1 (c : Dev nD) (k : Fin 256) : (W3_scaleOf (a4 m c) (sumArr (x0K (I m c))) (sumsqArr (x0K (I m c)))) (ix2 0 k)
    = scaleK ((I m c).g0 k) (fun p => x0K (I m c) p k) := by
  rw [W3_scaleOf_apply]; rfl
theorem sh1 (c : Dev nD) (k : Fin 256) :
    (W3_shiftOf (a5 m c) (sumArr (x0K (I m c))) (W3_scaleOf (a4 m c) (sumArr (x0K (I m c))) (sumsqArr (x0K (I m c))))) (ix2 0 k)
    = shiftK ((I m c).g0 k) ((I m c).bt0 k) (fun p => x0K (I m c) p k) := by
  rw [W3_shiftOf_apply, sc1]; rfl

/-- What the second launch computes from its operands is the second dense layer of the specification. -/
theorem E1 (c : Dev nD) : preMid (Ci := 256) (Co := 64) (V3 m ρ c main_v2_0) (V3 m ρ c main_v13) (V3 m ρ c main_v16) (V3 m ρ c main_arg6) (V3 m ρ c main_arg7)
    = x1K (I m c) := by
  have e0 : V3 m ρ c main_v2_0 = stageArr (x0K (I m c)) := (W3_main_v2_0 m ρ c).trans (W2_x0 m ρ c)
  have e1 : V3 m ρ c main_v13 = W3_scaleOf (a4 m c) (sumArr (x0K (I m c))) (sumsqArr (x0K (I m c))) := by
    rw [show V3 m ρ c main_v13 = _ from W3_scale_eq m ρ c, W2_s1 m ρ c, W2_s2 m ρ c]
  have e2 : V3 m ρ c main_v16 = W3_shiftOf (a5 m c) (sumArr (x0K (I m c))) (W3_scaleOf (a4 m c) (sumArr (x0K (I m c))) (sumsqArr (x0K (I m c)))) := by
    rw [show V3 m ρ c main_v16 = _ from W3_shift_eq m ρ c, W2_s1 m ρ c, W2_s2 m ρ c]
  have e3 : V3 m ρ c main_arg6 = a6 m c := W3_main_arg6 m ρ c
  have e4 : V3 m ρ c main_arg7 = a7 m c := W3_main_arg7 m ρ c
  rw [e0, e1, e2, e3, e4]
  funext p o
  exact preMid_stage (x0K (I m c)) (I m c).g0 (I m c).bt0 _ _ (a6 m c) (a7 m c) (sc1 m c) (sh1 m c) p o

/-! ## After the second launch -/

theorem W4_x1 (c : Dev nD) : W4 m ρ c (Proc.devRef .tc main_v17_0) = stageArr (x1K (I m c)) :=
  ((W4_arr m ρ c 5).trans (R1_5 (V3 m ρ) c)).trans (congrArg stageArr (E1 m ρ c))
theorem W4_s1 (c : Dev nD) : W4 m ρ c (Proc.devRef .tc main_v17_1) = sumArr (x1K (I m c)) :=
  ((W4_arr m ρ c 6).trans (R1_6 (V3 m ρ) c)).trans (congrArg sumArr (E1 m ρ c))
theorem W4_s2 (c : Dev nD) : W4 m ρ c (Proc.devRef .tc main_v17_2) = sumsqArr (x1K (I m c)) :=
  ((W4_arr m ρ c 7).trans (R1_7 (V3 m ρ) c)).trans (congrArg sumsqArr (E1 m ρ c))

theorem sc2 (c : Dev nD) (k : Fin 64) : (W5_scaleOf (a8 m c) (sumArr (x1K (I m c))) (sumsqArr (x1K (I m c)))) (ix2 0 k)
    = scaleK ((I m c).g1 k) (fun p => x1K (I m c) p k) := by
  rw [W5_scaleOf_apply]; rfl
theorem sh2 (c : Dev nD) (k : Fin 64) :
    (W5_shiftOf (a9 m c) (sumArr (x1K (I m c))) (W5_scaleOf (a8 m c) (sumArr (x1K (I m c))) (sumsqArr (x1K (I m c))))) (ix2 0 k)
    = shiftK ((I m c).g1 k) ((I m c).bt1 k) (fun p => x1K (I m c) p k) := by
  rw [W5_shiftOf_apply, sc2]; rfl

/-- What the third launch computes from its operands is the third dense layer of the specification. -/
theorem E2 (c : Dev nD) : preMid (Ci := 64) (Co := 1) (V5 m ρ c main_v17_0) (V5 m ρ c main_v28) (V5 m ρ c main_v31) (V5 m ρ c main_arg10) (V5 m ρ c main_arg11)
    = x2K (I m c) := by
  have e0 : V5 m ρ c main_v17_0 = stageArr (x1K (I m c)) := (W5_main_v17_0 m ρ c).trans (W4_x1 m ρ c)
  have e1 : V5 m ρ c main_v28 = W5_scaleOf (a8 m c) (sumArr (x1K (I m c))) (sumsqArr (x1K (I m c))) := by
    rw [show V5 m ρ c main_v28 = _ from W5_scale_eq m ρ c, W4_s1 m ρ c, W4_s2 m ρ c]
  have e2 : V5 m ρ c main_v31 = W5_shiftOf (a9 m c) (sumArr (x1K (I m c))) (W5_scaleOf (a8 m c) (sumArr (x1K (I m c))) (sumsqArr (x1K (I m c)))) := by
    rw [show V5 m ρ c main_v31 = _ from W5_shift_eq m ρ c, W4_s1 m ρ c, W4_s2 m ρ c]
  have e3 : V5 m ρ c main_arg10 = a10 m c := W5_main_arg10 m ρ c
  have e4 : V5 m ρ c main_arg11 = a11 m c := W5_main_arg11 m ρ c
  rw [e0, e1, e2, e3, e4]
  funext p o
  exact preMid_stage (x1K (I m c)) (I m c).g1 (I m c).bt1 _ _ (a10 m c) (a11 m c) (sc2 m c) (sh2 m c) p o

/-! ## After the third launch -/

theorem W6_x2 (c : Dev nD) : W6 m ρ c (Proc.devRef .tc main_v32_0) = stageArr (x2K (I m c)) :=
  ((W6_arr m ρ c 5).trans (R2_5 (V5 m ρ) c)).trans (congrArg stageArr (E2 m ρ c))
theorem W6_s1 (c : Dev nD) : W6 m ρ c (Proc.devRef .tc main_v32_1) = sumArr (x2K (I m c)) :=
  ((W6_arr m ρ c 6).trans (R2_6 (V5 m ρ) c)).trans (congrArg sumArr (E2 m ρ c))
theorem W6_s2 (c : Dev nD) : W6 m ρ c (Proc.devRef .tc main_v32_2) = sumsqArr (x2K (I m c)) :=
  ((W6_arr m ρ c 7).trans (R2_7 (V5 m ρ) c)).trans (congrArg sumsqArr (E2 m ρ c))

theorem sc3 (c : Dev nD) : (W7_scaleOf (a12 m c) (sumArr (x2K (I m c))) (sumsqArr (x2K (I m c)))) (ix2 0 0)
    = scaleK ((I m c).g2 0) (fun p => x2K (I m c) p 0) := by
  rw [W7_scaleOf_apply]; rfl
theorem sh3 (c : Dev nD) :
    (W7_shiftOf (a13 m c) (sumArr (x2K (I m c))) (W7_scaleOf (a12 m c) (sumArr (x2K (I m c))) (sumsqArr (x2K (I m c))))) (ix2 0 0)
    = shiftK ((I m c).g2 0) ((I m c).bt2 0) (fun p => x2K (I m c) p 0) := by
  rw [W7_shiftOf_apply, sc3]; rfl

/-- What the last launch leaves: the one-channel stage normalised and clamped. -/
theorem W8_eq (c : Dev nD) : W8 m ρ c (Proc.devRef .tc main_v47) = lastArr (stageArr (x2K (I m c))) (W7_scaleOf (a12 m c) (sumArr (x2K (I m c))) (sumsqArr (x2K (I m c))))
      (W7_shiftOf (a13 m c) (sumArr (x2K (I m c))) (W7_scaleOf (a12 m c) (sumArr (x2K (I m c))) (sumsqArr (x2K (I m c))))) := by
  have e0 : V7 m ρ c main_v32_0 = stageArr (x2K (I m c)) := (W7_main_v32_0 m ρ c).trans (W6_x2 m ρ c)
  have e1 : V7 m ρ c main_v43 = W7_scaleOf (a12 m c) (sumArr (x2K (I m c))) (sumsqArr (x2K (I m c))) := by
    rw [show V7 m ρ c main_v43 = _ from W7_scale_eq m ρ c, W6_s1 m ρ c, W6_s2 m ρ c]
  have e2 : V7 m ρ c main_v46 = W7_shiftOf (a13 m c) (sumArr (x2K (I m c))) (W7_scaleOf (a12 m c) (sumArr (x2K (I m c))) (sumsqArr (x2K (I m c)))) := by
    rw [show V7 m ρ c main_v46 = _ from W7_shift_eq m ρ c, W6_s1 m ρ c, W6_s2 m ρ c]
  rw [← e2, ← e1, ← e0]
  exact (W8_arr m ρ c 3).trans (R3 (V7 m ρ) c)

/-- The program's result buffer ends at the specification's first arrangement of the launch arrays. -/
theorem value (c : Dev nD) : W9 m ρ c (Proc.devRef .tc main_v48)
    = resultOf (outK (inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) := by
  rw [FoldEnds.result_entry_of m ρ c _ (W8_eq m ρ c)]
  show resultOf _ = resultOf (outK (I m c))
  congr 1
  funext p o
  obtain rfl : o = 0 := Subsingleton.elim _ _
  exact lastArr_stage (x2K (I m c)) (I m c).g2 (I m c).bt2 _ _ (sc3 m c) (sh3 m c) (ix4 p.1 p.2.1 p.2.2 0)

end Cert.KernelIdeal.Fold

end
-- ==== Proof.RefSums.lean ====
/-
  Sums over the rows of a [4, 32768, C] array, re-indexed by positions.

  One of the two programs flattens the pair (query row q, support row s) into a single row n = q * 128 + s.
  Every row is such a pair exactly once, so a sum over the first two axes of a [4, 32768, C] array, taken at a
  channel c, is the sum over all positions (b, q, s) of the entry (b, q * 128 + s, c). A sum over every entry
  is the same sum taken over the channels as well. Sums here are in a commutative monoid (the extended reals
  are one), so no finiteness is needed.
-/
import Idealize.ShloMosaic.PureOps.Ideal.Laws
import Idealize.ShloMosaic.Lib.ValueIdx

noncomputable section

open scoped BigOperators

namespace Cert.ReferenceIdeal.RefSums

open Idealize.ShloMosaic Idealize.ShloMosaic.ValueIdx

/-- The flat row of the pair (q, s): q * 128 + s. -/
def rowOf (q : Fin 256) (s : Fin 128) : Fin 32768 := ⟨q.val * 128 + s.val, by omega⟩

theorem rowOf_val (q : Fin 256) (s : Fin 128) : (rowOf q s).val = q.val * 128 + s.val := rfl

/-- Every flat row is exactly one pair. -/
def rowEquiv : Fin 256 × Fin 128 ≃ Fin 32768 where
  toFun p := rowOf p.1 p.2
  invFun n := (⟨n.val / 128, by omega⟩, ⟨n.val % 128, Nat.mod_lt _ (by decide)⟩)
  left_inv p := by
    obtain ⟨q, s⟩ := p
    refine Prod.ext (Fin.ext ?_) (Fin.ext ?_)
    · show (q.val * 128 + s.val) / 128 = q.val
      omega
    · show (q.val * 128 + s.val) % 128 = s.val
      omega
  right_inv n := by
    refine Fin.ext ?_
    show n.val / 128 * 128 + n.val % 128 = n.val
    omega

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of every entry of a [4, 32768, C] array, by positions and channels. -/
theorem sum_rows {M : Type*} [AddCommMonoid M] {C : Nat} (f : (⟨3, ![4, 32768, C]⟩ : Shape).Idx → M) :
    ∑ i, f i = ∑ p : Fin 4 × Fin 256 × Fin 128, ∑ c : Fin C, f (ix3 p.1 (rowOf p.2.1 p.2.2) c) := by
  rw [sum_idx3, Fintype.sum_prod_type]
  refine Finset.sum_congr rfl fun b _ => ?_
  rw [← Equiv.sum_comp rowEquiv]
  rfl

/-- Dropping the first two coordinates of (b, n, c') leaves the channel c'. -/
theorem drop_rows_eq_iff {C : Nat} (h' : (⟨3, ![4, 32768, C]⟩ : Shape).ReducesTo [0, 1] ⟨1, ![C]⟩)
    (b : Fin 4) (n : Fin 32768) (c' c : Fin C) : h'.drop (ix3 b n c') = ix1 c ↔ c' = c := by
  have hv : (h'.drop (ix3 b n c') 0 : Nat) = c'.val := rfl
  constructor
  · intro h
    have h0 := congrArg (fun j => (j 0 : Nat)) h
    exact Fin.ext (hv.symm.trans h0)
  · rintro rfl
    funext d
    match d with
    | ⟨0, _⟩ => exact Fin.ext hv

/-- The host's sum over the first two axes of a [4, 32768, C] array, read at channel c: the initial value plus
    the sum over all positions of the entry (b, q * 128 + s, c). -/
theorem hostReduceAdd_rows {C : Nat} (h' : (⟨3, ![4, 32768, C]⟩ : Shape).ReducesTo [0, 1] ⟨1, ![C]⟩)
    (x : (⟨3, ![4, 32768, C]⟩ : Shape).Idx → EReal) (init : EReal) (c : Fin C) :
    Ideal.hostReduceAdd h' x init (ix1 c)
      = init + ∑ p : Fin 4 × Fin 256 × Fin 128, x (ix3 p.1 (rowOf p.2.1 p.2.2) c) := by
  unfold Ideal.hostReduceAdd
  refine congrArg (init + ·) ?_
  rw [Finset.sum_filter, sum_rows]
  refine Finset.sum_congr rfl fun p _ => ?_
  simp only [drop_rows_eq_iff]
  exact Finset.sum_ite_eq' Finset.univ c _ |>.trans (if_pos (Finset.mem_univ c))

/-- The sum of every entry of a [4, 32768, 1] array is the sum over all positions of its one channel. -/
theorem sum_rows_one {M : Type*} [AddCommMonoid M] (f : (⟨3, ![4, 32768, 1]⟩ : Shape).Idx → M) :
    ∑ i, f i = ∑ p : Fin 4 × Fin 256 × Fin 128, f (ix3 p.1 (rowOf p.2.1 p.2.2) 0) := by
  rw [sum_rows]
  refine Finset.sum_congr rfl fun p _ => ?_
  exact Fin.sum_univ_one _

end Cert.ReferenceIdeal.RefSums

end
-- ==== Proof.RefValue0.lean ====
/-
  The first layer of the plain program, read entry by entry.

  The plain program builds, for every pair (query row q, support row s) of a batch b, the row
  [query row ; support row] of 512 channels, lays the pairs out as rows n = q * 128 + s of a
  [4, 32768, 512] array, multiplies by the first weight and adds the bias. Read at the entry
  (b, q * 128 + s, o) this is the specification's first pre-activation at position (b, q, s) and channel o.
  The channel's mean and variance are sums over the first two axes, that is over all positions; the
  normalised, clamped value is the specification's first activation.
-/
import proofs.«104936_j50861002719650_1_alg».proof.Proof.RefRead
import proofs.«104936_j50861002719650_1_alg».proof.Proof.SpecIO
import proofs.«104936_j50861002719650_1_alg».proof.Proof.RefSums

noncomputable section

open scoped BigOperators

namespace Cert.ReferenceIdeal.RefValue

open Cert.ReferenceIdeal Cert.ReferenceIdeal.Gen Cert.ReferenceIdeal.ReadP Cert.ReferenceIdeal.RefSums
open Idealize.ShloMosaic Idealize.ShloMosaic.ValueIdx Cert.SpecIO

variable (a0 : (⟨S4x128x256, .f32⟩ : BufTy).Contents (Elt Ideal)) (a1 : (⟨S4x256x256, .f32⟩ : BufTy).Contents (Elt Ideal))
  (a2 : (⟨S256x512, .f32⟩ : BufTy).Contents (Elt Ideal)) (a3 a4 a5 : (⟨S256, .f32⟩ : BufTy).Contents (Elt Ideal))
  (a6 : (⟨S64x256, .f32⟩ : BufTy).Contents (Elt Ideal)) (a7 a8 a9 : (⟨S64, .f32⟩ : BufTy).Contents (Elt Ideal))
  (a10 : (⟨S1x64, .f32⟩ : BufTy).Contents (Elt Ideal)) (a11 a12 a13 : (⟨S1, .f32⟩ : BufTy).Contents (Elt Ideal))

/-- The fourteen argument arrays by coordinates. -/
local notation "𝓘" => inputsOf a0 a1 a2 a3 a4 a5 a6 a7 a8 a9 a10 a11 a12 a13

/-! ## The concatenated row -/

/-- The joined array at (b, q, s, k): the query row's channel k below 256, the support row's channel k - 256 from
    256 on. -/
theorem joined_eq (b : Fin 4) (q : Fin 256) (s : Fin 128) (k : Fin 512) :
    val_main_v4 (F := Ideal) a0 a1 (ix4 b q s k)
      = Spec.cat (fun k' => a1 (ix3 b q k')) (fun k' => a0 (ix3 b s k')) k := by
  unfold val_main_v4 Spec.cat
  by_cases hk : k.val < 256
  · rw [dif_pos hk]
    refine (concatenate_pair_apply_left 3 _ _ concatenates_S4x256x128x256_S4x256x128x256_S4x256x128x512_d3
      (ix4 b q s k) rfl (ix4 b q s ⟨k.val, hk⟩) (fun c => by
        match c with
        | ⟨0, _⟩ => rfl
        | ⟨1, _⟩ => rfl
        | ⟨2, _⟩ => rfl
        | ⟨3, _⟩ => rfl)).trans ?_
    rw [val_main_v1_apply, val_main_v0_apply]
    exact congrArg a1 (funext fun c => match c with
      | ⟨0, _⟩ => rfl
      | ⟨1, _⟩ => rfl
      | ⟨2, _⟩ => rfl)
  · rw [dif_neg hk]
    have hk' : k.val - 256 < 256 := by have := k.isLt; omega
    refine (concatenate_pair_apply_right 3 _ _ concatenates_S4x256x128x256_S4x256x128x256_S4x256x128x512_d3
      (ix4 b q s k) rfl rfl (ix4 b q s ⟨k.val - 256, hk'⟩) (fun c hc => by
        match c with
        | ⟨0, _⟩ => rfl
        | ⟨1, _⟩ => rfl
        | ⟨2, _⟩ => rfl
        | ⟨3, _⟩ => exact absurd rfl hc) ?_).trans ?_
    · show (k.val - 256) + 256 = k.val
      omega
    · rw [val_main_v3_apply, val_main_v2_apply]
      exact congrArg a0 (funext fun c => match c with
        | ⟨0, _⟩ => rfl
        | ⟨1, _⟩ => rfl
        | ⟨2, _⟩ => rfl)

/-- Row n = q * 128 + s, channel k of the flattened array is entry (b, q, s, k) of the joined one. -/
theorem flat_idx (b : Fin 4) (q : Fin 256) (s : Fin 128) (o : Fin 256) (k : Fin 512) :
    idx_main_v5 (lidx_main_v6 (ix3 b (rowOf q s) o) k) = ix4 b q s k :=
  funext fun c => Fin.ext (by
    have hb := b.isLt; have hq := q.isLt; have hs := s.isLt; have hk := k.isLt
    match c with
    | ⟨0, _⟩ =>
      show ((b.val * 32768 + (q.val * 128 + s.val)) * 512 + k.val) / 16777216 = b.val
      omega
    | ⟨1, _⟩ =>
      show ((b.val * 32768 + (q.val * 128 + s.val)) * 512 + k.val) / 65536 % 256 = q.val
      omega
    | ⟨2, _⟩ =>
      show ((b.val * 32768 + (q.val * 128 + s.val)) * 512 + k.val) / 512 % 128 = s.val
      omega
    | ⟨3, _⟩ =>
      show ((b.val * 32768 + (q.val * 128 + s.val)) * 512 + k.val) % 512 = k.val
      omega)

/-! ## The first pre-activation -/

/-- Entry (b, q * 128 + s, o) of the first pre-activation is the specification's, at position (b, q, s). -/
theorem pre0_eq (b : Fin 4) (q : Fin 256) (s : Fin 128) (o : Fin 256) :
    val_main_v9 (F := Ideal) a0 a1 a2 a3 (ix3 b (rowOf q s) o) = Spec.x0R 𝓘 (b, q, s) o := by
  have eb : idx_main_v7 (idx_main_v8 (ix3 b (rowOf q s) o)) = ix1 o :=
    funext fun c => match c with | ⟨0, _⟩ => rfl
  rw [val_main_v9_apply, Ideal.addf_def, val_main_v6_apply, val_main_v8_apply, val_main_v7_apply, eb]
  unfold Spec.x0R Spec.dense
  refine congrArg₂ (· + ·) (Finset.sum_congr rfl fun k _ => ?_) rfl
  have er : ridx_main_v6 (ix3 b (rowOf q s) o) k = ix2 o k :=
    funext fun c => match c with | ⟨0, _⟩ => rfl | ⟨1, _⟩ => rfl
  rw [val_main_v5_apply, flat_idx, er, joined_eq]
  rfl

/-! ## The two sums over all positions -/

/-- The sum of the first pre-activation over the first two axes, at channel o: the sum over all positions. -/
theorem sum0_eq (o : Fin 256) :
    val_main_v10 (F := Ideal) a0 a1 a2 a3 (ix1 o)
      = ∑ p : Spec.Pos, val_main_v9 (F := Ideal) a0 a1 a2 a3 (ix3 p.1 (rowOf p.2.1 p.2.2) o) := by
  unfold val_main_v10
  generalize val_main_v9 (F := Ideal) a0 a1 a2 a3 = y
  simp only [Host.reduceAdd, Ideal.hostReduceAdd_def]
  refine (hostReduceAdd_rows reducesTo_S4x32768x256_S256_d0_1 y _ o).trans ?_
  rw [val_main_cst_apply, Ideal.ofBits_def, Ideal.ofBits_zero_f32, zero_add]

/-- The sum of the squared deviations over the first two axes, at channel o: the sum over all positions. -/
theorem sumsq0_eq (o : Fin 256) :
    val_main_v17 (F := Ideal) a0 a1 a2 a3 (ix1 o)
      = ∑ p : Spec.Pos, val_main_v16 (F := Ideal) a0 a1 a2 a3 (ix3 p.1 (rowOf p.2.1 p.2.2) o) := by
  unfold val_main_v17
  generalize val_main_v16 (F := Ideal) a0 a1 a2 a3 = y
  simp only [Host.reduceAdd, Ideal.hostReduceAdd_def]
  refine (hostReduceAdd_rows reducesTo_S4x32768x256_S256_d0_1 y _ o).trans ?_
  rw [val_main_cst_1_apply, Ideal.ofBits_def, Ideal.ofBits_zero_f32, zero_add]

/-! ## Mean, variance, activation -/

/-- The channel's mean is the specification's mean of the first pre-activation. -/
theorem mean0_eq (o : Fin 256) :
    val_main_v12 (F := Ideal) a0 a1 a2 a3 (ix1 o) = Spec.mean (fun p => Spec.x0R 𝓘 p o) := by
  rw [val_main_v12_apply, Ideal.hostDivf_def, sum0_eq, val_main_v11_apply, val_main_cst_0_apply, Ideal.ofBits_def]
  unfold Spec.mean
  refine congrArg (Ideal.div · Spec.nN) (Finset.sum_congr rfl fun p _ => ?_)
  exact pre0_eq a0 a1 a2 a3 a4 a5 a6 a7 a8 a9 a10 a11 a12 a13 p.1 p.2.1 p.2.2 o

/-- The channel's variance is the specification's mean of squared deviations. -/
theorem var0_eq (o : Fin 256) :
    val_main_v19 (F := Ideal) a0 a1 a2 a3 (ix1 o) = Spec.varR (fun p => Spec.x0R 𝓘 p o) := by
  rw [val_main_v19_apply, Ideal.hostDivf_def, sumsq0_eq, val_main_v18_apply, val_main_cst_2_apply, Ideal.ofBits_def]
  unfold Spec.varR
  refine congrArg (Ideal.div · Spec.nN) (Finset.sum_congr rfl fun p _ => ?_)
  have em : idx_main_v13 (idx_main_v14 (ix3 p.1 (rowOf p.2.1 p.2.2) o)) = ix1 o :=
    funext fun c => match c with | ⟨0, _⟩ => rfl
  rw [val_main_v16_apply, val_main_v15_apply, pre0_eq a0 a1 a2 a3 a4 a5 a6 a7 a8 a9 a10 a11 a12 a13, val_main_v14_apply, val_main_v13_apply, em,
    mean0_eq a0 a1 a2 a3 a4 a5 a6 a7 a8 a9 a10 a11 a12 a13]
  rfl

/-- Entry (b, q * 128 + s, o) of the first activation is the specification's, at position (b, q, s). -/
theorem act0_eq (b : Fin 4) (q : Fin 256) (s : Fin 128) (o : Fin 256) :
    val_main_v33 (F := Ideal) a0 a1 a2 a3 a4 a5 (ix3 b (rowOf q s) o) = Spec.h0R 𝓘 (b, q, s) o := by
  have em : idx_main_v20 (idx_main_v21 (ix3 b (rowOf q s) o)) = ix1 o :=
    funext fun c => match c with | ⟨0, _⟩ => rfl
  have eg : idx_main_v27 (idx_main_v28 (ix3 b (rowOf q s) o)) = ix1 o :=
    funext fun c => match c with | ⟨0, _⟩ => rfl
  have et : idx_main_v30 (idx_main_v31 (ix3 b (rowOf q s) o)) = ix1 o :=
    funext fun c => match c with | ⟨0, _⟩ => rfl
  rw [val_main_v33_apply, val_main_call0_v0_apply, val_main_call0_cst_apply, Ideal.ofBits_def, Ideal.ofBits_zero_f32,
    val_main_v32_apply, val_main_v29_apply, val_main_v22_apply, pre0_eq a0 a1 a2 a3 a4 a5 a6 a7 a8 a9 a10 a11 a12 a13,
    val_main_v21_apply, val_main_v20_apply, em, mean0_eq a0 a1 a2 a3 a4 a5 a6 a7 a8 a9 a10 a11 a12 a13,
    val_main_v28_apply, val_main_v27_apply, eg, val_main_v26_apply, val_main_v25_apply, val_main_v24_apply,
    var0_eq a0 a1 a2 a3 a4 a5 a6 a7 a8 a9 a10 a11 a12 a13, val_main_v23_apply, val_main_cst_3_apply, Ideal.ofBits_def,
    val_main_v31_apply, val_main_v30_apply, et]
  rfl

end Cert.ReferenceIdeal.RefValue

end
-- ==== Proof.RefValue1.lean ====
/-
  The second layer of the plain program, read entry by entry.

  The second pre-activation at row n = q * 128 + s is the product of the first activation's row with the second
  weight, plus the bias: the specification's second pre-activation at position (b, q, s). Its mean and variance
  are again sums over all positions, and the normalised, clamped value is the specification's second activation.
-/
import proofs.«104936_j50861002719650_1_alg».proof.Proof.RefRead
import proofs.«104936_j50861002719650_1_alg».proof.Proof.SpecIO
import proofs.«104936_j50861002719650_1_alg».proof.Proof.RefSums
import proofs.«104936_j50861002719650_1_alg».proof.Proof.RefValue0

noncomputable section

open scoped BigOperators

namespace Cert.ReferenceIdeal.RefValue

open Cert.ReferenceIdeal Cert.ReferenceIdeal.Gen Cert.ReferenceIdeal.ReadP Cert.ReferenceIdeal.RefSums
open Idealize.ShloMosaic Idealize.ShloMosaic.ValueIdx Cert.SpecIO

variable (a0 : (⟨S4x128x256, .f32⟩ : BufTy).Contents (Elt Ideal)) (a1 : (⟨S4x256x256, .f32⟩ : BufTy).Contents (Elt Ideal))
  (a2 : (⟨S256x512, .f32⟩ : BufTy).Contents (Elt Ideal)) (a3 a4 a5 : (⟨S256, .f32⟩ : BufTy).Contents (Elt Ideal))
  (a6 : (⟨S64x256, .f32⟩ : BufTy).Contents (Elt Ideal)) (a7 a8 a9 : (⟨S64, .f32⟩ : BufTy).Contents (Elt Ideal))
  (a10 : (⟨S1x64, .f32⟩ : BufTy).Contents (Elt Ideal)) (a11 a12 a13 : (⟨S1, .f32⟩ : BufTy).Contents (Elt Ideal))

/-- The fourteen argument arrays by coordinates. -/
local notation "𝓘" => inputsOf a0 a1 a2 a3 a4 a5 a6 a7 a8 a9 a10 a11 a12 a13

/-! ## The second pre-activation -/

/-- Entry (b, q * 128 + s, o) of the second pre-activation is the specification's, at position (b, q, s). -/
theorem pre1_eq (b : Fin 4) (q : Fin 256) (s : Fin 128) (o : Fin 64) :
    val_main_v37 (F := Ideal) a0 a1 a2 a3 a4 a5 a6 a7 (ix3 b (rowOf q s) o) = Spec.x1R 𝓘 (b, q, s) o := by
  have eb : idx_main_v35 (idx_main_v36 (ix3 b (rowOf q s) o)) = ix1 o :=
    funext fun c => match c with | ⟨0, _⟩ => rfl
  rw [val_main_v37_apply, Ideal.addf_def, val_main_v34_apply, val_main_v36_apply, val_main_v35_apply, eb]
  unfold Spec.x1R Spec.dense
  refine congrArg₂ (· + ·) (Finset.sum_congr rfl fun k _ => ?_) rfl
  have el : lidx_main_v34 (ix3 b (rowOf q s) o) k = ix3 b (rowOf q s) k :=
    funext fun c => match c with | ⟨0, _⟩ => rfl | ⟨1, _⟩ => rfl | ⟨2, _⟩ => rfl
  have er : ridx_main_v34 (ix3 b (rowOf q s) o) k = ix2 o k :=
    funext fun c => match c with | ⟨0, _⟩ => rfl | ⟨1, _⟩ => rfl
  rw [el, er, act0_eq a0 a1 a2 a3 a4 a5 a6 a7 a8 a9 a10 a11 a12 a13]
  rfl

/-! ## The two sums over all positions -/

/-- The sum of the second pre-activation over the first two axes, at channel o: the sum over all positions. -/
theorem sum1_eq (o : Fin 64) :
    val_main_v38 (F := Ideal) a0 a1 a2 a3 a4 a5 a6 a7 (ix1 o)
      = ∑ p : Spec.Pos, val_main_v37 (F := Ideal) a0 a1 a2 a3 a4 a5 a6 a7 (ix3 p.1 (rowOf p.2.1 p.2.2) o) := by
  unfold val_main_v38
  generalize val_main_v37 (F := Ideal) a0 a1 a2 a3 a4 a5 a6 a7 = y
  simp only [Host.reduceAdd, Ideal.hostReduceAdd_def]
  refine (hostReduceAdd_rows reducesTo_S4x32768x64_S64_d0_1 y _ o).trans ?_
  rw [val_main_cst_4_apply, Ideal.ofBits_def, Ideal.ofBits_zero_f32, zero_add]

/-- The sum of the squared deviations over the first two axes, at channel o: the sum over all positions. -/
theorem sumsq1_eq (o : Fin 64) :
    val_main_v45 (F := Ideal) a0 a1 a2 a3 a4 a5 a6 a7 (ix1 o)
      = ∑ p : Spec.Pos, val_main_v44 (F := Ideal) a0 a1 a2 a3 a4 a5 a6 a7 (ix3 p.1 (rowOf p.2.1 p.2.2) o) := by
  unfold val_main_v45
  generalize val_main_v44 (F := Ideal) a0 a1 a2 a3 a4 a5 a6 a7 = y
  simp only [Host.reduceAdd, Ideal.hostReduceAdd_def]
  refine (hostReduceAdd_rows reducesTo_S4x32768x64_S64_d0_1 y _ o).trans ?_
  rw [val_main_cst_6_apply, Ideal.ofBits_def, Ideal.ofBits_zero_f32, zero_add]

/-! ## Mean, variance, activation -/

/-- The channel's mean is the specification's mean of the second pre-activation. -/
theorem mean1_eq (o : Fin 64) :
    val_main_v40 (F := Ideal) a0 a1 a2 a3 a4 a5 a6 a7 (ix1 o) = Spec.mean (fun p => Spec.x1R 𝓘 p o) := by
  rw [val_main_v40_apply, Ideal.hostDivf_def, sum1_eq, val_main_v39_apply, val_main_cst_5_apply, Ideal.ofBits_def]
  unfold Spec.mean
  refine congrArg (Ideal.div · Spec.nN) (Finset.sum_congr rfl fun p _ => ?_)
  exact pre1_eq a0 a1 a2 a3 a4 a5 a6 a7 a8 a9 a10 a11 a12 a13 p.1 p.2.1 p.2.2 o

/-- The channel's variance is the specification's mean of squared deviations. -/
theorem var1_eq (o : Fin 64) :
    val_main_v47 (F := Ideal) a0 a1 a2 a3 a4 a5 a6 a7 (ix1 o) = Spec.varR (fun p => Spec.x1R 𝓘 p o) := by
  rw [val_main_v47_apply, Ideal.hostDivf_def, sumsq1_eq, val_main_v46_apply, val_main_cst_7_apply, Ideal.ofBits_def]
  unfold Spec.varR
  refine congrArg (Ideal.div · Spec.nN) (Finset.sum_congr rfl fun p _ => ?_)
  have em : idx_main_v41 (idx_main_v42 (ix3 p.1 (rowOf p.2.1 p.2.2) o)) = ix1 o :=
    funext fun c => match c with | ⟨0, _⟩ => rfl
  rw [val_main_v44_apply, val_main_v43_apply, pre1_eq a0 a1 a2 a3 a4 a5 a6 a7 a8 a9 a10 a11 a12 a13, val_main_v42_apply, val_main_v41_apply, em,
    mean1_eq a0 a1 a2 a3 a4 a5 a6 a7 a8 a9 a10 a11 a12 a13]
  rfl

/-- Entry (b, q * 128 + s, o) of the second activation is the specification's, at position (b, q, s). -/
theorem act1_eq (b : Fin 4) (q : Fin 256) (s : Fin 128) (o : Fin 64) :
    val_main_v61 (F := Ideal) a0 a1 a2 a3 a4 a5 a6 a7 a8 a9 (ix3 b (rowOf q s) o) = Spec.h1R 𝓘 (b, q, s) o := by
  have em : idx_main_v48 (idx_main_v49 (ix3 b (rowOf q s) o)) = ix1 o :=
    funext fun c => match c with | ⟨0, _⟩ => rfl
  have eg : idx_main_v55 (idx_main_v56 (ix3 b (rowOf q s) o)) = ix1 o :=
    funext fun c => match c with | ⟨0, _⟩ => rfl
  have et : idx_main_v58 (idx_main_v59 (ix3 b (rowOf q s) o)) = ix1 o :=
    funext fun c => match c with | ⟨0, _⟩ => rfl
  rw [val_main_v61_apply, val_main_call1_v0_apply, val_main_call1_cst_apply, Ideal.ofBits_def, Ideal.ofBits_zero_f32,
    val_main_v60_apply, val_main_v57_apply, val_main_v50_apply, pre1_eq a0 a1 a2 a3 a4 a5 a6 a7 a8 a9 a10 a11 a12 a13,
    val_main_v49_apply, val_main_v48_apply, em, mean1_eq a0 a1 a2 a3 a4 a5 a6 a7 a8 a9 a10 a11 a12 a13,
    val_main_v56_apply, val_main_v55_apply, eg, val_main_v54_apply, val_main_v53_apply, val_main_v52_apply,
    var1_eq a0 a1 a2 a3 a4 a5 a6 a7 a8 a9 a10 a11 a12 a13, val_main_v51_apply, val_main_cst_8_apply, Ideal.ofBits_def,
    val_main_v59_apply, val_main_v58_apply, et]
  rfl

end Cert.ReferenceIdeal.RefValue

end
-- ==== Proof.RefValue2.lean ====
/-
  The third layer of the plain program and its result, read entry by entry.

  The third pre-activation has one channel. Its mean and variance are sums over all positions; the normalised,
  clamped value is the specification's output at position (b, q, s). The program finally moves the channel axis
  in front of the rows and splits each row n = q * 128 + s back into (q, s): entry (b, o, q, s) of the result is
  the output at position (b, q, s) and channel o.
-/
import proofs.«104936_j50861002719650_1_alg».proof.Proof.RefRead
import proofs.«104936_j50861002719650_1_alg».proof.Proof.SpecIO
import proofs.«104936_j50861002719650_1_alg».proof.Proof.RefSums
import proofs.«104936_j50861002719650_1_alg».proof.Proof.RefValue1

noncomputable section

open scoped BigOperators

namespace Cert.ReferenceIdeal.RefValue

open Cert.ReferenceIdeal Cert.ReferenceIdeal.Gen Cert.ReferenceIdeal.ReadP Cert.ReferenceIdeal.RefSums
open Idealize.ShloMosaic Idealize.ShloMosaic.ValueIdx Cert.SpecIO

variable (a0 : (⟨S4x128x256, .f32⟩ : BufTy).Contents (Elt Ideal)) (a1 : (⟨S4x256x256, .f32⟩ : BufTy).Contents (Elt Ideal))
  (a2 : (⟨S256x512, .f32⟩ : BufTy).Contents (Elt Ideal)) (a3 a4 a5 : (⟨S256, .f32⟩ : BufTy).Contents (Elt Ideal))
  (a6 : (⟨S64x256, .f32⟩ : BufTy).Contents (Elt Ideal)) (a7 a8 a9 : (⟨S64, .f32⟩ : BufTy).Contents (Elt Ideal))
  (a10 : (⟨S1x64, .f32⟩ : BufTy).Contents (Elt Ideal)) (a11 a12 a13 : (⟨S1, .f32⟩ : BufTy).Contents (Elt Ideal))

/-- The fourteen argument arrays by coordinates. -/
local notation "𝓘" => inputsOf a0 a1 a2 a3 a4 a5 a6 a7 a8 a9 a10 a11 a12 a13

/-! ## The third pre-activation -/

/-- Entry (b, q * 128 + s, o) of the third pre-activation is the specification's, at position (b, q, s). -/
theorem pre2_eq (b : Fin 4) (q : Fin 256) (s : Fin 128) (o : Fin 1) :
    val_main_v65 (F := Ideal) a0 a1 a2 a3 a4 a5 a6 a7 a8 a9 a10 a11 (ix3 b (rowOf q s) o) = Spec.x2R 𝓘 (b, q, s) o := by
  have eb : idx_main_v63 (idx_main_v64 (ix3 b (rowOf q s) o)) = ix1 o :=
    funext fun c => match c with | ⟨0, _⟩ => Fin.ext (by have := o.isLt; show 0 = o.val; omega)
  rw [val_main_v65_apply, Ideal.addf_def, val_main_v62_apply, val_main_v64_apply, val_main_v63_apply, eb]
  unfold Spec.x2R Spec.dense
  refine congrArg₂ (· + ·) (Finset.sum_congr rfl fun k _ => ?_) rfl
  have el : lidx_main_v62 (ix3 b (rowOf q s) o) k = ix3 b (rowOf q s) k :=
    funext fun c => match c with | ⟨0, _⟩ => rfl | ⟨1, _⟩ => rfl | ⟨2, _⟩ => rfl
  have er : ridx_main_v62 (ix3 b (rowOf q s) o) k = ix2 o k :=
    funext fun c => match c with | ⟨0, _⟩ => rfl | ⟨1, _⟩ => rfl
  rw [el, er, act1_eq a0 a1 a2 a3 a4 a5 a6 a7 a8 a9 a10 a11 a12 a13]
  rfl

/-! ## The two sums over all positions -/

/-- The sum of the third pre-activation over the first two axes: the sum over all positions. -/
theorem sum2_eq (o : Fin 1) :
    val_main_v66 (F := Ideal) a0 a1 a2 a3 a4 a5 a6 a7 a8 a9 a10 a11 (ix1 o)
      = ∑ p : Spec.Pos, val_main_v65 (F := Ideal) a0 a1 a2 a3 a4 a5 a6 a7 a8 a9 a10 a11 (ix3 p.1 (rowOf p.2.1 p.2.2) o) := by
  unfold val_main_v66
  generalize val_main_v65 (F := Ideal) a0 a1 a2 a3 a4 a5 a6 a7 a8 a9 a10 a11 = y
  simp only [Host.reduceAdd, Ideal.hostReduceAdd_def]
  refine (hostReduceAdd_rows reducesTo_S4x32768x1_S1_d0_1 y _ o).trans ?_
  rw [val_main_cst_9_apply, Ideal.ofBits_def, Ideal.ofBits_zero_f32, zero_add]

/-- The sum of the squared deviations over the first two axes: the sum over all positions. -/
theorem sumsq2_eq (o : Fin 1) :
    val_main_v73 (F := Ideal) a0 a1 a2 a3 a4 a5 a6 a7 a8 a9 a10 a11 (ix1 o)
      = ∑ p : Spec.Pos, val_main_v72 (F := Ideal) a0 a1 a2 a3 a4 a5 a6 a7 a8 a9 a10 a11 (ix3 p.1 (rowOf p.2.1 p.2.2) o) := by
  unfold val_main_v73
  generalize val_main_v72 (F := Ideal) a0 a1 a2 a3 a4 a5 a6 a7 a8 a9 a10 a11 = y
  simp only [Host.reduceAdd, Ideal.hostReduceAdd_def]
  refine (hostReduceAdd_rows reducesTo_S4x32768x1_S1_d0_1 y _ o).trans ?_
  rw [val_main_cst_11_apply, Ideal.ofBits_def, Ideal.ofBits_zero_f32, zero_add]

/-! ## Mean, variance, output -/

/-- The channel's mean is the specification's mean of the third pre-activation. -/
theorem mean2_eq (o : Fin 1) :
    val_main_v68 (F := Ideal) a0 a1 a2 a3 a4 a5 a6 a7 a8 a9 a10 a11 (ix1 o) = Spec.mean (fun p => Spec.x2R 𝓘 p o) := by
  rw [val_main_v68_apply, Ideal.hostDivf_def, sum2_eq, val_main_v67_apply, val_main_cst_10_apply, Ideal.ofBits_def]
  unfold Spec.mean
  refine congrArg (Ideal.div · Spec.nN) (Finset.sum_congr rfl fun p _ => ?_)
  exact pre2_eq a0 a1 a2 a3 a4 a5 a6 a7 a8 a9 a10 a11 a12 a13 p.1 p.2.1 p.2.2 o

/-- The channel's variance is the specification's mean of squared deviations. -/
theorem var2_eq (o : Fin 1) :
    val_main_v75 (F := Ideal) a0 a1 a2 a3 a4 a5 a6 a7 a8 a9 a10 a11 (ix1 o) = Spec.varR (fun p => Spec.x2R 𝓘 p o) := by
  rw [val_main_v75_apply, Ideal.hostDivf_def, sumsq2_eq, val_main_v74_apply, val_main_cst_12_apply, Ideal.ofBits_def]
  unfold Spec.varR
  refine congrArg (Ideal.div · Spec.nN) (Finset.sum_congr rfl fun p _ => ?_)
  have em : idx_main_v69 (idx_main_v70 (ix3 p.1 (rowOf p.2.1 p.2.2) o)) = ix1 o :=
    funext fun c => match c with | ⟨0, _⟩ => Fin.ext (by have := o.isLt; show 0 = o.val; omega)
  rw [val_main_v72_apply, val_main_v71_apply, pre2_eq a0 a1 a2 a3 a4 a5 a6 a7 a8 a9 a10 a11 a12 a13, val_main_v70_apply, val_main_v69_apply, em,
    mean2_eq a0 a1 a2 a3 a4 a5 a6 a7 a8 a9 a10 a11 a12 a13]
  rfl

/-- Entry (b, q * 128 + s, o) of the last activation is the specification's output, at position (b, q, s). -/
theorem act2_eq (b : Fin 4) (q : Fin 256) (s : Fin 128) (o : Fin 1) :
    val_main_v89 (F := Ideal) a0 a1 a2 a3 a4 a5 a6 a7 a8 a9 a10 a11 a12 a13 (ix3 b (rowOf q s) o) = Spec.outR 𝓘 (b, q, s) o := by
  have em : idx_main_v76 (idx_main_v77 (ix3 b (rowOf q s) o)) = ix1 o :=
    funext fun c => match c with | ⟨0, _⟩ => Fin.ext (by have := o.isLt; show 0 = o.val; omega)
  have eg : idx_main_v83 (idx_main_v84 (ix3 b (rowOf q s) o)) = ix1 o :=
    funext fun c => match c with | ⟨0, _⟩ => Fin.ext (by have := o.isLt; show 0 = o.val; omega)
  have et : idx_main_v86 (idx_main_v87 (ix3 b (rowOf q s) o)) = ix1 o :=
    funext fun c => match c with | ⟨0, _⟩ => Fin.ext (by have := o.isLt; show 0 = o.val; omega)
  rw [val_main_v89_apply, val_main_call2_v0_apply, val_main_call2_cst_apply, Ideal.ofBits_def, Ideal.ofBits_zero_f32,
    val_main_v88_apply, val_main_v85_apply, val_main_v78_apply, pre2_eq a0 a1 a2 a3 a4 a5 a6 a7 a8 a9 a10 a11 a12 a13,
    val_main_v77_apply, val_main_v76_apply, em, mean2_eq a0 a1 a2 a3 a4 a5 a6 a7 a8 a9 a10 a11 a12 a13,
    val_main_v84_apply, val_main_v83_apply, eg, val_main_v82_apply, val_main_v81_apply, val_main_v80_apply,
    var2_eq a0 a1 a2 a3 a4 a5 a6 a7 a8 a9 a10 a11 a12 a13, val_main_v79_apply, val_main_cst_13_apply, Ideal.ofBits_def,
    val_main_v87_apply, val_main_v86_apply, et]
  rfl

/-! ## The result -/

/-- The plain program's result array is the specification's output, laid out over (b, o, q, s). -/
theorem result_eq :
    val_main_v91 (F := Ideal) a0 a1 a2 a3 a4 a5 a6 a7 a8 a9 a10 a11 a12 a13 = resultOf (Spec.outR 𝓘) := by
  funext i
  have e : idx_main_v90 (idx_main_v91 i)
      = ix3 (⟨(i 0).val, (i 0).isLt⟩ : Fin 4)
          (rowOf (⟨(i 2).val, (i 2).isLt⟩ : Fin 256) (⟨(i 3).val, (i 3).isLt⟩ : Fin 128))
          (⟨(i 1).val, (i 1).isLt⟩ : Fin 1) :=
    funext fun c => Fin.ext (by
      have h0 : (i 0).val < 4 := (i 0).isLt
      have h1 : (i 1).val < 1 := (i 1).isLt
      have h2 : (i 2).val < 256 := (i 2).isLt
      have h3 : (i 3).val < 128 := (i 3).isLt
      match c with
      | ⟨0, _⟩ =>
        show ((((i 0).val * 1 + (i 1).val) * 256 + (i 2).val) * 128 + (i 3).val) / 32768 = (i 0).val
        omega
      | ⟨1, _⟩ =>
        show ((((i 0).val * 1 + (i 1).val) * 256 + (i 2).val) * 128 + (i 3).val) % 32768
          = (i 2).val * 128 + (i 3).val
        omega
      | ⟨2, _⟩ =>
        show 0 = (i 1).val
        omega)
  rw [val_main_v91_apply, val_main_v90_apply, e, act2_eq a0 a1 a2 a3 a4 a5 a6 a7 a8 a9 a10 a11 a12 a13]
  rfl

end Cert.ReferenceIdeal.RefValue

end
-- ==== Proof.SpecAlgebra.lean ====
/-
  The two arrangements of the network in Proof/Spec.lean agree on real-valued inputs.

  All algebra is done in ℝ; in the extended reals only coercions are moved (multiplication of extended reals
  does not distribute at the infinities). For one channel with real pre-activations x over the N = 131072
  positions, with μ = (Σ x)/N:
    Σ (x - μ)² = Σ x² - 2 μ Σ x + N μ² = Σ x² - N μ²,
  so the mean of squares minus the squared mean is the mean of squared deviations, which is nonnegative; adding
  the positive offset keeps the argument of the reciprocal square root positive, hence real. Finally
    x · s + (β - μ · s) = (x - μ) · s + β.
  A dense layer of real data is real, and the first layer's two half products are one product with the
  concatenated row (split the sum over 512 channels at 256), so the layers chain.
-/
import proofs.«104936_j50861002719650_1_alg».proof.Proof.Spec
import Mathlib

noncomputable section

namespace Cert.Spec

open Idealize.ShloMosaic

namespace Alg

/-! ## The two literals -/

/-- The position count as the programs write it is the real number 131072. -/
theorem nN_eq : nN = ((131072 : ℝ) : EReal) := by
  simp [nN, Ideal.ofBits, Ideal.ieee, -EReal.coe_mul]; norm_num

/-- The variance offset as a real number: 10995116 · 2⁻⁴⁰. -/
def epsR : ℝ := 10995116 * (2 : ℝ) ^ (-40 : ℤ)

theorem epsR_pos : 0 < epsR := by unfold epsR; positivity

theorem eps_eq : eps = ((epsR : ℝ) : EReal) := by
  simp [eps, epsR, Ideal.ofBits, Ideal.ieee, -EReal.coe_mul]

/-! ## Coercion of finite sums and of max -/

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max' (a b : ℝ) : max (a : EReal) (b : EReal) = ((max a b : ℝ) : EReal) :=
  (EReal.coe_strictMono.monotone.map_max).symm

theorem card_Pos : Fintype.card Pos = 131072 := by
  simp [Pos, Fintype.card_prod, Fintype.card_fin]

/-! ## Batch-normalisation statistics over real data -/

section real
variable (xr : Pos → ℝ)

/-- the real mean -/
def meanR : ℝ := (∑ p, xr p) * (1 / 131072)
/-- the real variance, as the mean of squared deviations -/
def varRR : ℝ := (∑ p, (xr p - meanR xr) * (xr p - meanR xr)) * (1 / 131072)

theorem varRR_nonneg : 0 ≤ varRR xr := by
  unfold varRR
  exact mul_nonneg (Finset.sum_nonneg fun p _ => mul_self_nonneg _) (by norm_num)

/-- mean of squares minus squared mean is the mean of squared deviations -/
theorem varK_real_eq :
    (∑ p, xr p * xr p) * (1 / 131072) - meanR xr * meanR xr = varRR xr := by
  have hcard : ((Finset.univ : Finset Pos).card : ℝ) = 131072 := by
    rw [Finset.card_univ, card_Pos]; norm_num
  have hS : (∑ p, xr p) = 131072 * meanR xr := by unfold meanR; ring
  have hexp : (∑ p, (xr p - meanR xr) * (xr p - meanR xr))
      = (∑ p, xr p * xr p) - 2 * meanR xr * (∑ p, xr p) + 131072 * (meanR xr * meanR xr) := by
    have : ∀ p, (xr p - meanR xr) * (xr p - meanR xr)
        = xr p * xr p - 2 * meanR xr * xr p + meanR xr * meanR xr := fun p => by ring
    simp only [this, Finset.sum_add_distrib, Finset.sum_sub_distrib, ← Finset.mul_sum,
      Finset.sum_const, nsmul_eq_mul, hcard]
    ring
  unfold varRR
  rw [hexp, hS]; ring

theorem mean_coe : mean (fun p => ((xr p : ℝ) : EReal)) = ((meanR xr : ℝ) : EReal) := by
  unfold mean meanR
  rw [nN_eq, Ideal.div_coe (by norm_num), coe_sum, ← EReal.coe_mul]

theorem varR_coe : varR (fun p => ((xr p : ℝ) : EReal)) = ((varRR xr : ℝ) : EReal) := by
  unfold varR varRR
  rw [mean_coe, nN_eq, Ideal.div_coe (by norm_num)]
  simp only [← EReal.coe_sub, ← EReal.coe_mul, coe_sum]

theorem varK_coe : varK (fun p => ((xr p : ℝ) : EReal)) = ((varRR xr : ℝ) : EReal) := by
  unfold varK
  rw [mean_coe, nN_eq, Ideal.div_coe (by norm_num), ← varK_real_eq]
  simp only [← EReal.coe_sub, ← EReal.coe_mul, coe_sum]

/-- the real reciprocal standard deviation -/
def rstd : ℝ := (Real.sqrt (varRR xr + epsR))⁻¹

theorem rsqrt_coe_var : Ideal.rsqrt (((varRR xr : ℝ) : EReal) + eps) = ((rstd xr : ℝ) : EReal) := by
  have hpos : 0 < varRR xr + epsR := add_pos_of_nonneg_of_pos (varRR_nonneg xr) epsR_pos
  rw [eps_eq, ← EReal.coe_add, Ideal.rsqrt_coe, if_neg (not_lt.mpr hpos.le), if_neg hpos.ne']
  rfl

/-- the real normalised, clamped value -/
def actReal (g bt : ℝ) (p : Pos) : ℝ := max ((xr p - meanR xr) * (g * rstd xr) + bt) 0

theorem actR_coe (g bt : ℝ) (p : Pos) :
    actR (g : EReal) (bt : EReal) (fun p => ((xr p : ℝ) : EReal)) p = ((actReal xr g bt p : ℝ) : EReal) := by
  unfold actR actReal
  rw [mean_coe, varR_coe, rsqrt_coe_var, ← EReal.coe_zero, ← coe_max']
  simp only [← EReal.coe_sub, ← EReal.coe_mul, ← EReal.coe_add]

theorem actK_coe (g bt : ℝ) (p : Pos) :
    actK (g : EReal) (bt : EReal) (fun p => ((xr p : ℝ) : EReal)) p = ((actReal xr g bt p : ℝ) : EReal) := by
  unfold actK shiftK scaleK actReal
  rw [mean_coe, varK_coe, rsqrt_coe_var, ← EReal.coe_zero]
  simp only [← EReal.coe_sub, ← EReal.coe_mul, ← EReal.coe_add]
  rw [coe_max']
  congr 2
  ring

end real

/-! ## A layer on real-valued data -/

/-- An extended real that is (the coercion of) a real number. -/
def IsR (x : EReal) : Prop := ∃ r : ℝ, x = (r : EReal)

theorem act_real {g bt : EReal} {x : Pos → EReal} (hg : IsR g) (hbt : IsR bt) (hx : ∀ p, IsR (x p)) (p : Pos) :
    actK g bt x p = actR g bt x p ∧ IsR (actR g bt x p) := by
  obtain ⟨gr, rfl⟩ := hg
  obtain ⟨btr, rfl⟩ := hbt
  choose xr hxr using hx
  obtain rfl : x = fun p => ((xr p : ℝ) : EReal) := funext hxr
  rw [actK_coe, actR_coe]
  exact ⟨rfl, _, rfl⟩

theorem dense_real {K : ℕ} {h w : Fin K → EReal} {b : EReal} (hh : ∀ k, IsR (h k)) (hw : ∀ k, IsR (w k))
    (hb : IsR b) : IsR (dense h w b) := by
  choose hr hhr using hh
  choose wr hwr using hw
  obtain ⟨br, rfl⟩ := hb
  refine ⟨(∑ k, hr k * wr k) + br, ?_⟩
  unfold dense
  simp only [hhr, hwr, ← EReal.coe_mul, coe_sum, ← EReal.coe_add]

/-! ## The first layer: two half products are one product with the concatenated row -/

theorem dense0K_eq_dense_cat (qrow srow : Fin 256 → EReal) (w : Fin 512 → EReal) (b : EReal) :
    dense0K qrow srow w b = dense (cat qrow srow) w b := by
  unfold dense0K dense
  congr 1
  have h := Fin.sum_univ_add (M := EReal) (a := 256) (b := 256) (fun k : Fin (256 + 256) => cat qrow srow k * w k)
  refine Eq.trans ?_ h.symm
  congr 1

/-! ## The whole network -/

section net
variable (I : Inputs)

/-- The first pre-activation is the same in both arrangements, with no finiteness needed. -/
theorem x0K_eq_x0R' (p : Pos) (o : Fin 256) : x0K I p o = x0R I p o :=
  dense0K_eq_dense_cat _ _ _ _

variable (h : I.IsReal)
include h

theorem cat_real (b : Fin 4) (q : Fin 256) (s : Fin 128) (k : Fin 512) : IsR (cat (I.Q b q) (I.S b s) k) := by
  unfold cat
  split
  · exact h.Q _ _ _
  · exact h.S _ _ _

theorem x0R_real (p : Pos) (o : Fin 256) : IsR (x0R I p o) :=
  dense_real (fun k => cat_real I h _ _ _ k) (fun k => h.W0 o k) (h.b0 o)

theorem h0_agree (p : Pos) (o : Fin 256) : h0K I p o = h0R I p o ∧ IsR (h0R I p o) := by
  unfold h0K h0R
  have hx : (fun p' => x0K I p' o) = fun p' => x0R I p' o := funext fun p' => x0K_eq_x0R' I p' o
  rw [hx]
  exact act_real (h.g0 o) (h.bt0 o) (fun p' => x0R_real I h p' o) p

theorem x1_agree (p : Pos) (o : Fin 64) : x1K I p o = x1R I p o ∧ IsR (x1R I p o) := by
  unfold x1K x1R
  have hx : h0K I p = h0R I p := funext fun k => (h0_agree I h p k).1
  rw [hx]
  exact ⟨rfl, dense_real (fun k => (h0_agree I h p k).2) (fun k => h.W1 o k) (h.b1 o)⟩

theorem h1_agree (p : Pos) (o : Fin 64) : h1K I p o = h1R I p o ∧ IsR (h1R I p o) := by
  unfold h1K h1R
  have hx : (fun p' => x1K I p' o) = fun p' => x1R I p' o := funext fun p' => (x1_agree I h p' o).1
  rw [hx]
  exact act_real (h.g1 o) (h.bt1 o) (fun p' => (x1_agree I h p' o).2) p

theorem x2_agree (p : Pos) (o : Fin 1) : x2K I p o = x2R I p o ∧ IsR (x2R I p o) := by
  unfold x2K x2R
  have hx : h1K I p = h1R I p := funext fun k => (h1_agree I h p k).1
  rw [hx]
  exact ⟨rfl, dense_real (fun k => (h1_agree I h p k).2) (fun k => h.W2 o k) (h.b2 o)⟩

theorem out_agree (p : Pos) (o : Fin 1) : outK I p o = outR I p o ∧ IsR (outR I p o) := by
  unfold outK outR
  have hx : (fun p' => x2K I p' o) = fun p' => x2R I p' o := funext fun p' => (x2_agree I h p' o).1
  rw [hx]
  exact act_real (h.g2 o) (h.bt2 o) (fun p' => (x2_agree I h p' o).2) p

/-- On real inputs the two arrangements of the network compute the same array. -/
theorem outK_eq_outR' : outK I = outR I :=
  funext fun p => funext fun o => (out_agree I h p o).1

end net

end Alg

/-- The first pre-activation is the same in both arrangements, with no finiteness needed. -/
theorem x0K_eq_x0R (I : Inputs) : x0K I = x0R I :=
  funext fun p => funext fun o => Alg.x0K_eq_x0R' I p o

/-- On real inputs the two arrangements of the network compute the same array. -/
theorem outK_eq_outR (I : Inputs) (h : I.IsReal) : outK I = outR I :=
  Alg.outK_eq_outR' I h

end Cert.Spec

end
-- ==== Proof.FiniteInputs.lean ====
/-
  The precondition says every entry of every argument is finite: for each of the fourteen arrays it takes the
  absolute value of each entry, compares it with +∞ (strictly less), and takes the conjunction over the array; the
  fourteen conjunctions are and-ed. On the extended reals |x| < +∞ rules out both infinities, so x is the
  coercion of a real number.
-/
import proofs.«104936_j50861002719650_1_alg».proof.Pre_finite_inputs
import proofs.«104936_j50861002719650_1_alg».proof.Proof.SpecIO
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The shape of a scalar has one index. -/
instance : Subsingleton S_.Idx := ⟨fun a b => funext fun d => d.elim0⟩

/-- An extended real whose absolute value max(x, -x) is strictly below +∞ is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the conjunction over all its entries of |x| < +∞ holds, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
          (constantI S_ 1 1#1) hr hu ix0 = 1#1) (i : s.Idx) : ∃ r : ℝ, a i = r :=
  real_of_abs_lt_top (a i) (Host.reduce_andi_all _ _ hr hu ix0 h i)

/-- A conjunction of two one-bit scalars that is 1 has both 1. -/
theorem andi_vec_eq_one {x y : IVec S_ 1} (h : andi x y ix0 = 1#1) : x ix0 = 1#1 ∧ y ix0 = 1#1 :=
  IntOp.andi_eq_one.1 h

variable [Facts]

/-- The precondition, array by array: every entry of each of the fourteen arguments is a real number. -/
theorem entries_real (a0 : FVec Ideal S4x128x256 .f32) (a1 : FVec Ideal S4x256x256 .f32) (a2 : FVec Ideal S256x512 .f32)
    (a3 a4 a5 : FVec Ideal S256 .f32) (a6 : FVec Ideal S64x256 .f32) (a7 a8 a9 : FVec Ideal S64 .f32)
    (a10 : FVec Ideal S1x64 .f32) (a11 a12 a13 : FVec Ideal S1 .f32)
    (h : fn (F := Ideal) a0 a1 a2 a3 a4 a5 a6 a7 a8 a9 a10 a11 a12 a13 = fun _ => 1#1) :
    (∀ i, ∃ r : ℝ, a0 i = r) ∧ (∀ i, ∃ r : ℝ, a1 i = r) ∧ (∀ i, ∃ r : ℝ, a2 i = r) ∧ (∀ i, ∃ r : ℝ, a3 i = r)
    ∧ (∀ i, ∃ r : ℝ, a4 i = r) ∧ (∀ i, ∃ r : ℝ, a5 i = r) ∧ (∀ i, ∃ r : ℝ, a6 i = r) ∧ (∀ i, ∃ r : ℝ, a7 i = r)
    ∧ (∀ i, ∃ r : ℝ, a8 i = r) ∧ (∀ i, ∃ r : ℝ, a9 i = r) ∧ (∀ i, ∃ r : ℝ, a10 i = r) ∧ (∀ i, ∃ r : ℝ, a11 i = r)
    ∧ (∀ i, ∃ r : ℝ, a12 i = r) ∧ (∀ i, ∃ r : ℝ, a13 i = r) := by
  have h0 := congrFun h ix0
  dsimp only [fn, fn_part1, fn_part2, fn_part3, fn_part4] at h0
  obtain ⟨h0, e13⟩ := andi_vec_eq_one h0
  obtain ⟨h0, e12⟩ := andi_vec_eq_one h0
  obtain ⟨h0, e11⟩ := andi_vec_eq_one h0
  obtain ⟨h0, e10⟩ := andi_vec_eq_one h0
  obtain ⟨h0, e9⟩ := andi_vec_eq_one h0
  obtain ⟨h0, e8⟩ := andi_vec_eq_one h0
  obtain ⟨h0, e7⟩ := andi_vec_eq_one h0
  obtain ⟨h0, e6⟩ := andi_vec_eq_one h0
  obtain ⟨h0, e5⟩ := andi_vec_eq_one h0
  obtain ⟨h0, e4⟩ := andi_vec_eq_one h0
  obtain ⟨h0, e3⟩ := andi_vec_eq_one h0
  obtain ⟨h0, e2⟩ := andi_vec_eq_one h0
  obtain ⟨e0, e1⟩ := andi_vec_eq_one h0
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8, all_real a9 _ _ _ e9,
    all_real a10 _ _ _ e10, all_real a11 _ _ _ e11, all_real a12 _ _ _ e12, all_real a13 _ _ _ e13⟩

/-- The precondition makes the fourteen arguments, read by coordinates, arrays of real numbers. -/
theorem isReal_of_pre (a0 : FVec Ideal S4x128x256 .f32) (a1 : FVec Ideal S4x256x256 .f32) (a2 : FVec Ideal S256x512 .f32)
    (a3 a4 a5 : FVec Ideal S256 .f32) (a6 : FVec Ideal S64x256 .f32) (a7 a8 a9 : FVec Ideal S64 .f32)
    (a10 : FVec Ideal S1x64 .f32) (a11 a12 a13 : FVec Ideal S1 .f32)
    (h : fn (F := Ideal) a0 a1 a2 a3 a4 a5 a6 a7 a8 a9 a10 a11 a12 a13 = fun _ => 1#1) :
    (Cert.SpecIO.inputsOf a0 a1 a2 a3 a4 a5 a6 a7 a8 a9 a10 a11 a12 a13).IsReal := by
  obtain ⟨r0, r1, r2, r3, r4, r5, r6, r7, r8, r9, r10, r11, r12, r13⟩ :=
    entries_real a0 a1 a2 a3 a4 a5 a6 a7 a8 a9 a10 a11 a12 a13 h
  exact ⟨fun b s k => r0 (ix3 b s k), fun b q k => r1 (ix3 b q k), fun o k => r2 (ix2 o k), fun o => r3 (ix1 o),
    fun o => r4 (ix1 o), fun o => r5 (ix1 o), fun o k => r6 (ix2 o k), fun o => r7 (ix1 o), fun o => r8 (ix1 o),
    fun o => r9 (ix1 o), fun o k => r10 (ix2 o k), fun o => r11 (ix1 o), fun o => r12 (ix1 o), fun o => r13 (ix1 o)⟩

end Cert.FiniteInputs

end
-- ==== Proof.lean ====
/-
  The two programs compute the same network on finite inputs.

  The network is a three-layer MLP of 1x1 convolutions over all pairs (query row q, support row s) of a batch b,
  4 * 256 * 128 positions, with batch normalisation over all positions and a clamp at zero after each layer
  (Proof/Spec.lean). One program builds the concatenated row [query row ; support row], multiplies it by the
  whole first weight, takes the variance as the mean of squared deviations and normalises as
  (x - mean) * scale + shift. The other multiplies the query row and the support row by the two halves of the
  first weight and adds the two products, accumulates the sum and the sum of squares of each pre-activation while
  it is produced, takes the variance as the mean of squares minus the squared mean and normalises as
  x * scale + (shift - mean * scale).

  Each program's result array is one of the specification's two arrangements, laid out over (b, channel, q, s).
  The two arrangements agree when every input entry is a real number (Proof/SpecAlgebra.lean: the algebra is
  done in the reals, since multiplication of extended reals does not distribute at the infinities), and the
  precondition says exactly that every entry is finite (Proof/FiniteInputs.lean). Both programs leave their
  arguments unchanged.
-/
import proofs.«104936_j50861002719650_1_alg».proof.Defs
import proofs.«104936_j50861002719650_1_alg».proof.Proof.Gen.Kernel
import proofs.«104936_j50861002719650_1_alg».proof.Proof.Gen.Kernel.Skeleton
import proofs.«104936_j50861002719650_1_alg».proof.Proof.Gen.Kernel.Launch
import proofs.«104936_j50861002719650_1_alg».proof.Proof.Gen.Kernel.Points
import proofs.«104936_j50861002719650_1_alg».proof.Proof.Gen.Kernel.Frame
import proofs.«104936_j50861002719650_1_alg».proof.Proof.Gen.KernelIdeal
import proofs.«104936_j50861002719650_1_alg».proof.Proof.Gen.KernelIdeal.Skeleton
import proofs.«104936_j50861002719650_1_alg».proof.Proof.Gen.KernelIdeal.Launch
import proofs.«104936_j50861002719650_1_alg».proof.Proof.Gen.KernelIdeal.Points
import proofs.«104936_j50861002719650_1_alg».proof.Proof.Gen.KernelIdeal.Frame
import proofs.«104936_j50861002719650_1_alg».proof.Proof.Gen.ReferenceIdeal
import proofs.«104936_j50861002719650_1_alg».proof.Proof.Gen.Pre_finite_inputs
import proofs.«104936_j50861002719650_1_alg».proof.Proof.KernelRun
import proofs.«104936_j50861002719650_1_alg».proof.Proof.KernelValue
import proofs.«104936_j50861002719650_1_alg».proof.Proof.RefRunHand
import proofs.«104936_j50861002719650_1_alg».proof.Proof.RefValue2
import proofs.«104936_j50861002719650_1_alg».proof.Proof.SpecAlgebra
import proofs.«104936_j50861002719650_1_alg».proof.Proof.FiniteInputs
import Idealize.ShloMosaic.Adequacy
import Idealize.ShloMosaic.Init

noncomputable section

namespace Cert.Proof

open Idealize.ShloMosaic Idealize.SL.Sem

/-- The first program's fourteen argument arrays on device c, by coordinates. -/
abbrev argsK (m : (ℓ : Loc Cert.KernelIdeal.nD Cert.KernelIdeal.τ Cert.KernelIdeal.sig) → Buf (Elt Ideal) ℓ) (c : Dev Cert.KernelIdeal.nD) : Cert.Spec.Inputs :=
  Cert.SpecIO.inputsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))

/-- The second program's fourteen argument arrays on device c, by coordinates. -/
abbrev argsR (m' : (ℓ : Loc Cert.ReferenceIdeal.nD Cert.ReferenceIdeal.τ Cert.ReferenceIdeal.sig) → Buf (Elt Ideal) ℓ) (c : Dev Cert.ReferenceIdeal.nD) : Cert.Spec.Inputs :=
  Cert.SpecIO.inputsOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))

/-- The word-level program runs and leaves its arguments unchanged. -/
theorem frame_Kernel : Cert.frame_Kernel := fun m ρ _ => Cert.Kernel.Gen.frame m ρ

/-- The first program runs and leaves its arguments unchanged. -/
theorem frame_KernelIdeal : Cert.frame_KernelIdeal := fun m ρ _ => Cert.KernelIdeal.Gen.frame m ρ

/-- The second program runs and leaves its arguments unchanged: its run with the result forgotten. -/
theorem frame_ReferenceIdeal : Cert.frame_ReferenceIdeal := fun m ρ _ =>
  (θ_run Cert.ReferenceIdeal.defs _ _).mono (fun _ h c => (h c).2) (Cert.ReferenceIdeal.RunHand.run (F := Ideal) m ρ)

/-- From memories that agree on the arguments, all finite, both programs end with the same result array: the
    first arrangement of the network on the common arguments, which on real data is the second. -/
theorem algebraic : Cert.algebraic_KernelIdeal_ReferenceIdeal := by
  intro m ρ m' ρ' hpre hagree
  have hI : ∀ c, argsR m' c = argsK m c := fun c => by
    obtain ⟨e0, e1, e2, e3, e4, e5, e6, e7, e8, e9, e10, e11, e12, e13⟩ := hagree c
    show Cert.SpecIO.inputsOf _ _ _ _ _ _ _ _ _ _ _ _ _ _ = Cert.SpecIO.inputsOf _ _ _ _ _ _ _ _ _ _ _ _ _ _
    rw [e0, e1, e2, e3, e4, e5, e6, e7, e8, e9, e10, e11, e12, e13]
  have hreal : ∀ c, (argsK m c).IsReal := fun c =>
    Cert.FiniteInputs.isReal_of_pre _ _ _ _ _ _ _ _ _ _ _ _ _ _ (hpre c)
  refine ⟨fun c => Cert.SpecIO.resultOf (Cert.Spec.outK (argsK m c)), ?_, ?_⟩
  · exact (θ_run Cert.KernelIdeal.defs _ _).mono
      (fun _ h c => ⟨(h c).1.trans (Cert.KernelIdeal.Fold.value m ρ c), (h c).2⟩) (Cert.KernelIdeal.RunValue.run_main m ρ)
  · refine (θ_run Cert.ReferenceIdeal.defs _ _).mono (fun _ h c => ⟨?_, (h c).2⟩) (Cert.ReferenceIdeal.RunHand.run (F := Ideal) m' ρ')
    refine (h c).1.trans ((Cert.ReferenceIdeal.RefValue.result_eq _ _ _ _ _ _ _ _ _ _ _ _ _ _).trans ?_)
    show Cert.SpecIO.resultOf (Cert.Spec.outR (argsR m' c)) = Cert.SpecIO.resultOf (Cert.Spec.outK (argsK m c))
    rw [hI c, Cert.Spec.outK_eq_outR _ (hreal c)]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
